-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S8x96x224x224 : Shape := ⟨4, ![8, 96, 224, 224]⟩
abbrev S8x224x224 : Shape := ⟨3, ![8, 224, 224]⟩
abbrev S_ : Shape := ⟨0, ![]⟩

class Facts : Prop where
  bcast_S_S8x96x224x224 : S_.BroadcastsInDim S8x96x224x224 (![] : Fin 0 → Fin S8x96x224x224.rank)
  reducesTo_S8x96x224x224_S_d0_1_2_3 : S8x96x224x224.ReducesTo [0, 1, 2, 3] S_
  h_S_ : 0 < S_.numel
  bcast_S_S8x224x224 : S_.BroadcastsInDim S8x224x224 (![] : Fin 0 → Fin S8x224x224.rank)
  reducesTo_S8x224x224_S_d0_1_2 : S8x224x224.ReducesTo [0, 1, 2] S_

variable [Facts]

def fn {F : FTy → Type} [FloatOps F] (main_arg0 : FVec F S8x96x224x224 .f32) (main_arg1 : IVec S8x224x224 32) : IVec S_ 1 :=
  let main_v0 : FVec F S8x96x224x224 .f32 := Host.absf main_arg0
  let main_cst : FVec F S_ .f32 := constant S_ .f32 0x7F800000#32
  let main_v1 : FVec F S8x96x224x224 .f32 := broadcastInDim S8x96x224x224 ![] bcast_S_S8x96x224x224 main_cst
  let main_v2 : IVec S8x96x224x224 1 := cmpf .olt main_v0 main_v1
  let main_c : IVec S_ 1 := constantI S_ 1 1#1
  let main_v3 : IVec S_ 1 := (fun x v => Host.reduce IntOp.andi x v reducesTo_S8x96x224x224_S_d0_1_2_3 h_S_) main_v2 main_c
  let main_c_0 : IVec S_ 32 := constantI S_ 32 0#32
  let main_v4 : IVec S8x224x224 32 := broadcastInDim S8x224x224 ![] bcast_S_S8x224x224 main_c_0
  let main_v5 : IVec S8x224x224 1 := cmpi .sge main_arg1 main_v4
  let main_c_1 : IVec S_ 32 := constantI S_ 32 95#32
  let main_v6 : IVec S8x224x224 32 := broadcastInDim S8x224x224 ![] bcast_S_S8x224x224 main_c_1
  let main_v7 : IVec S8x224x224 1 := cmpi .sle main_arg1 main_v6
  let main_v8 : IVec S8x224x224 1 := andi main_v5 main_v7
  let main_c_2 : IVec S_ 1 := constantI S_ 1 1#1
  let main_v9 : IVec S_ 1 := (fun x v => Host.reduce IntOp.andi x v reducesTo_S8x224x224_S_d0_1_2 h_S_) main_v8 main_c_2
  let main_v10 : IVec S_ 1 := andi main_v3 main_v9
  main_v10
-- ==== Kernel.lean ====
abbrev S8x96x224x224 : Shape := ⟨4, ![8, 96, 224, 224]⟩
abbrev S8x224x224 : Shape := ⟨3, ![8, 224, 224]⟩
abbrev S32x16 : Shape := ⟨2, ![32, 16]⟩
abbrev S56x128 : Shape := ⟨2, ![56, 128]⟩
abbrev S96x8x128 : Shape := ⟨3, ![96, 8, 128]⟩
abbrev S16 : Shape := ⟨1, ![16]⟩
abbrev S_ : Shape := ⟨0, ![]⟩
abbrev S1x56x128 : Shape := ⟨3, ![1, 56, 128]⟩
abbrev S1x96x8x128 : Shape := ⟨4, ![1, 96, 8, 128]⟩
abbrev S1x16 : Shape := ⟨2, ![1, 16]⟩
abbrev S1x1 : Shape := ⟨2, ![1, 1]⟩
abbrev S1x96x224x128 : Shape := ⟨4, ![1, 96, 224, 128]⟩
abbrev S1x224x128 : Shape := ⟨3, ![1, 224, 128]⟩
abbrev S96x224x128 : Shape := ⟨3, ![96, 224, 128]⟩
abbrev S224x128 : Shape := ⟨2, ![224, 128]⟩
abbrev S32x224x128 : Shape := ⟨3, ![32, 224, 128]⟩
abbrev S16x224x128 : Shape := ⟨3, ![16, 224, 128]⟩
abbrev S8x224x128 : Shape := ⟨3, ![8, 224, 128]⟩
abbrev S4x224x128 : Shape := ⟨3, ![4, 224, 128]⟩
abbrev S2x224x128 : Shape := ⟨3, ![2, 224, 128]⟩
abbrev S1x1x224x128 : Shape := ⟨4, ![1, 1, 224, 128]⟩
abbrev S1 : Shape := ⟨1, ![1]⟩
abbrev S1x1x1x1 : Shape := ⟨4, ![1, 1, 1, 1]⟩

abbrev nBuf : Table → Nat
  | .hbm => 8
  | .local .tc .vmem => 4
  | .local .tc .smem => 1
  | .local .scVector .vmem => 3
  | _ => 0

abbrev bufTy : (tb : Table) → Fin (nBuf tb) → BufTy
  | .hbm, ⟨0, _⟩ => ⟨S8x96x224x224, .f32⟩
  | .hbm, ⟨1, _⟩ => ⟨S8x224x224, .i32⟩
  | .hbm, ⟨2, _⟩ => ⟨S32x16, .f32⟩
  | .hbm, ⟨3, _⟩ => ⟨S1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local .tc .vmem, ⟨0, _⟩ => ⟨S1x96x224x128, .f32⟩
  | .local .tc .vmem, ⟨1, _⟩ => ⟨S1x96x224x128, .f32⟩
  | .local .tc .vmem, ⟨2, _⟩ => ⟨S1x224x128, .i32⟩
  | .local .tc .vmem, ⟨3, _⟩ => ⟨S1x224x128, .i32⟩
  | .local .tc .smem, ⟨0, _⟩ => ⟨S1x1, .f32⟩
  | .local .scVector .vmem, ⟨0, _⟩ => ⟨S56x128, .i32⟩
  | .local .scVector .vmem, ⟨1, _⟩ => ⟨S96x8x128, .f32⟩
  | .local .scVector .vmem, ⟨2, _⟩ => ⟨S16, .f32⟩
  | _, _ => ⟨S8x96x224x224, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c56_i32 : BitVec 32 := 56#32
  let v29 : BitVec 32 := Scalar.muli v28 c56_i32
  let c0_i32_13_r0 : BitVec 32 := 0#32
  ![v18.toNat, v29.toNat, 0]
@[reducible] def k0_t1_loop : Scf.Loop 32 :=
  let c0_i32_10 : BitVec 32 := 0#32
  let c7_i32 : BitVec 32 := 7#32
  let v32 : BitVec 32 := Scalar.addi c0_i32_10 c7_i32
  let c1_i32_11 : BitVec 32 := 1#32
  ⟨c0_i32_10, v32, c1_i32_11⟩
def k0_off2 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_16_r1 : BitVec 32 := 0#32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c56_i32 : BitVec 32 := 56#32
  let v29 : BitVec 32 := Scalar.muli v28 c56_i32
  let c0_i32_10 : BitVec 32 := 0#32
  let c1_i32_11 : BitVec 32 := 1#32
  let arg8 : BitVec 32 := Scf.iv c0_i32_10 c1_i32_11 k0_t1
  let c8_i32 : BitVec 32 := 8#32
  let v35 : BitVec 32 := Scalar.muli arg8 c8_i32
  let v36 : BitVec 32 := Scalar.addi v29 v35
  let c0_i32_17_r1 : BitVec 32 := 0#32
  ![v18.toNat, 0, v36.toNat, 0]
@[reducible] def k0_t2_loop : Scf.Loop 32 :=
  let c0_i32_13 : BitVec 32 := 0#32
  let c64_i32 : BitVec 32 := 64#32
  let v37 : BitVec 32 := Scalar.addi c0_i32_13 c64_i32
  let c1_i32_14 : BitVec 32 := 1#32
  ⟨c0_i32_13, v37, c1_i32_14⟩
def k0_off3 (k0_t1 : Fin k0_t1_loop.trips) (k0_t2 : Fin k0_t2_loop.trips) : Fin 2 → Nat :=
  let c0_i32_10 : BitVec 32 := 0#32
  let c1_i32_11 : BitVec 32 := 1#32
  let arg8 : BitVec 32 := Scf.iv c0_i32_10 c1_i32_11 k0_t1
  let c8_i32_29 : BitVec 32 := 8#32
  let v66 : BitVec 32 := Scalar.muli arg8 c8_i32_29
  let c0_i32_13 : BitVec 32 := 0#32
  let c1_i32_14 : BitVec 32 := 1#32
  let arg10 : BitVec 32 := Scf.iv c0_i32_13 c1_i32_14 k0_t2
  let c0_i32_17 : BitVec 32 := 0#32
  let v40 : BitVec 1 := Scalar.cmpi .sgt arg10 c0_i32_17
  let v41 : BitVec 32 := Scalar.extui v40
  let c0_i32_18 : BitVec 32 := 0#32
  let v42 : BitVec 1 := Scalar.cmpi .slt arg10 c0_i32_18
  let v43 : BitVec 32 := Scalar.extui v42
  let v44 : BitVec 32 := Scalar.subi v41 v43
  let c8_i32_16 : BitVec 32 := 8#32
  let c0_i32_19 : BitVec 32 := 0#32
  let v45 : BitVec 1 := Scalar.cmpi .sgt c8_i32_16 c0_i32_19
  let v46 : BitVec 32 := Scalar.extui v45
  let c0_i32_20 : BitVec 32 := 0#32
  let v47 : BitVec 1 := Scalar.cmpi .slt c8_i32_16 c0_i32_20
  let v48 : BitVec 32 := Scalar.extui v47
  let v49 : BitVec 32 := Scalar.subi v46 v48
  let v50 : BitVec 1 := Scalar.cmpi .ne v44 v49
  let v51 : BitVec 32 := Scalar.remsi arg10 c8_i32_16
  let c0_i32_21 : BitVec 32 := 0#32
  let v52 : BitVec 1 := Scalar.cmpi .ne v51 c0_i32_21
  let v53 : BitVec 1 := Scalar.andi v50 v52
  let v39 : BitVec 32 := Scalar.divsi arg10 c8_i32_16
  let c1_i32_22 : BitVec 32 := 1#32
  let v54 : BitVec 32 := Scalar.subi v39 c1_i32_22
  let v55 : BitVec 32 := Scalar.select v53 v54 v39
  let v67 : BitVec 32 := Scalar.addi v66 v55
  let v69 : Index := Scalar.indexCast v67
  let c8_i32_23 : BitVec 32 := 8#32
  let c0_i32_24 : BitVec 32 := 0#32
  let v56 : BitVec 1 := Scalar.cmpi .eq c8_i32_23 c0_i32_24
  let c1_i32_25 : BitVec 32 := 1#32
  let v57 : BitVec 32 := Scalar.select v56 c1_i32_25 c8_i32_23
  let v58 : BitVec 32 := Scalar.remsi arg10 v57
  let c0_i32_27 : BitVec 32 := 0#32
  let v60 : BitVec 1 := Scalar.cmpi .slt v58 c0_i32_27
  let c0_i32_28 : BitVec 32 := 0#32
  let v61 : BitVec 1 := Scalar.cmpi .slt v57 c0_i32_28
  let v62 : BitVec 1 := Scalar.xori v60 v61
  let c0_i32_26 : BitVec 32 := 0#32
  let v59 : BitVec 1 := Scalar.cmpi .ne v58 c0_i32_26
  let v63 : BitVec 1 := Scalar.andi v62 v59
  let v64 : BitVec 32 := Scalar.addi v58 v57
  let v65 : BitVec 32 := Scalar.select v63 v64 v58
  let c16_i32 : BitVec 32 := 16#32
  let v68 : BitVec 32 := Scalar.muli v65 c16_i32
  let v70 : Index := Scalar.indexCast v68
  ![v69.toNat, v70.toNat]

def k0_chk1 (v71 : IVec S16 32) (v72 : IVec S16 32) (v75 : IVec S16 32) : Prop :=
  (∀ a x, ((![v71, v72, v75] : Fin 3 → IVec S16 32) a x).toNat < S96x8x128.size a)
instance k0_chk1.dec : ∀ (v71 : IVec S16 32) (v72 : IVec S16 32) (v75 : IVec S16 32), Decidable (k0_chk1 v71 v72 v75) := fun v71 v72 v75 => decidable_of_iff' _ (Iff.of_eq (k0_chk1.eq_1 v71 v72 v75))
theorem k0_idx1_inb : ∀ (v71 : IVec S16 32) (v72 : IVec S16 32) (v75 : IVec S16 32) (k0_hw1 : k0_chk1 v71 v72 v75), ∀ a x, ((![v71, v72, v75] : Fin 3 → IVec S16 32) a x).toNat < S96x8x128.size a := fun v71 v72 v75 k0_hw1 => k0_hw1
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_13_r2 : BitVec 32 := 0#32
  ![v1.toNat, 0]
abbrev grid1 : Pipeline.Grid := ⟨2, ![8, 1], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, arg1.toNat, c1_i32.toNat]

def cc1_transform_1 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x96x224x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x224x128 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .smem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  squeezes_S1x56x128_S56x128 : S1x56x128.Squeezes S56x128
  iota_S16_d0_w32_scVector : S16.Iotas .scVector 32 [0]
  squeezes_S1x96x8x128_S96x8x128 : S1x96x8x128.Squeezes S96x8x128
  h_S1x16 : 0 < S1x16.numel
  shapeCasts_S1x16_S16 : S1x16.ShapeCasts S16
  h_S96x8x128 : 0 < S96x8x128.numel
  inb_S16_S16_0 : ∀ a, (![0] : Fin 1 → Nat) a + S16.size a ≤ S16.size a
  h_S16 : 0 < S16.numel
  squeezes_S1x16_S16 : S1x16.Squeezes S16
  inb_S1x96x224x128_S1x96x224x128_0_0_0_0 : ∀ a, (![0, 0, 0, 0] : Fin 4 → Nat) a + S1x96x224x128.size a ≤ S1x96x224x128.size a
  h_S1x96x224x128 : 0 < S1x96x224x128.numel
  shapeCasts_S1x96x224x128_S96x224x128 : S1x96x224x128.ShapeCasts S96x224x128
  inb_S1x224x128_S1x224x128_0_0_0 : ∀ a, (![0, 0, 0] : Fin 3 → Nat) a + S1x224x128.size a ≤ S1x224x128.size a
  h_S1x224x128 : 0 < S1x224x128.numel
  shapeCasts_S1x224x128_S224x128 : S1x224x128.ShapeCasts S224x128
  shapeCasts_S224x128_S1x224x128 : S224x128.ShapeCasts S1x224x128
  shapeCasts_S1x224x128_S1x224x128 : S1x224x128.ShapeCasts S1x224x128
  broadcasts_S1x224x128_S32x224x128 : S1x224x128.Broadcasts S32x224x128
  slices_S96x224x128_o64_0_0_S32x224x128 : S96x224x128.Slices ![64, 0, 0] S32x224x128
  slices_S96x224x128_o32_0_0_S32x224x128 : S96x224x128.Slices ![32, 0, 0] S32x224x128
  slices_S96x224x128_o0_0_0_S32x224x128 : S96x224x128.Slices ![0, 0, 0] S32x224x128
  broadcasts_S1x224x128_S16x224x128 : S1x224x128.Broadcasts S16x224x128
  slices_S32x224x128_o16_0_0_S16x224x128 : S32x224x128.Slices ![16, 0, 0] S16x224x128
  slices_S32x224x128_o0_0_0_S16x224x128 : S32x224x128.Slices ![0, 0, 0] S16x224x128
  broadcasts_S1x224x128_S8x224x128 : S1x224x128.Broadcasts S8x224x128
  slices_S16x224x128_o8_0_0_S8x224x128 : S16x224x128.Slices ![8, 0, 0] S8x224x128
  slices_S16x224x128_o0_0_0_S8x224x128 : S16x224x128.Slices ![0, 0, 0] S8x224x128
  broadcasts_S1x224x128_S4x224x128 : S1x224x128.Broadcasts S4x224x128
  slices_S8x224x128_o4_0_0_S4x224x128 : S8x224x128.Slices ![4, 0, 0] S4x224x128
  slices_S8x224x128_o0_0_0_S4x224x128 : S8x224x128.Slices ![0, 0, 0] S4x224x128
  broadcasts_S1x224x128_S2x224x128 : S1x224x128.Broadcasts S2x224x128
  slices_S4x224x128_o2_0_0_S2x224x128 : S4x224x128.Slices ![2, 0, 0] S2x224x128
  slices_S4x224x128_o0_0_0_S2x224x128 : S4x224x128.Slices ![0, 0, 0] S2x224x128
  slices_S2x224x128_o1_0_0_S1x224x128 : S2x224x128.Slices ![1, 0, 0] S1x224x128
  slices_S2x224x128_o0_0_0_S1x224x128 : S2x224x128.Slices ![0, 0, 0] S1x224x128
  iota_S1x224x128_d2_w32 : S1x224x128.Iotas .tc 32 [2]
  inb_S1x1_S1x1_0_0 : ∀ a, (![0, 0] : Fin 2 → Nat) a + S1x1.size a ≤ S1x1.size a
  numel1_S1x1 : S1x1.numel = 1
  shapeCasts_S1x224x128_S1x1x224x128 : S1x224x128.ShapeCasts S1x1x224x128
  reduces_S1x1x224x128_S1 : S1x1x224x128.Reduces [1, 2, 3] S1
  shapeCasts_S1_S1x1x1x1 : S1.ShapeCasts S1x1x1x1
  inpos_S1x1x1x1_p0_0_0_0 : ∀ a, (![0, 0, 0, 0] : Fin 4 → Nat) a < S1x1x1x1.size a
  reducesTo_S32x16_S_d0_1 : S32x16.ReducesTo [0, 1] S_
  h_S_ : 0 < S_.numel
  shapeCasts_S1x1_S_ : S1x1.ShapeCasts S_
  hcc0_scoped0 : 0 + S_.numel ≤ 8
  hcc0_scoped1 : 1 + S_.numel ≤ 8
  hcc0_scoped2 : 2 + S_.numel ≤ 8
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x56x128.size a ≤ S8x224x224.size a
  k0_t1_ok : k0_t1_loop.OK
  k0_off2_inb : ∀ (i : grid0.Coords) (k0_t1 : Fin k0_t1_loop.trips), ∀ a, (k0_off2 i k0_t1) a + S1x96x8x128.size a ≤ S8x96x224x224.size a
  k0_t2_ok : k0_t2_loop.OK
  k0_off3_inb : ∀ (k0_t1 : Fin k0_t1_loop.trips) (k0_t2 : Fin k0_t2_loop.trips), ∀ a, (k0_off3 k0_t1 k0_t2) a + S1x16.size a ≤ S56x128.size a
  k0_off4_inb : ∀ i : grid0.Coords, ∀ a, (k0_off4 i) a + S1x16.size a ≤ S32x16.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S1x96x224x128.size a < S8x96x224x224.size a
  hwx1_0 : ∀ i : grid1.Coords, EltTy.bits .f32 = 32 ∨ (Rect.unit (s := S8x96x224x224) (fun a => cc1_transform_0 i a * S1x96x224x128.size a) (fun a => (Pipeline.Clip.of (cc1_transform_0 i a) (S1x96x224x128.size a) (S8x96x224x224.size a)).extent (S1x96x224x128.size a)) fun a => Pipeline.Clip.inb (Pipeline.Clip.ok_of (hstart1_0 i a))).WholeWords (EltTy.packing .f32)
  hwxs1_0 : ∀ i : grid1.Coords, EltTy.bits .f32 = 32 ∨ (Rect.unit (s := S1x96x224x128) (fun _ => 0) (fun a => (Pipeline.Clip.of (cc1_transform_0 i a) (S1x96x224x128.size a) (S8x96x224x224.size a)).extent (S1x96x224x128.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S1x224x128.size a < S8x224x224.size a
  hwx1_1 : ∀ i : grid1.Coords, EltTy.bits .i32 = 32 ∨ (Rect.unit (s := S8x224x224) (fun a => cc1_transform_1 i a * S1x224x128.size a) (fun a => (Pipeline.Clip.of (cc1_transform_1 i a) (S1x224x128.size a) (S8x224x224.size a)).extent (S1x224x128.size a)) fun a => Pipeline.Clip.inb (Pipeline.Clip.ok_of (hstart1_1 i a))).WholeWords (EltTy.packing .i32)
  hwxs1_1 : ∀ i : grid1.Coords, EltTy.bits .i32 = 32 ∨ (Rect.unit (s := S1x224x128) (fun _ => 0) (fun a => (Pipeline.Clip.of (cc1_transform_1 i a) (S1x224x128.size a) (S8x224x224.size a)).extent (S1x224x128.size a)) fun a => (Nat.zero_add _).trans_le (Pipeline.Clip.extent_le (Pipeline.Clip.ok_of (hstart1_1 i a)))).WholeWords (EltTy.packing .i32)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2

abbrev win1_0 : Pipeline.Window sig grid1 :=
  Pipeline.Window.ofSpecClip (Memref.whole main_arg0) S1x96x224x128.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_arg1) S1x224x128.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpec (Memref.whole main_v1) S1x1.size cc1_transform_2 reads1_2 true false 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x96x224x224 : Shape := ⟨4, ![8, 96, 224, 224]⟩
abbrev S8x224x224 : Shape := ⟨3, ![8, 224, 224]⟩
abbrev S8x96x50176 : Shape := ⟨3, ![8, 96, 50176]⟩
abbrev S8x50176x96 : Shape := ⟨3, ![8, 50176, 96]⟩
abbrev S401408x96 : Shape := ⟨2, ![401408, 96]⟩
abbrev S401408 : Shape := ⟨1, ![401408]⟩
abbrev S401408x1 : Shape := ⟨2, ![401408, 1]⟩
abbrev S_ : Shape := ⟨0, ![]⟩
abbrev S401408x1x1 : Shape := ⟨3, ![401408, 1, 1]⟩
abbrev S1 : Shape := ⟨1, ![1]⟩
abbrev S1x1x1 : Shape := ⟨3, ![1, 1, 1]⟩

abbrev nBuf : Space → Nat
  | .hbm => 33
  | .vmem => 0
  | .smem => 0
  | _ => 0

abbrev bufTy : (tb : Table) → Fin (tcTables nBuf tb) → BufTy
  | .hbm, ⟨0, _⟩ => ⟨S8x96x224x224, .f32⟩
  | .hbm, ⟨1, _⟩ => ⟨S8x224x224, .i32⟩
  | .hbm, ⟨2, _⟩ => ⟨S8x96x50176, .f32⟩
  | .hbm, ⟨3, _⟩ => ⟨S8x50176x96, .f32⟩
  | .hbm, ⟨4, _⟩ => ⟨S401408x96, .f32⟩
  | .hbm, ⟨5, _⟩ => ⟨S401408, .i32⟩
  | .hbm, ⟨6, _⟩ => ⟨S401408x1, .i32⟩
  | .hbm, ⟨7, _⟩ => ⟨S_, .i32⟩
  | .hbm, ⟨8, _⟩ => ⟨S401408x1, .i32⟩
  | .hbm, ⟨9, _⟩ => ⟨S401408x1, .i1⟩
  | .hbm, ⟨10, _⟩ => ⟨S_, .i32⟩
  | .hbm, ⟨11, _⟩ => ⟨S401408x1, .i32⟩
  | .hbm, ⟨12, _⟩ => ⟨S401408x1, .i32⟩
  | .hbm, ⟨13, _⟩ => ⟨S401408x1, .i32⟩
  | .hbm, ⟨14, _⟩ => ⟨S401408x1x1, .i32⟩
  | .hbm, ⟨15, _⟩ => ⟨S1, .i32⟩
  | .hbm, ⟨16, _⟩ => ⟨S_, .i32⟩
  | .hbm, ⟨17, _⟩ => ⟨S401408x1x1, .i32⟩
  | .hbm, ⟨18, _⟩ => ⟨S401408x1x1, .i1⟩
  | .hbm, ⟨19, _⟩ => ⟨S1x1x1, .i32⟩
  | .hbm, ⟨20, _⟩ => ⟨S401408x1x1, .i32⟩
  | .hbm, ⟨21, _⟩ => ⟨S401408x1x1, .i1⟩
  | .hbm, ⟨22, _⟩ => ⟨S401408x1x1, .i1⟩
  | .hbm, ⟨23, _⟩ => ⟨S_, .i1⟩
  | .hbm, ⟨24, _⟩ => ⟨S401408x1, .i1⟩
  | .hbm, ⟨25, _⟩ => ⟨S401408x1, .f32⟩
  | .hbm, ⟨26, _⟩ => ⟨S_, .f32⟩
  | .hbm, ⟨27, _⟩ => ⟨S401408x1, .f32⟩
  | .hbm, ⟨28, _⟩ => ⟨S401408x1, .f32⟩
  | .hbm, ⟨29, _⟩ => ⟨S401408, .f32⟩
  | .hbm, ⟨30, _⟩ => ⟨S401408, .f32⟩
  | .hbm, ⟨31, _⟩ => ⟨S_, .f32⟩
  | .hbm, ⟨32, _⟩ => ⟨S_, .f32⟩
  | _, _ => ⟨S8x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_cst : Ref sig .tc := ⟨.hbm, 26, rfl⟩
abbrev main_call0_v14 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst : Ref sig .tc := ⟨.hbm, 31, rfl⟩
abbrev main_v8 : Ref sig .tc := ⟨.hbm, 32, rfl⟩

abbrev nD : Nat := 1
abbrev τ : Topo := Topo.v7x

variable {F : FTy → Type} [FloatOps F]

class Facts₀ : Prop where
  shapeCasts_S8x96x224x224_S8x96x50176 : S8x96x224x224.ShapeCasts S8x96x50176
  transposes_S8x96x50176_S8x50176x96_0_2_1 : S8x96x50176.Transposes [0, 2, 1] S8x50176x96
  shapeCasts_S8x50176x96_S401408x96 : S8x50176x96.ShapeCasts S401408x96
  shapeCasts_S8x224x224_S401408 : S8x224x224.ShapeCasts S401408
  bcast_S401408_S401408x1_0 : S401408.BroadcastsInDim S401408x1 (![0] : Fin 1 → Fin S401408x1.rank)
  bcast_S_S401408x1 : S_.BroadcastsInDim S401408x1 (![] : Fin 0 → Fin S401408x1.rank)
  shapeCasts_S401408x1_S401408x1x1 : S401408x1.ShapeCasts S401408x1x1
  bcast_S_S401408x1x1 : S_.BroadcastsInDim S401408x1x1 (![] : Fin 0 → Fin S401408x1x1.rank)
  bcast_S1_S1x1x1_2 : S1.BroadcastsInDim S1x1x1 (![2] : Fin 1 → Fin S1x1x1.rank)
  bcast_S1x1x1_S401408x1x1_0_1_2 : S1x1x1.BroadcastsInDim S401408x1x1 (![0, 1, 2] : Fin 3 → Fin S401408x1x1.rank)
  reducesTo_S401408x1x1_S401408x1_d2 : S401408x1x1.ReducesTo [2] S401408x1
  h_S_ : 0 < S_.numel
  shapeCasts_S401408x1_S401408 : S401408x1.ShapeCasts S401408
  reducesTo_S401408_S_d0 : S401408.ReducesTo [0] S_
  gather_S401408x96_S401408x1x1_S401408x1_n_1_0_0_1_2_11_wf : GatherDims.WF S401408x96 S401408x1x1 S401408x1 [] [1] [0] [1] [0] 2 ![1, 1]

variable [Facts₀]

def gather_S401408x96_S401408x1x1_S401408x1_n_1_0_0_1_2_11 : GatherDims S401408x96 S401408x1x1 S401408x1 where
  offsetDims := []
  collapsedSliceDims := [1]
  operandBatchingDims := [0]
  startIndicesBatchingDims := [0]
  startIndexMap := [1]
  indexVectorDim := 2
  sliceSizes := ![1, 1]
  wf := gather_S401408x96_S401408x1x1_S401408x1_n_1_0_0_1_2_11_wf

class Facts : Prop extends Facts₀ where

variable [Facts]
-- ==== Proof.Spec.lean ====
/-
  The value the kernel computes, as pure functions of the two argument arrays, at any float instance.

  The scores are an array x[b, c, h, w] (8 x 96 x 224 x 224) and the labels an integer array y[b, h, w] (8 x 224 x 224).
  Columns w < 128 are summed by 32 vector subcores: subcore number wid handles batch wid / 4 and the 56 rows starting at
  (wid % 4) * 56, in 7 bands of 8 rows; within a band, trip k2 < 64 handles row k2 / 8 of the band and the 16 columns
  starting at (k2 % 8) * 16, one per lane, and SUBTRACTS x[b, y[b, h, w], h, w] from a running vector of 16 lanes that starts
  at zero (`scOut`).  Columns 128 <= w < 224 are handled batch by batch on the other processor: for batch b the 224 x 128 block
  whose lane j stands for column 128 + j holds x[b, y[b, h, 128 + j], h, 128 + j] for j < 96 and zero for j >= 96, its entries
  are added up, and the sum is subtracted from a running scalar that starts at zero (`tcOut`).  The result is the sum of the
  32 x 16 lane totals plus that scalar (`kernelVal`).
  Coordinates are natural numbers reduced modulo the extents, so that the functions are total; every use is in range.
-/
import Idealize.ShloMosaic.PureOps

noncomputable section

namespace Cert.Spec

open Idealize.ShloMosaic

abbrev SX : Shape := ⟨4, ![8, 96, 224, 224]⟩
abbrev SY : Shape := ⟨3, ![8, 224, 224]⟩
abbrev S16 : Shape := ⟨1, ![16]⟩
abbrev S32x16 : Shape := ⟨2, ![32, 16]⟩
abbrev S1x1 : Shape := ⟨2, ![1, 1]⟩
abbrev S1 : Shape := ⟨1, ![1]⟩
abbrev S_ : Shape := ⟨0, ![]⟩
abbrev S1x224x128 : Shape := ⟨3, ![1, 224, 128]⟩
abbrev S1x1x224x128 : Shape := ⟨4, ![1, 1, 224, 128]⟩
abbrev S1x1x1x1 : Shape := ⟨4, ![1, 1, 1, 1]⟩

variable {F : FTy → Type} [FloatOps F]

/-- The index (b, c, h, w) of the scores, each coordinate reduced modulo its extent. -/
def ixX (b c h w : ℕ) : SX.Idx := fun a => match a with
  | ⟨0, _⟩ => ⟨b % 8, Nat.mod_lt _ (by decide)⟩
  | ⟨1, _⟩ => ⟨c % 96, Nat.mod_lt _ (by decide)⟩
  | ⟨2, _⟩ => ⟨h % 224, Nat.mod_lt _ (by decide)⟩
  | ⟨3, _⟩ => ⟨w % 224, Nat.mod_lt _ (by decide)⟩

/-- The index (b, h, w) of the labels, each coordinate reduced modulo its extent. -/
def ixY (b h w : ℕ) : SY.Idx := fun a => match a with
  | ⟨0, _⟩ => ⟨b % 8, Nat.mod_lt _ (by decide)⟩
  | ⟨1, _⟩ => ⟨h % 224, Nat.mod_lt _ (by decide)⟩
  | ⟨2, _⟩ => ⟨w % 224, Nat.mod_lt _ (by decide)⟩

/-- The score the label at (b, h, w) selects: x[b, y[b, h, w], h, w]. -/
def pick (x : FVec F SX .f32) (y : IVec SY 32) (b h w : ℕ) : F .f32 :=
  x (ixX b (y (ixY b h w)).toNat h w)

/-! ## The vector subcores' part -/

/-- What trip k2 of band k1 gathers on subcore wid, lane by lane. -/
def scG (x : FVec F SX .f32) (y : IVec SY 32) (wid k1 k2 : ℕ) : FVec F S16 .f32 := fun l =>
  pick x y (wid / 4) ((wid % 4) * 56 + k1 * 8 + k2 / 8) ((k2 % 8) * 16 + (l 0).val)

/-- The running vector after n trips of band k1, from the vector acc. -/
def scInner (x : FVec F SX .f32) (y : IVec SY 32) (wid k1 : ℕ) (acc : FVec F S16 .f32) : ℕ → FVec F S16 .f32
  | 0 => acc
  | n + 1 => subf (scInner x y wid k1 acc n) (scG x y wid k1 n)

/-- The running vector after n whole bands, from zero. -/
def scOuter (x : FVec F SX .f32) (y : IVec SY 32) (wid : ℕ) : ℕ → FVec F S16 .f32
  | 0 => broadcast S16 (FloatOps.ofBits .f32 0x00000000#32)
  | n + 1 => scInner x y wid n (scOuter x y wid n) 64

/-- The 32 x 16 array of lane totals: row wid is subcore wid's vector after its 7 bands. -/
def scOut (x : FVec F SX .f32) (y : IVec SY 32) : FVec F S32x16 .f32 := fun j =>
  scOuter x y (j 0).val 7 (fun a => match a with | ⟨0, _⟩ => ⟨(j 1).val, (j 1).isLt⟩)

/-! ## The other processor's part -/

/-- Batch b's 224 x 128 block of selected scores: lane j < 96 stands for column 128 + j, the other lanes are zero. -/
def tcW (x : FVec F SX .f32) (y : IVec SY 32) (b : ℕ) : FVec F S1x224x128 .f32 := fun i =>
  if (i 2).val < 96 then pick x y b (i 1).val (128 + (i 2).val) else FloatOps.ofBits .f32 0x00000000#32

theorem shapeCasts_W : S1x224x128.ShapeCasts S1x1x224x128 := by decide
theorem reduces_W : S1x1x224x128.Reduces [1, 2, 3] S1 := by decide
theorem shapeCasts_1 : S1.ShapeCasts S1x1x1x1 := by decide
theorem inpos_1 : ∀ a, (![0, 0, 0, 0] : Fin 4 → Nat) a < S1x1x1x1.size a := by decide

/-- Batch b's term: the block's entries added up from zero. -/
def tcTerm (x : FVec F SX .f32) (y : IVec SY 32) (b : ℕ) : F .f32 :=
  extractAt ![0, 0, 0, 0]
    (shapeCast S1x1x1x1 (multiReduction .add [1, 2, 3] S1 (shapeCast S1x1x224x128 (tcW x y b) shapeCasts_W) 0x00000000#32 reduces_W (.inl rfl) rfl) shapeCasts_1)
    inpos_1

/-- The running scalar after n batches, from zero. -/
def tcAcc (x : FVec F SX .f32) (y : IVec SY 32) : ℕ → F .f32
  | 0 => FloatOps.ofBits .f32 0x00000000#32
  | n + 1 => Scalar.subf (tcAcc x y n) (tcTerm x y n)

/-- The 1 x 1 result of the other processor: the running scalar after the 8 batches. -/
def tcOut (x : FVec F SX .f32) (y : IVec SY 32) : FVec F S1x1 .f32 := fun _ => tcAcc x y 8

/-! ## The whole -/

theorem reducesTo_sc : S32x16.ReducesTo [0, 1] S_ := by decide
theorem h_S_ : 0 < S_.numel := by decide
theorem shapeCasts_tc : S1x1.ShapeCasts S_ := by decide

/-- The kernel's result: the host's sum of the lane totals from zero, plus the scalar. -/
def kernelVal (x : FVec F SX .f32) (y : IVec SY 32) : FVec F S_ .f32 :=
  addf (Host.reduceAdd (scOut x y) (constant S_ .f32 0x00000000#32) reducesTo_sc h_S_) (shapeCast S_ (tcOut x y) shapeCasts_tc)

end Cert.Spec

end
-- ==== Proof.KI.Common.lean ====
/-
  What every module about this program's run shares: the program as the launch theorem of a SparseCore program sees it
  (its labels, its SparseCore configuration, its body table, the side conditions of the handshake semaphores), the
  resource algebra (the handshakes' rounds, beside the pipeline's rounds for the one TensorCore call, beside the counters of
  the subcores' own copies), the launch memory, and the names of the arrays: the scores x and the labels y (the arguments),
  the 32 x 16 array of lane totals o, the 1 x 1 scalar t, and the host's four scalars.
-/
import proofs.«209113_g38259568672962_cont_8to1_b_1629_19_alg».proof.Defs
import proofs.«209113_g38259568672962_cont_8to1_b_1629_19_alg».proof.Proof.Gen.KernelIdeal
import proofs.«209113_g38259568672962_cont_8to1_b_1629_19_alg».proof.Proof.Gen.KernelIdeal.Launch
import proofs.«209113_g38259568672962_cont_8to1_b_1629_19_alg».proof.Proof.Gen.KernelIdeal.Points
import proofs.«209113_g38259568672962_cont_8to1_b_1629_19_alg».proof.Proof.SkeletonKernelIdealP
import proofs.«209113_g38259568672962_cont_8to1_b_1629_19_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The pipeline's rounds (the staging cells of the TensorCore call). -/
abbrev UP : Type := UR sig nD τ
/-- Handshakes, beside the pipeline's cells, beside the counters of the subcores' own copies. -/
abbrev UU : Type := UH × (UP × Counters)

/-- The handshakes' component. -/
abbrev EH : Emb UH (MT nD τ sig (HIx 1) (Elt F) ℕ UU ℕ) := embL
/-- The pipeline's component. -/
def EP : Emb UP (MT nD τ sig (HIx 1) (Elt F) ℕ UU ℕ) :=
  (Emb.inl : Emb UP (UP × Counters)).trans (embR : Emb (UP × Counters) (MT nD τ sig (HIx 1) (Elt F) ℕ UU ℕ))
instance EP_landsIn : (EP : Emb UP (MT nD τ sig (HIx 1) (Elt F) ℕ UU ℕ)).LandsIn (upEmb : UEmb _ (MT nD τ sig (HIx 1) (Elt F) ℕ UU ℕ)) := by
  unfold EP; infer_instance

/-! ## The arrays -/

/-- The scores x and the labels y (the arguments); the lane totals o; the scalar t; as locations of device d. -/
abbrev xLoc (d : Dev nD) : Loc nD τ sig := (SparseCore.T d).loc main_arg0
abbrev yLoc (d : Dev nD) : Loc nD τ sig := (SparseCore.T d).loc main_arg1
abbrev oLoc (d : Dev nD) : Loc nD τ sig := (SparseCore.T d).loc main_v0
abbrev tLoc (d : Dev nD) : Loc nD τ sig := (SparseCore.T d).loc main_v1

/-- Every label names a class: as an unsigned word it is below 96. -/
def YOK (m : (ℓ : Loc nD τ sig) → Buf (Elt F) ℓ) : Prop :=
  ∀ (d : Dev nD) (j : S8x224x224.Idx), (m (yLoc d) j : BitVec 32).toNat < 96

end Cert.KernelIdeal.Hand

end
-- ==== Proof.KI.Tail.lean ====
/-
  The TensorCore's eight arrays in HBM — the arguments x and y, the lane totals o, the scalar t, and the host's zero
  constant and three scalars — held together, and the host's four closing operations run over them: the zero constant,
  the sum of the lane totals from it, the scalar laid out as a rank-0 array, and the addition of the two. With o at the
  lane totals and t at the scalar of the specification, the last array ends at the specification's value of the kernel.
-/
import proofs.«209113_g38259568672962_cont_8to1_b_1629_19_alg».proof.Proof.KI.Common

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type}

local notation "𝕄" => MT nD τ sig (HIx 1) (Elt F) ℕ UU ℕ

abbrev x' : DevRef τ sig := Proc.devRef .tc (main_arg0 : Ref sig .tc)
abbrev y' : DevRef τ sig := Proc.devRef .tc (main_arg1 : Ref sig .tc)
abbrev o' : DevRef τ sig := Proc.devRef .tc (main_v0 : Ref sig .tc)
abbrev t' : DevRef τ sig := Proc.devRef .tc (main_v1 : Ref sig .tc)
abbrev c' : DevRef τ sig := Proc.devRef .tc (main_cst : Ref sig .tc)
abbrev r2' : DevRef τ sig := Proc.devRef .tc (main_v2 : Ref sig .tc)
abbrev r3' : DevRef τ sig := Proc.devRef .tc (main_v3 : Ref sig .tc)
abbrev r4' : DevRef τ sig := Proc.devRef .tc (main_v4 : Ref sig .tc)

/-- The TensorCore's arrays, all unscoped. -/
abbrev S8 : Finset (DevRef τ sig) := {x', y', o', t', c', r2', r3', r4'}

theorem held_S8 (d : Dev nD) (W : Valuation τ sig (Elt F)) :
    (held (T d) S8 W : sProp 𝕄) = iprop((xLoc d ↦{fullShare} W x') ∗ (yLoc d ↦{fullShare} W y') ∗ (oLoc d ↦{fullShare} W o') ∗ (tLoc d ↦{fullShare} W t')
      ∗ ((SparseCore.T d).loc main_cst ↦{fullShare} W c') ∗ ((SparseCore.T d).loc main_v2 ↦{fullShare} W r2') ∗ ((SparseCore.T d).loc main_v3 ↦{fullShare} W r3')
      ∗ ((SparseCore.T d).loc main_v4 ↦{fullShare} W r4')) := by
  unfold held S8
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((xLoc d ↦{fullShare} W main_arg0) ∗ (yLoc d ↦{fullShare} W main_arg1) ∗ (oLoc d ↦{fullShare} W main_v0) ∗ (tLoc d ↦{fullShare} W main_v1)
      ∗ ((SparseCore.T d).loc main_cst ↦{fullShare} W main_cst) ∗ ((SparseCore.T d).loc main_v2 ↦{fullShare} W main_v2) ∗ ((SparseCore.T d).loc main_v3 ↦{fullShare} W main_v3)
      ∗ ((SparseCore.T d).loc main_v4 ↦{fullShare} W main_v4)) := by
  unfold unscopedBufs
  rw [show (Finset.univ.filter fun b : Ref sig .tc => ¬ b.isScoped) = {main_arg0, main_arg1, main_v0, main_v1, main_cst, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

variable [FloatOps F]

/-- The host's four closing operations. -/
abbrev opC : HloOp τ sig (Elt F) := StableHlo.nullary main_cst (constant S_ .f32 0x00000000#32)
abbrev opSum : HloOp τ sig (Elt F) := StableHlo.binary main_v0 main_cst main_v2 ((fun x v => Host.reduceAdd x v Facts₀.reducesTo_S32x16_S_d0_1 Facts₀.h_S_) : (⟨S32x16, .f32⟩ : BufTy).Contents (Elt F) → (⟨S_, .f32⟩ : BufTy).Contents (Elt F) → (⟨S_, .f32⟩ : BufTy).Contents (Elt F))
abbrev opCast : HloOp τ sig (Elt F) := StableHlo.reshape main_v1 main_v3 rfl Facts₀.shapeCasts_S1x1_S_
abbrev opAdd : HloOp τ sig (Elt F) := StableHlo.binary main_v2 main_v3 main_v4 (addf : (⟨S_, .f32⟩ : BufTy).Contents (Elt F) → (⟨S_, .f32⟩ : BufTy).Contents (Elt F) → (⟨S_, .f32⟩ : BufTy).Contents (Elt F))

theorem hC : (opC (F := F)).bufs ⊆ S8 := show ({c'} : Finset (DevRef τ sig)) ⊆ S8 by decide
theorem hSum : (opSum (F := F)).bufs ⊆ S8 := show ({o', c', r2'} : Finset (DevRef τ sig)) ⊆ S8 by decide
theorem hCast : (opCast (F := F)).bufs ⊆ S8 := show ({t', r3'} : Finset (DevRef τ sig)) ⊆ S8 by decide
theorem hAdd : (opAdd (F := F)).bufs ⊆ S8 := show ({r2', r3', r4'} : Finset (DevRef τ sig)) ⊆ S8 by decide

/-- The valuation after the four operations. -/
abbrev VT (W : Valuation τ sig (Elt F)) : Valuation τ sig (Elt F) :=
  (opAdd (F := F)).result ((opCast (F := F)).result ((opSum (F := F)).result ((opC (F := F)).result W)))

end Cert.KernelIdeal.Hand

end
-- ==== Proof.KI.SCPay.lean ====
/-
  What the handshakes of the vector subcores' call carry, and how the call's operands split among the 2 x 16 tasks.

  Every task reads the scores x and the labels y, so each is handed a read share of the two arrays whole: the call's full
  share is halved between the two processors, and a processor's half is dealt to its 16 tasks token by token (the
  remainder of the half stays with the split until the tokens come back).  Task (c, i) — subcore number 2 i + c — owns
  row 2 i + c of the 32 x 16 array of lane totals; it hands the shares back and its row at the lane totals the
  specification names.  The 32 rows are pairwise disjoint and cover the array.
-/
import proofs.«209113_g38259568672962_cont_8to1_b_1629_19_alg».proof.Proof.KI.Common

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

/-! ## Rows and shares -/

/-- Row w of the 32 x 16 array of lane totals. -/
def oRow (d : Dev nD) (w : ℕ) : Finset (Idx (oLoc d)) := Finset.univ.filter fun j => (j 0).val = w

/-- The half of the full share processor c reads the arguments under. -/
def coreShare (c : ℕ) : PosShare TreeShare := if c = 0 then fullShare.left else fullShare.right

/-- The token of processor c's half that its task i reads the arguments under. -/
abbrev tileShare (c i : ℕ) : PosShare TreeShare := Transfers.shareTokN (coreShare c) i

theorem oRow_disjoint (d : Dev nD) {w w' : ℕ} (h : w ≠ w') : Disjoint (oRow d w) (oRow d w') := by
  refine Finset.disjoint_left.mpr fun j hj hj' => h ?_
  rw [oRow, Finset.mem_filter] at hj hj'
  exact hj.2.symm.trans hj'.2

theorem oRows_disjoint (d : Dev nD) :
    ∀ p ∈ (Finset.univ : Finset (Fin 2 × Fin 16)), ∀ p' ∈ (Finset.univ : Finset (Fin 2 × Fin 16)), p ≠ p' →
      Disjoint (oRow d (2 * p.2.val + p.1.val)) (oRow d (2 * p'.2.val + p'.1.val)) := by
  intro p _ p' _ hne
  refine oRow_disjoint d fun e => hne ?_
  have h1 := p.1.isLt; have h2 := p'.1.isLt
  exact Prod.ext (Fin.ext (by omega)) (Fin.ext (by omega))

theorem oRows_cover (d : Dev nD) :
    (Finset.univ : Finset (Fin 2 × Fin 16)).biUnion (fun p => oRow d (2 * p.2.val + p.1.val)) = Finset.univ := by
  refine Finset.eq_univ_iff_forall.mpr fun j => Finset.mem_biUnion.mpr ?_
  have hj : (j 0).val < 32 := (j 0).isLt
  refine ⟨(⟨(j 0).val % 2, Nat.mod_lt _ (by decide)⟩, ⟨(j 0).val / 2, by omega⟩), Finset.mem_univ _, ?_⟩
  rw [oRow, Finset.mem_filter]
  exact ⟨Finset.mem_univ _, by show (j 0).val = 2 * ((j 0).val / 2) + (j 0).val % 2; omega⟩

/-- The array of lane totals whole is its 32 rows, dealt by processor and task. -/
theorem oPts_rows (d : Dev nD) (f : Buf (Elt F) (oLoc d)) :
    (oLoc d ↦{fullShare} f : sProp 𝕄)
      = bigSep Finset.univ fun c : Fin 2 => bigSep Finset.univ fun i : Fin 16 => oLoc d ↦[oRow d (2 * i.val + c.val)]{fullShare} f := by
  rw [← SparseCore.bigSep_product (Finset.univ : Finset (Fin 2)) (Finset.univ : Finset (Fin 16))
      (fun p : Fin 2 × Fin 16 => (oLoc d ↦[oRow d (2 * p.2.val + p.1.val)]{fullShare} f : sProp 𝕄)),
    Finset.univ_product_univ, ← pointsTo_biUnion Finset.univ (ℓ := oLoc d) (fun p : Fin 2 × Fin 16 => oRow d (2 * p.2.val + p.1.val)) (oRows_disjoint d),
    oRows_cover]

variable [FloatOps F]

/-! ## What the handshakes carry -/

/-- The scores and the labels under a share, at their launch contents. -/
def xyPts (d : Dev nD) (q : PosShare TreeShare) : sProp 𝕄 := iprop((xLoc d ↦{q} m (xLoc d)) ∗ (yLoc d ↦{q} m (yLoc d)))
omit [FloatOps F] in
theorem xyPts_eq (d : Dev nD) (q : PosShare TreeShare) : xyPts m d q = iprop((xLoc d ↦{q} m (xLoc d)) ∗ (yLoc d ↦{q} m (yLoc d))) := rfl
instance xyPts_storable (d : Dev nD) (q : PosShare TreeShare) : BI.Storable (upEmb : UEmb _ 𝕄) (xyPts m d q) := by
  unfold xyPts; infer_instance
/-- Row w of the lane totals at the contents f. -/
abbrev oRowPts (d : Dev nD) (w : ℕ) (f : Buf (Elt F) (oLoc d)) : sProp 𝕄 := oLoc d ↦[oRow d w]{fullShare} f
/-- The lane totals the specification names. -/
abbrev oSpec (d : Dev nD) : Buf (Elt F) (oLoc d) := Cert.Spec.scOut (m (xLoc d)) (m (yLoc d))

/-- The call hands processor c its half share of the arguments and its 16 rows of the lane totals; a task its token of that
    half and its row; both ways back the same, the rows at the lane totals the specification names. -/
def P : (K (F := F)).Pay (nD := nD) (Val := Elt F) (Name := ℕ) (U := UU) where
  st := fun _ d c => iprop(xyPts m d (coreShare c.val) ∗ bigSep Finset.univ fun i : Fin 16 => oRowPts d (2 * i.val + c.val) (m (oLoc d)))
  dn := fun _ d c => iprop(xyPts m d (coreShare c.val) ∗ bigSep Finset.univ fun i : Fin 16 => oRowPts d (2 * i.val + c.val) (oSpec m d))
  go := fun _ d c i => iprop(xyPts m d (tileShare c.val i.val) ∗ oRowPts d (2 * i.val + c.val) (m (oLoc d)))
  td := fun _ d c i => iprop(xyPts m d (tileShare c.val i.val) ∗ oRowPts d (2 * i.val + c.val) (oSpec m d))
  x := fun _ _ => iprop(emp)

instance P_storable : (P (F := F) m).IsStorable where
  st _ d c := by unfold P; infer_instance
  dn _ d c := by unfold P; infer_instance
  go _ d c i := by unfold P; infer_instance
  td _ d c i := by unfold P; infer_instance

theorem P_st (d : Dev nD) (c : Fin ((K (F := F)).nCore 0)) :
    (P m).st 0 d c = iprop(xyPts m d (coreShare c.val) ∗ bigSep Finset.univ fun i : Fin 16 => oRowPts d (2 * i.val + c.val) (m (oLoc d))) := rfl
theorem P_dn (d : Dev nD) (c : Fin ((K (F := F)).nCore 0)) :
    (P m).dn 0 d c = iprop(xyPts m d (coreShare c.val) ∗ bigSep Finset.univ fun i : Fin 16 => oRowPts d (2 * i.val + c.val) (oSpec m d)) := rfl
theorem P_go (d : Dev nD) (c : Fin ((K (F := F)).nCore 0)) (i : Fin ((K (F := F)).nSub 0)) :
    (P m).go 0 d c i = iprop(xyPts m d (tileShare c.val i.val) ∗ oRowPts d (2 * i.val + c.val) (m (oLoc d))) := rfl
theorem P_td (d : Dev nD) (c : Fin ((K (F := F)).nCore 0)) (i : Fin ((K (F := F)).nSub 0)) :
    (P m).td 0 d c i = iprop(xyPts m d (tileShare c.val i.val) ∗ oRowPts d (2 * i.val + c.val) (oSpec m d)) := rfl

/-! ## A processor's operands split among its tasks -/

omit [FloatOps F] in
theorem xy_split (d : Dev nD) (q : PosShare TreeShare) :
    xyPts m d q ⊢ iprop(xyPts m d (Transfers.shareDrop q 16) ∗ bigSep Finset.univ fun i : Fin 16 => xyPts m d (Transfers.shareTokN q i.val)) := by
  simp only [xyPts_eq]
  rw [bigSep_sep']
  iintro ⟨Hx, Hy⟩
  ihave Hx' := (Transfers.pointsTo_toks_split q 16) $$ Hx
  ihave Hy' := (Transfers.pointsTo_toks_split q 16) $$ Hy
  icases Hx' with ⟨Hxr, Hxt⟩
  icases Hy' with ⟨Hyr, Hyt⟩
  isplitl [Hxr Hyr]
  · isplitl [Hxr]; · iexact Hxr
    iexact Hyr
  isplitl [Hxt]; · iexact Hxt
  iexact Hyt

omit [FloatOps F] in
theorem xy_join (d : Dev nD) (q : PosShare TreeShare) :
    iprop(xyPts m d (Transfers.shareDrop q 16) ∗ bigSep Finset.univ fun i : Fin 16 => xyPts m d (Transfers.shareTokN q i.val)) ⊢ xyPts m d q := by
  simp only [xyPts_eq]
  rw [bigSep_sep']
  iintro ⟨⟨Hxr, Hyr⟩, Hxt, Hyt⟩
  isplitl [Hxr Hxt]
  · iapply (Transfers.pointsTo_toks_join q 16); isplitl [Hxr]; · iexact Hxr
    iexact Hxt
  · iapply (Transfers.pointsTo_toks_join q 16); isplitl [Hyr]; · iexact Hyr
    iexact Hyt

theorem vecSplit' : (K (F := F)).VecSplit' (P m) 0 := by
  intro d c
  show iprop(xyPts m d (coreShare c.val) ∗ bigSep Finset.univ fun i : Fin 16 => oRowPts d (2 * i.val + c.val) (m (oLoc d)))
    ⊢ |={Set.univ}=> iprop((bigSep Finset.univ fun i : Fin 16 => iprop(xyPts m d (tileShare c.val i.val) ∗ oRowPts d (2 * i.val + c.val) (m (oLoc d))))
        ∗ ((bigSep Finset.univ fun i : Fin 16 => iprop(xyPts m d (tileShare c.val i.val) ∗ oRowPts d (2 * i.val + c.val) (oSpec m d)))
          -∗ iprop(xyPts m d (coreShare c.val) ∗ bigSep Finset.univ fun i : Fin 16 => oRowPts d (2 * i.val + c.val) (oSpec m d))))
  rw [bigSep_sep', bigSep_sep']
  iintro ⟨Hxy, Ho⟩
  ihave Hxy' := (xy_split m d (coreShare c.val)) $$ Hxy
  icases Hxy' with ⟨Hr, Ht⟩
  imodintro
  isplitl [Ht Ho]
  · isplitl [Ht]; · iexact Ht
    iexact Ho
  iintro ⟨Ht, Ho⟩
  isplitl [Hr Ht]
  · iapply (xy_join m d (coreShare c.val)); isplitl [Hr]; · iexact Hr
    iexact Ht
  iexact Ho

theorem vecSplit : (K (F := F)).VecSplit (P m) 0 := SparseCore.Cfg.VecSplit.of_plain (vecSplit' m)

/-! ## The call's operands split between the two processors -/

omit [FloatOps F] in
theorem xy_halves (d : Dev nD) :
    xyPts m d fullShare ⊣⊢ iprop(xyPts m d (coreShare (0 : Fin 2).val) ∗ xyPts m d (coreShare (1 : Fin 2).val)) := by
  have hx : (xLoc d ↦{fullShare} m (xLoc d) : sProp 𝕄) ⊣⊢ iprop((xLoc d ↦{fullShare.left} m (xLoc d)) ∗ xLoc d ↦{fullShare.right} m (xLoc d)) :=
    pointsTo_share (PosShare.mem_left_op_right _)
  have hy : (yLoc d ↦{fullShare} m (yLoc d) : sProp 𝕄) ⊣⊢ iprop((yLoc d ↦{fullShare.left} m (yLoc d)) ∗ yLoc d ↦{fullShare.right} m (yLoc d)) :=
    pointsTo_share (PosShare.mem_left_op_right _)
  show iprop((xLoc d ↦{fullShare} m (xLoc d)) ∗ (yLoc d ↦{fullShare} m (yLoc d)))
    ⊣⊢ iprop(iprop((xLoc d ↦{fullShare.left} m (xLoc d)) ∗ (yLoc d ↦{fullShare.left} m (yLoc d)))
        ∗ iprop((xLoc d ↦{fullShare.right} m (xLoc d)) ∗ (yLoc d ↦{fullShare.right} m (yLoc d))))
  constructor
  · iintro ⟨Hx, Hy⟩
    ihave Hx' := hx.1 $$ Hx
    ihave Hy' := hy.1 $$ Hy
    icases Hx' with ⟨Hx0, Hx1⟩
    icases Hy' with ⟨Hy0, Hy1⟩
    isplitl [Hx0 Hy0]
    · isplitl [Hx0]; · iexact Hx0
      iexact Hy0
    · isplitl [Hx1]; · iexact Hx1
      iexact Hy1
  · iintro ⟨⟨Hx0, Hy0⟩, Hx1, Hy1⟩
    isplitl [Hx0 Hx1]
    · iapply hx.2; isplitl [Hx0]; · iexact Hx0
      iexact Hx1
    · iapply hy.2; isplitl [Hy0]; · iexact Hy0
      iexact Hy1

theorem st_intro (d : Dev nD) :
    iprop((xLoc d ↦{fullShare} m (xLoc d)) ∗ (yLoc d ↦{fullShare} m (yLoc d)) ∗ (oLoc d ↦{fullShare} m (oLoc d)))
      ⊢ (bigSep Finset.univ fun c : Fin ((K (F := F)).nCore 0) => (P m).st 0 d c : sProp 𝕄) := by
  show _ ⊢ (bigSep Finset.univ fun c : Fin 2 =>
    iprop(xyPts m d (coreShare c.val) ∗ bigSep Finset.univ fun i : Fin 16 => oRowPts d (2 * i.val + c.val) (m (oLoc d))) : sProp 𝕄)
  rw [bigSep_sep', oPts_rows, bigSep_fin_two (fun c : Fin 2 => xyPts m d (coreShare c.val))]
  iintro ⟨Hx, Hy, Ho⟩
  isplitl [Hx Hy]
  · iapply (xy_halves m d).1; rw [xyPts_eq]; isplitl [Hx]; · iexact Hx
    iexact Hy
  iexact Ho

theorem dn_elim (d : Dev nD) :
    (bigSep Finset.univ fun c : Fin ((K (F := F)).nCore 0) => (P m).dn 0 d c : sProp 𝕄)
      ⊢ iprop((xLoc d ↦{fullShare} m (xLoc d)) ∗ (yLoc d ↦{fullShare} m (yLoc d)) ∗ (oLoc d ↦{fullShare} (Cert.Spec.scOut (m (xLoc d)) (m (yLoc d)) : Buf (Elt F) (oLoc d)))) := by
  show (bigSep Finset.univ fun c : Fin 2 =>
    iprop(xyPts m d (coreShare c.val) ∗ bigSep Finset.univ fun i : Fin 16 => oRowPts d (2 * i.val + c.val) (oSpec m d)) : sProp 𝕄) ⊢ _
  rw [bigSep_sep', oPts_rows, bigSep_fin_two (fun c : Fin 2 => xyPts m d (coreShare c.val))]
  iintro ⟨Hxy, Ho⟩
  ihave Hxy' := ((xy_halves m d).2.trans (Entails.of_eq (xyPts_eq m d fullShare))) $$ Hxy
  icases Hxy' with ⟨Hx, Hy⟩
  isplitl [Hx]; · iexact Hx
  isplitl [Hy]; · iexact Hy
  iexact Ho

end Cert.KernelIdeal.Hand

end
-- ==== Proof.KI.TCGhost.lean ====
/-
  What the launch element must fund for the TensorCore's pipeline: on every device the staging cells' launch ghost state and
  the duty tokens of the transfers the pipeline's loop issues.
-/
import proofs.«209113_g38259568672962_cont_8to1_b_1629_19_alg».proof.Proof.KI.Common

noncomputable section

namespace Cert.KernelIdeal.Hand

open Cert.KernelIdeal Cert.KernelIdeal.Gen Cert.KernelIdeal.GenP

open Idealize.ShloMosaic Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

variable (m : (ℓ : Loc nD τ sig) → Buf (Elt F) ℓ)

/-- The pipeline component's launch element: every staging cell's owner at round 0 and a duty token for every transfer
    the one pipeline issues. -/
def uP : UP := initOf (Pipeline.cells cfgs Gen.cellOf_inj) (Pipeline.launchToks cfgs Gen.cellOf_inj)

/-- What the region needs of the launch element on device d: the staging cells' launch ghost state and the duty tokens of
    the transfers the pipeline's loop issues. -/
def GT (d : Dev nD) : sProp 𝕄 := iprop(Pipeline.cellsGhost cfgs (EP (F := F)) 0 d ∗ Pipeline.toksInit cfgs (EP (F := F)) 0 d)

/-- The launch element funds every device's share. -/
theorem fundT : (BI.own (EP (F := F) uP) : sProp 𝕄) ⊢ |==> bigSep Finset.univ fun d : Dev nD => GT (F := F) d := by
  have h1 : ∀ (Φ : Fin 1 → sProp 𝕄), bigSep Finset.univ Φ = Φ 0 := fun Φ => by
    rw [show (Finset.univ : Finset (Fin 1)) = {0} from by decide, BI.bigSep_singleton]
  unfold GT
  rw [bigSep_sep']
  refine (Pipeline.fund_ghost cfgs (EP (F := F)) Gen.cellOf_inj).trans ?_
  simp only [h1]
  exact BI.Entails.refl _

end Cert.KernelIdeal.Hand

end
-- ==== Proof.KI.TCData.lean ====
/-
  The proof data of the TensorCore's pipeline: the arrays as the region finds them, what each staging buffer holds after
  the body at each of the eight grid points (the two inputs' blocks; the 1 x 1 cell at the running difference), and what
  the body finds in them when it runs.
-/
import proofs.«209113_g38259568672962_cont_8to1_b_1629_19_alg».proof.Proof.KI.Common
import Idealize.ShloMosaic.Lib.Pipeline.Frame

noncomputable section

namespace Cert.KernelIdeal.Hand

open Cert.KernelIdeal Cert.KernelIdeal.Gen Cert.KernelIdeal.GenP

open Idealize.ShloMosaic Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

variable (m : (ℓ : Loc nD τ sig) → Buf (Elt F) ℓ)

variable (t0 : (c : Dev nD) → Buf (Elt F) (tLoc c))

/-- The prefetched tables' admissible contents: no table. -/
abbrev adm : (p : Fin 1) → (pcfgs (F := F) p).Adm := fun p => (cfgs p).toPCfg_adm

/-- The scores' block at point t as the fetch reads it: its part inside the array (96 of the 128 columns). -/
def xblk (c : Dev nD) (t : Fin cfg1.N) : (win1_0.xblock (grid1.coords t)).Idx → Elt F .f32 :=
  (win1_0.blk t).view.read (Elt F) (m (xLoc c))
/-- The labels' likewise. -/
def yblk (c : Dev nD) (t : Fin cfg1.N) : (win1_1.xblock (grid1.coords t)).Idx → Elt F .i32 :=
  (win1_1.blk t).view.read (Elt F) (m (yLoc c))

/-- The running scalar after n batches. -/
abbrev accT (c : Dev nD) (n : ℕ) : Elt F .f32 := Cert.Spec.tcAcc (m (xLoc c)) (m (yLoc c)) n

/-- The proof data of the one pipeline on device c: the arrays as the region finds them; after the body at point t the two
    inputs' staging buffers at their blocks (filled out past the arrays' end with a word nothing reads) and the scalar's
    at the running difference after t + 1 batches; no invariant; the debts of the handshakes still to come, unchanged; the
    recorded pairs at the levels of the first handshake. -/
def datT (_ : Fin 1) (c : Dev nD) : Dat τ (Elt F) (HIx 1) ℕ UU ℕ cfg1 c where
  A w := match w with
    | ⟨0, _⟩ => m (xLoc c)
    | ⟨1, _⟩ => m (yLoc c)
    | ⟨2, _⟩ => t0 c
  after w t := match w with
    | ⟨0, _⟩ => win1_0.fill (grid1.coords t) (fun _ => Scalar.ofBits .f32 0#32) (xblk m c t)
    | ⟨1, _⟩ => win1_1.fill (grid1.coords t) (fun _ => (0#32 : BitVec 32)) (yblk m c t)
    | ⟨2, _⟩ => fun _ => accT m c (t.val + 1)
  Φ _ := iprop(emp)
  q _ := fullShare
  owed _ := (K (F := F)).Otc c 1
  recorded _ := {p | (K (F := F)).lev (T c, p.1) p.2 ≤ 8}

/-- What the body finds: the inputs' buffers just fetched — the block inside the array, anything beyond —, -/
theorem before_0 (c : Dev nD) (t : Fin cfg1.N) (d) :
    (datT m t0 0 c).before (0 : Fin 3) t d = win1_0.fill (grid1.coords t) d (xblk m c t) := by
  unfold Dat.before; rw [if_pos (fetch1_0 t)]; rfl
theorem before_1 (c : Dev nD) (t : Fin cfg1.N) (d) :
    (datT m t0 0 c).before (1 : Fin 3) t d = win1_1.fill (grid1.coords t) d (yblk m c t) := by
  unfold Dat.before; rw [if_pos (fetch1_1 t)]; rfl
/-- the scalar's cell at anything at the first point, -/
theorem before_2_zero (c : Dev nD) (t : Fin cfg1.N) (h : t.val = 0) (d) : (datT m t0 0 c).before (2 : Fin 3) t d = d :=
  Dat.before_out_reset _ (2 : Fin 3) rfl t (.inl h) d
/-- and at the running difference after t batches at a later one (it is written back after the last point only). -/
theorem before_2_pos (c : Dev nD) (t : Fin cfg1.N) (h : t.val ≠ 0) (d) :
    (datT m t0 0 c).before (2 : Fin 3) t d = fun _ => accT m c t.val := by
  have hN : t.val < 8 := lt_of_lt_of_eq t.isLt (show cfg1.N = 8 from N_1)
  rw [Dat.before_out_kept _ (2 : Fin 3) rfl t h (Bool.eq_false_iff.mpr fun hf => by have := (flush1_2 _).mp hf; dsimp only at this; omega)
    (fun _ => rfl) (fun _ _ => rfl)]
  dsimp only [datT]
  rw [Nat.sub_add_cancel (Nat.pos_of_ne_zero h)]

end Cert.KernelIdeal.Hand

end
-- ==== Proof.KI.TCRun.lean ====
/-
  The TensorCore body, run once on symbolic whole staging memrefs: it loads the two input blocks whole, at the first grid
  point zeroes the 1 x 1 cell, and stores to the cell its content minus the block's masked sum, as the payload spells it.
-/
import proofs.«209113_g38259568672962_cont_8to1_b_1629_19_alg».proof.Proof.KI.Common
import Idealize.ShloMosaic.Lib.Pipeline.Frame
import Idealize.ShloMosaic.Lib.WholeRead

noncomputable section

namespace Cert.KernelIdeal.Hand

open Cert.KernelIdeal Cert.KernelIdeal.Gen Cert.KernelIdeal.GenP

open Idealize.ShloMosaic Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

variable (m : (ℓ : Loc nD τ sig) → Buf (Elt F) ℓ)

/-- The body's test for the first grid point, as printed. -/
abbrev tcCond (i : grid1.Coords) : Prop :=
  Scalar.cmpi CmpIPredicate.ne (Scalar.extui (Scalar.andi (Scalar.cmpi CmpIPredicate.eq (BitVec.ofNat 32 (i 0).val) 0#32)
    (Scalar.cmpi CmpIPredicate.eq (BitVec.ofNat 32 (i 1).val) 0#32))) 0#32 = 1#1

/-- It holds at the first batch only. -/
theorem tcCond_iff (i : grid1.Coords) : tcCond i ↔ (i 0).val = 0 := by
  have h0 : (i 0).val < 8 := (i 0).isLt
  have h1 : (i 1).val = 0 := by have := (i 1).isLt; have e : grid1.bound 1 = 1 := rfl; omega
  unfold tcCond; rw [h1]
  generalize (i 0).val = n at h0
  interval_cases n <;> decide

theorem sound_body_first (c : Dev nD) (E : Set ℕ) (i : grid1.Coords) (hi : (i 0).val = 0)
    (arg2 : Memref sig .tc .vmem S1x96x224x128 .f32) (harg2 : arg2.IsWhole) (arg3 : Memref sig .tc .vmem S1x224x128 .i32) (harg3 : arg3.IsWhole)
    (arg4 : Memref sig .tc .smem S1x1 .f32) (harg4 : arg4.IsWhole)
    (X0 : Vec F S1x96x224x128 .f32) (X1 : Vec F S1x224x128 .i32) (X2 : Vec F S1x1 .f32) (Kk : PUnit → sProp 𝕄) :
    iprop(owns (T c) arg2 fullShare X0 ∗ owns (T c) arg3 fullShare X1 ∗ owns (T c) arg4 fullShare X2
        ∗ (iprop(owns (T c) arg2 fullShare X0 ∗ owns (T c) arg3 fullShare X1
            ∗ owns (T c) arg4 fullShare (fun _ => k1_pay1 (k1_pay2 X1) (k1_pay3 X0 X1) (k1_pay4 X1) (Scalar.ofBits .f32 0#32))) -∗ Kk ⟨⟩))
      ⊢ wp frame (wpE (defs₀ (F := F)) Variants.none (T c) none) E (cc1__tc_body i arg2 harg2 arg3 harg3 arg4 harg4) Kk := by
  have hc : tcCond i := (tcCond_iff i).mpr hi
  simp only [cc1__tc_body_eq_skeleton]; unfold cc1__tc_body_skel
  simp only [k1_part1_eq_skeleton]; unfold k1_part1_skel
  unfold owns
  iintro ⟨⟨%f0, %hf0, H0⟩, ⟨%f1, %hf1, H1⟩, ⟨%f2, %hf2, H2⟩, Hk⟩
  obtain rfl := harg2.eq_unread hf0; obtain rfl := harg3.eq_unread hf1; obtain rfl := harg4.eq_unread hf2
  sl_exec (disch := first | exact hc)
  sl_step
  iapply Hk
  have hz4 : ∀ a : Fin 4, (![0, 0, 0, 0] : Fin 4 → ℕ) a = 0 := by decide
  have hz3 : ∀ a : Fin 3, (![0, 0, 0] : Fin 3 → ℕ) a = 0 := by decide
  have hr0 : View.readAt (Elt F) arg2.view (Rect.unit ![0, 0, 0, 0] S1x96x224x128.size inb_S1x96x224x128_S1x96x224x128_0_0_0_0).toLoadRect (harg2.unread X0) = X0 := by
    funext j; rw [harg2.readAt_unread]; congr 1; funext a; apply Fin.ext
    show (![0, 0, 0, 0] : Fin 4 → ℕ) a + 1 * (j a).val = (j a).val; rw [hz4 a]; omega
  have hr1 : View.readAt (Elt F) arg3.view (Rect.unit ![0, 0, 0] S1x224x128.size inb_S1x224x128_S1x224x128_0_0_0).toLoadRect (harg3.unread X1) = X1 := by
    funext j; rw [harg3.readAt_unread]; congr 1; funext a; apply Fin.ext
    show (![0, 0, 0] : Fin 3 → ℕ) a + 1 * (j a).val = (j a).val; rw [hz3 a]; omega
  have hcov : ∀ y : S1x1.Idx, y ∈ (Rect.unit (s := S1x1) ![0, 0] ![1, 1] inb_S1x1_S1x1_0_0).set := fun y => by
    rw [Rect.mem_set_unit]; intro a
    have h := (y a).isLt
    have hs : S1x1.size a = 1 := by fin_cases a <;> rfl
    have ho : (![0, 0] : Fin 2 → ℕ) a = 0 := by fin_cases a <;> rfl
    have h1 : (![1, 1] : Fin 2 → ℕ) a = 1 := by fin_cases a <;> rfl
    rw [ho, h1]; omega
  rw [hr0, hr1]
  isplitl [H0]
  · iexists _; isplitr; · ipureintro; exact hf0
    iexact H0
  isplitl [H1]
  · iexists _; isplitr; · ipureintro; exact hf1
    iexact H1
  iexists _; isplitr; swap; · iexact H2
  ipureintro
  funext y
  obtain ⟨x, rfl⟩ := (Rect.unit (s := S1x1) ![0, 0] ![1, 1] inb_S1x1_S1x1_0_0).exists_idx_of_mem (hcov y)
  refine (View.read_writes_cons_emb arg4.view _ (Rect.unit (s := S1x1) ![0, 0] ![1, 1] inb_S1x1_S1x1_0_0) _ _ x).trans ?_
  show k1_pay1 _ _ _ _ = k1_pay1 _ _ _ _
  unfold sound_body_first.sl.r_1
  rfl

theorem sound_body_later (c : Dev nD) (E : Set ℕ) (i : grid1.Coords) (hi : (i 0).val ≠ 0)
    (arg2 : Memref sig .tc .vmem S1x96x224x128 .f32) (harg2 : arg2.IsWhole) (arg3 : Memref sig .tc .vmem S1x224x128 .i32) (harg3 : arg3.IsWhole)
    (arg4 : Memref sig .tc .smem S1x1 .f32) (harg4 : arg4.IsWhole)
    (X0 : Vec F S1x96x224x128 .f32) (X1 : Vec F S1x224x128 .i32) (old : Elt F .f32) (Kk : PUnit → sProp 𝕄) :
    iprop(owns (T c) arg2 fullShare X0 ∗ owns (T c) arg3 fullShare X1 ∗ owns (T c) arg4 fullShare (fun _ => old)
        ∗ (iprop(owns (T c) arg2 fullShare X0 ∗ owns (T c) arg3 fullShare X1
            ∗ owns (T c) arg4 fullShare (fun _ => k1_pay1 (k1_pay2 X1) (k1_pay3 X0 X1) (k1_pay4 X1) old)) -∗ Kk ⟨⟩))
      ⊢ wp frame (wpE (defs₀ (F := F)) Variants.none (T c) none) E (cc1__tc_body i arg2 harg2 arg3 harg3 arg4 harg4) Kk := by
  have hc : ¬tcCond i := fun h => hi ((tcCond_iff i).mp h)
  simp only [cc1__tc_body_eq_skeleton]; unfold cc1__tc_body_skel
  simp only [k1_part1_eq_skeleton]; unfold k1_part1_skel
  unfold owns
  iintro ⟨⟨%f0, %hf0, H0⟩, ⟨%f1, %hf1, H1⟩, ⟨%f2, %hf2, H2⟩, Hk⟩
  obtain rfl := harg2.eq_unread hf0; obtain rfl := harg3.eq_unread hf1; obtain rfl := harg4.eq_unread hf2
  sl_exec (disch := first | exact hc)
  sl_step
  iapply Hk
  have hz4 : ∀ a : Fin 4, (![0, 0, 0, 0] : Fin 4 → ℕ) a = 0 := by decide
  have hz3 : ∀ a : Fin 3, (![0, 0, 0] : Fin 3 → ℕ) a = 0 := by decide
  have hr0 : View.readAt (Elt F) arg2.view (Rect.unit ![0, 0, 0, 0] S1x96x224x128.size inb_S1x96x224x128_S1x96x224x128_0_0_0_0).toLoadRect (harg2.unread X0) = X0 := by
    funext j; rw [harg2.readAt_unread]; congr 1; funext a; apply Fin.ext
    show (![0, 0, 0, 0] : Fin 4 → ℕ) a + 1 * (j a).val = (j a).val; rw [hz4 a]; omega
  have hr1 : View.readAt (Elt F) arg3.view (Rect.unit ![0, 0, 0] S1x224x128.size inb_S1x224x128_S1x224x128_0_0_0).toLoadRect (harg3.unread X1) = X1 := by
    funext j; rw [harg3.readAt_unread]; congr 1; funext a; apply Fin.ext
    show (![0, 0, 0] : Fin 3 → ℕ) a + 1 * (j a).val = (j a).val; rw [hz3 a]; omega
  have hcov : ∀ y : S1x1.Idx, y ∈ (Rect.unit (s := S1x1) ![0, 0] ![1, 1] inb_S1x1_S1x1_0_0).set := fun y => by
    rw [Rect.mem_set_unit]; intro a
    have h := (y a).isLt
    have hs : S1x1.size a = 1 := by fin_cases a <;> rfl
    have ho : (![0, 0] : Fin 2 → ℕ) a = 0 := by fin_cases a <;> rfl
    have h1 : (![1, 1] : Fin 2 → ℕ) a = 1 := by fin_cases a <;> rfl
    rw [ho, h1]; omega
  rw [hr0, hr1]
  isplitl [H0]
  · iexists _; isplitr; · ipureintro; exact hf0
    iexact H0
  isplitl [H1]
  · iexists _; isplitr; · ipureintro; exact hf1
    iexact H1
  iexists _; isplitr; swap; · iexact H2
  ipureintro
  funext y
  obtain ⟨x, rfl⟩ := (Rect.unit (s := S1x1) ![0, 0] ![1, 1] inb_S1x1_S1x1_0_0).exists_idx_of_mem (hcov y)
  refine (View.read_writes_cons_emb arg4.view _ (Rect.unit (s := S1x1) ![0, 0] ![1, 1] inb_S1x1_S1x1_0_0) _ _ x).trans ?_
  show k1_pay1 _ _ _ _ = k1_pay1 _ _ _ _
  unfold sound_body_later.sl.r
  rw [harg4.readAt_unread]

end Cert.KernelIdeal.Hand

end
-- ==== Proof.KI.TCAux.lean ====
/-
  What a clipped fetch leaves in the two input staging blocks of the TensorCore call, read at a lane below 96. The
  blocks of the scores and of the labels sit at column block 1 of their arrays: lane j of a block stands for column
  128 + j, and only the lanes j < 96 lie inside the 224 columns; a fetch moves exactly those, so at such a lane the
  staged block holds the array's entry, whatever the block held before.
-/
import proofs.«209113_g38259568672962_cont_8to1_b_1629_19_alg».proof.Proof.KI.Common

noncomputable section

namespace Cert.KernelIdeal.Hand

open Cert.KernelIdeal Cert.KernelIdeal.Gen
open Idealize.ShloMosaic
open Idealize.ShloMosaic.Pipeline (Window)

variable {F : FTy → Type}

/-- The part of a block of the scores a transfer moves: all of it but the last 32 lanes. -/
theorem xsize1_0 : ∀ (t : Fin cfg1.N) a, win1_0.xsize (grid1.coords t) a = (![1, 96, 224, 96] : Fin 4 → ℕ) a :=
  (by decide +kernel : ∀ (t : Fin grid1.N) a, win1_0.xsize (grid1.coords t) a = (![1, 96, 224, 96] : Fin 4 → ℕ) a)
/-- The block index of the scores at point t: batch t, column block 1. -/
theorem index1_0 : ∀ (t : Fin cfg1.N) a, win1_0.index t a = (![t.val, 0, 0, 1] : Fin 4 → ℕ) a :=
  (by decide +kernel : ∀ (t : Fin grid1.N) a, win1_0.index t a = (![t.val, 0, 0, 1] : Fin 4 → ℕ) a)
/-- The labels' likewise. -/
theorem xsize1_1 : ∀ (t : Fin cfg1.N) a, win1_1.xsize (grid1.coords t) a = (![1, 224, 96] : Fin 3 → ℕ) a :=
  (by decide +kernel : ∀ (t : Fin grid1.N) a, win1_1.xsize (grid1.coords t) a = (![1, 224, 96] : Fin 3 → ℕ) a)
theorem index1_1 : ∀ (t : Fin cfg1.N) a, win1_1.index t a = (![t.val, 0, 1] : Fin 3 → ℕ) a :=
  (by decide +kernel : ∀ (t : Fin grid1.N) a, win1_1.index t a = (![t.val, 0, 1] : Fin 3 → ℕ) a)

theorem xfill_at (c : Dev nD) (x : Buf (Elt F) (xLoc c)) (t : Fin cfg1.N) (d : S1x96x224x128.Idx → Elt F .f32) (i : S1x96x224x128.Idx) (hi : (i 3).val < 96) :
    win1_0.fill (grid1.coords t) d ((win1_0.blk t).view.read (Elt F) x) i = x (Cert.Spec.ixX t.val (i 1).val (i 2).val (128 + (i 3).val)) := by
  have hm : win1_0.moved (grid1.coords t) i = true := (win1_0.moved_iff _ _).mpr fun a => by
    rw [xsize1_0 t a]
    match a with
    | ⟨0, _⟩ => exact (i 0).isLt
    | ⟨1, _⟩ => exact (i 1).isLt
    | ⟨2, _⟩ => exact (i 2).isLt
    | ⟨3, _⟩ => exact hi
  unfold Window.fill
  rw [dif_pos hm, View.read_apply]
  rw [cast_eq]
  refine congrArg x ?_
  funext a; apply Fin.ext
  show ((win1_0.rect t).emb _ a : ℕ) = _
  rw [Rect.emb_apply]
  show win1_0.index t a * win1_0.size a + 1 * (i a).val = _
  rw [index1_0 t a]
  have ht : t.val < 8 := t.isLt
  have h0 : (i 0).val < 1 := (i 0).isLt
  have h1 : (i 1).val < 96 := (i 1).isLt
  have h2 : (i 2).val < 224 := (i 2).isLt
  match a with
  | ⟨0, _⟩ => show t.val * 1 + 1 * (i 0).val = t.val % 8; omega
  | ⟨1, _⟩ => show 0 * 96 + 1 * (i 1).val = (i 1).val % 96; omega
  | ⟨2, _⟩ => show 0 * 224 + 1 * (i 2).val = (i 2).val % 224; omega
  | ⟨3, _⟩ => show 1 * 128 + 1 * (i 3).val = (128 + (i 3).val) % 224; omega

theorem yfill_at (c : Dev nD) (y : Buf (Elt F) (yLoc c)) (t : Fin cfg1.N) (d : S1x224x128.Idx → Elt F .i32) (i : S1x224x128.Idx) (hi : (i 2).val < 96) :
    win1_1.fill (grid1.coords t) d ((win1_1.blk t).view.read (Elt F) y) i = y (Cert.Spec.ixY t.val (i 1).val (128 + (i 2).val)) := by
  have hm : win1_1.moved (grid1.coords t) i = true := (win1_1.moved_iff _ _).mpr fun a => by
    rw [xsize1_1 t a]
    match a with
    | ⟨0, _⟩ => exact (i 0).isLt
    | ⟨1, _⟩ => exact (i 1).isLt
    | ⟨2, _⟩ => exact hi
  unfold Window.fill
  rw [dif_pos hm, View.read_apply, cast_eq]
  refine congrArg y ?_
  funext a; apply Fin.ext
  show ((win1_1.rect t).emb _ a : ℕ) = _
  rw [Rect.emb_apply]
  show win1_1.index t a * win1_1.size a + 1 * (i a).val = _
  rw [index1_1 t a]
  have ht : t.val < 8 := t.isLt
  have h0 : (i 0).val < 1 := (i 0).isLt
  have h1 : (i 1).val < 224 := (i 1).isLt
  match a with
  | ⟨0, _⟩ => show t.val * 1 + 1 * (i 0).val = t.val % 8; omega
  | ⟨1, _⟩ => show 0 * 224 + 1 * (i 1).val = (i 1).val % 224; omega
  | ⟨2, _⟩ => show 1 * 128 + 1 * (i 2).val = (128 + (i 2).val) % 224; omega

end Cert.KernelIdeal.Hand

end
-- ==== Proof.KI.TCBlock.lean ====
/-
  The value the TensorCore body computes at one grid point, as a pure function of the two staging blocks it loads.

  The body holds a 96 x 224 x 128 block of scores (lane j stands for column 128 + j; the lanes from 96 on hold padding) and a
  224 x 128 block of labels. A tree of selects on the label picks, position by position, one of the 96 channels: two signed
  comparisons (label >= 32, label >= 64) choose one of the three 32-channel thirds, and the label's bits 16, 8, 4, 2, 1 each
  halve what is left. We follow the tree block by block with one invariant (`Rd`): on the lanes below 96, channel c of the
  block is channel base + c of the scores, where the base depends on the label at the position; a slice along the channels
  adds its offset to the base and a select on a condition of the position chooses between two bases. At the last block the base
  is a function of the label word alone (`base1`), and for a label below 96 it is the label (checked over the 96 words). The last
  select sets the lanes from 96 on to zero without reading what the tree left there, so nothing is asked of the padding. The
  masked block is then the specification's block of selected scores, and the body's sum and subtraction are the
  specification's.
-/
import proofs.«209113_g38259568672962_cont_8to1_b_1629_19_alg».proof.Proof.SkeletonKernelIdealP
import proofs.«209113_g38259568672962_cont_8to1_b_1629_19_alg».proof.Proof.Spec
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Cert.KernelIdeal.GenP

open Idealize.ShloMosaic Idealize.ShloMosaic.ValueIdx

/-! ## Layout operations of the selection tree, read at an index -/

section Layout
variable {α : Type} {p q : ℕ}

/-- A slice along the leading axis reads the operand `k` channels further on. -/
theorem sliceLead_apply {m n : ℕ} (k : ℕ) (A : (⟨3, ![m, p, q]⟩ : Shape).Idx → α)
    (h : (⟨3, ![m, p, q]⟩ : Shape).Slices ![k, 0, 0] ⟨3, ![n, p, q]⟩) (j : (⟨3, ![n, p, q]⟩ : Shape).Idx)
    (hk : k + (j 0).val < m) :
    extractStridedSlice ⟨3, ![n, p, q]⟩ ![k, 0, 0] A h j = A (ix3 ⟨k + (j 0).val, hk⟩ (j 1) (j 2)) := by
  refine extractStridedSlice_apply _ A h j _ fun a => ?_
  match a with
  | ⟨0, _⟩ => rfl
  | ⟨1, _⟩ => exact (Nat.zero_add _).symm
  | ⟨2, _⟩ => exact (Nat.zero_add _).symm

/-- A condition on the (row, lane) plane, given a leading unit axis and broadcast along the channels, reads its plane. -/
theorem condBcast_apply {n : ℕ} (c : (⟨2, ![p, q]⟩ : Shape).Idx → α)
    (hsc : (⟨2, ![p, q]⟩ : Shape).ShapeCasts ⟨3, ![1, p, q]⟩)
    (hb : (⟨3, ![1, p, q]⟩ : Shape).Broadcasts ⟨3, ![n, p, q]⟩) (hp : p ≠ 1) (hq : q ≠ 1)
    (j : (⟨3, ![n, p, q]⟩ : Shape).Idx) :
    broadcastTo ⟨3, ![n, p, q]⟩ (shapeCast ⟨3, ![1, p, q]⟩ c hsc) hb j = c (ix2 (j 1) (j 2)) := by
  refine (broadcastTo_apply _ hb j (ix3 ⟨0, Nat.one_pos⟩ (j 1) (j 2)) fun a => ?_).trans ?_
  · match a with
    | ⟨0, _⟩ => rfl
    | ⟨1, _⟩ => exact (if_neg hp).symm
    | ⟨2, _⟩ => exact (if_neg hq).symm
  · refine (shapeCast_addUnit_apply ![p, q] c hsc _).trans (congrArg c ?_)
    funext a
    match a with
    | ⟨0, _⟩ => rfl
    | ⟨1, _⟩ => rfl

/-- The same condition with the unit axis only. -/
theorem condUnit_apply (c : (⟨2, ![p, q]⟩ : Shape).Idx → α)
    (hsc : (⟨2, ![p, q]⟩ : Shape).ShapeCasts ⟨3, ![1, p, q]⟩) (j : (⟨3, ![1, p, q]⟩ : Shape).Idx) :
    shapeCast ⟨3, ![1, p, q]⟩ c hsc j = c (ix2 (j 1) (j 2)) := by
  refine (shapeCast_addUnit_apply ![p, q] c hsc _).trans (congrArg c ?_)
  funext a
  match a with
  | ⟨0, _⟩ => rfl
  | ⟨1, _⟩ => rfl

/-- A block with a leading unit axis, viewed without it, reads the block at leading coordinate 0. -/
theorem dropUnit2_apply (v : (⟨3, ![1, p, q]⟩ : Shape).Idx → α)
    (hsc : (⟨3, ![1, p, q]⟩ : Shape).ShapeCasts ⟨2, ![p, q]⟩) (j : (⟨2, ![p, q]⟩ : Shape).Idx) :
    shapeCast ⟨2, ![p, q]⟩ v hsc j = v (ix3 ⟨0, Nat.one_pos⟩ (j 0) (j 1)) := by
  refine (shapeCast_dropUnit_apply ![p, q] v hsc j).trans (congrArg v ?_)
  funext a
  match a with
  | ⟨0, _⟩ => rfl
  | ⟨1, _⟩ => rfl
  | ⟨2, _⟩ => rfl

/-- The same one rank higher. -/
theorem dropUnit3_apply {c : ℕ} (v : (⟨4, ![1, c, p, q]⟩ : Shape).Idx → α)
    (hsc : (⟨4, ![1, c, p, q]⟩ : Shape).ShapeCasts ⟨3, ![c, p, q]⟩) (j : (⟨3, ![c, p, q]⟩ : Shape).Idx) :
    shapeCast ⟨3, ![c, p, q]⟩ v hsc j = v (ix4 ⟨0, Nat.one_pos⟩ (j 0) (j 1) (j 2)) := by
  refine (shapeCast_dropUnit_apply ![c, p, q] v hsc j).trans (congrArg v ?_)
  funext a
  match a with
  | ⟨0, _⟩ => rfl
  | ⟨1, _⟩ => rfl
  | ⟨2, _⟩ => rfl
  | ⟨3, _⟩ => rfl

end Layout

/-! ## A block of channels that reads a channel family from a base channel on -/

section Reads
variable {α : Type} {p q : ℕ}

/-- On the (row, lane) positions `P` allows, channel `c` of the block `A` is channel `base + c` of the family `G`,
    where the base may depend on the position. -/
def Rd (G : ℕ → Fin p → Fin q → α) (P : Fin p → Fin q → Prop) (m : ℕ) (A : (⟨3, ![m, p, q]⟩ : Shape).Idx → α)
    (base : Fin p → Fin q → ℕ) : Prop :=
  ∀ j : (⟨3, ![m, p, q]⟩ : Shape).Idx, P (j 1) (j 2) → A j = G (base (j 1) (j 2) + (j 0).val) (j 1) (j 2)

variable {G : ℕ → Fin p → Fin q → α} {P : Fin p → Fin q → Prop}

/-- A slice of such a block along the channels moves the base. -/
theorem Rd.slice {m n : ℕ} {A : (⟨3, ![m, p, q]⟩ : Shape).Idx → α} {base : Fin p → Fin q → ℕ} (hA : Rd G P m A base)
    (k : ℕ) (h : (⟨3, ![m, p, q]⟩ : Shape).Slices ![k, 0, 0] ⟨3, ![n, p, q]⟩) :
    Rd G P n (extractStridedSlice ⟨3, ![n, p, q]⟩ ![k, 0, 0] A h) (fun r l => base r l + k) := by
  intro j hj
  have hkn : k + n ≤ m := h.2 (0 : Fin 3)
  have hj0 : (j 0).val < n := (j 0).isLt
  have hlt : k + (j 0).val < m := by omega
  refine (sliceLead_apply k A h j hlt).trans ((hA _ hj).trans ?_)
  exact congrArg (fun t => G t (j 1) (j 2)) (Nat.add_assoc _ _ _).symm

/-- A select between two such blocks, on a condition of the position only, selects the base. -/
theorem Rd.select {n : ℕ} {X Y : (⟨3, ![n, p, q]⟩ : Shape).Idx → α} {bx bY : Fin p → Fin q → ℕ}
    (hX : Rd G P n X bx) (hY : Rd G P n Y bY) (c : IVec ⟨3, ![n, p, q]⟩ 1) (cb : Fin p → Fin q → BitVec 1)
    (hc : ∀ j, c j = cb (j 1) (j 2)) :
    Rd G P n (Idealize.ShloMosaic.select c X Y) (fun r l => if cb r l = 1#1 then bx r l else bY r l) := by
  intro j hj
  by_cases h1 : cb (j 1) (j 2) = 1#1
  · have e1 : Idealize.ShloMosaic.select c X Y j = X j := by rw [select_apply, hc j, h1, select_one]
    refine e1.trans ((hX j hj).trans ?_)
    exact congrArg (fun t => G (t + (j 0).val) (j 1) (j 2)) (if_pos h1).symm
  · have e1 : Idealize.ShloMosaic.select c X Y j = Y j := by rw [select_apply, hc j, eq_zero_of_ne_one h1, select_zero]
    refine e1.trans ((hY j hj).trans ?_)
    exact congrArg (fun t => G (t + (j 0).val) (j 1) (j 2)) (if_neg h1).symm

end Reads

/-! ## The label word: which channel the tree of selects arrives at -/

section Word

/-- The first channel of the 32-channel third a label falls in, as the two signed comparisons choose it. -/
def base32 (w : BitVec 32) : ℕ :=
  if IntOp.cmpi .sge w 64#32 = 1#1 then 0 + 64 else if IntOp.cmpi .sge w 32#32 = 1#1 then 0 + 32 else 0 + 0

/-- One halving: the upper half (`k` channels on) when the label has the bit `K`, the lower half otherwise. -/
def halve (K : BitVec 32) (k : ℕ) (w : BitVec 32) (base : ℕ) : ℕ :=
  if IntOp.cmpi .sgt (IntOp.andi w K) 0#32 = 1#1 then base + k else base + 0

/-- The base channel after the halvings by 16 and by 8. -/
def base8 (w : BitVec 32) : ℕ := halve 8#32 8 w (halve 16#32 16 w (base32 w))

/-- The channel after all five halvings. -/
def base1 (w : BitVec 32) : ℕ := halve 1#32 1 w (halve 2#32 2 w (halve 4#32 4 w (base8 w)))

theorem base1_ofNat : ∀ n : Fin 96, base1 (BitVec.ofNat 32 n.val) = n.val := by decide

/-- A label below 96 arrives at its own channel. -/
theorem base1_eq (w : BitVec 32) (h : w.toNat < 96) : base1 w = w.toNat := by
  have key : base1 (BitVec.ofNat 32 w.toNat) = w.toNat := base1_ofNat ⟨w.toNat, h⟩
  rwa [show BitVec.ofNat 32 w.toNat = w by simp] at key

end Word

/-! ## The tree of selects of the body, block by block -/

section Tree
variable {F : FTy → Type} [FloatOps F]
variable (x : FVec F Cert.Spec.SX .f32) (b : ℕ) (v0 : Vec F S1x96x224x128 .f32) (v2 : Vec F S1x224x128 .i32)

/-- Channel `c`, row `r`, column `128 + l` of batch `b` of the scores. -/
def chan (c : ℕ) (r : Fin 224) (l : Fin 128) : F .f32 := x (Cert.Spec.ixX b c r.val (128 + l.val))

/-- The lanes that stand for a column. -/
def lane96 (_ : Fin 224) (l : Fin 128) : Prop := l.val < 96

/-- The label word the body holds for row `r`, lane `l`. -/
def lbl (r : Fin 224) (l : Fin 128) : BitVec 32 := v2 (ix3 ⟨0, Nat.one_pos⟩ r l)

/-- The labels without their unit axis, at an index. -/
theorem pay2_apply (j : S224x128.Idx) : k1_pay2 v2 j = lbl v2 (j 0) (j 1) :=
  dropUnit2_apply v2 shapeCasts_S1x224x128_S224x128 j

/-- The condition "the label is at least `K`", broadcast along the channels, at an index. -/
theorem geCond_apply (K : BitVec 32) {n : ℕ} (hb : S1x224x128.Broadcasts ⟨3, ![n, 224, 128]⟩) (j : (⟨3, ![n, 224, 128]⟩ : Shape).Idx) :
    broadcastTo ⟨3, ![n, 224, 128]⟩ (shapeCast S1x224x128 (shapeCast S1x224x128 (cmpi .sge (k1_pay2 v2) (broadcast S224x128 K))
      shapeCasts_S224x128_S1x224x128) shapeCasts_S1x224x128_S1x224x128) hb j = IntOp.cmpi .sge (lbl v2 (j 1) (j 2)) K := by
  rw [shapeCast_self, condBcast_apply _ _ hb (by decide) (by decide) j]
  show IntOp.cmpi .sge (k1_pay2 v2 (ix2 (j 1) (j 2))) K = _
  rw [pay2_apply]

/-- The condition "the label has the bit `K`", broadcast along the channels, at an index. -/
theorem bitCond_apply (K : BitVec 32) {n : ℕ} (hb : S1x224x128.Broadcasts ⟨3, ![n, 224, 128]⟩) (j : (⟨3, ![n, 224, 128]⟩ : Shape).Idx) :
    broadcastTo ⟨3, ![n, 224, 128]⟩ (shapeCast S1x224x128 (cmpi .sgt (andi (k1_pay2 v2) (broadcast S224x128 K)) (broadcast S224x128 0#32))
      shapeCasts_S224x128_S1x224x128) hb j = IntOp.cmpi .sgt (IntOp.andi (lbl v2 (j 1) (j 2)) K) 0#32 := by
  rw [condBcast_apply _ _ hb (by decide) (by decide) j]
  show IntOp.cmpi .sgt (IntOp.andi (k1_pay2 v2 (ix2 (j 1) (j 2))) K) 0#32 = _
  rw [pay2_apply]

/-- The same condition with the unit axis only. -/
theorem bitCondUnit_apply (K : BitVec 32) (j : S1x224x128.Idx) :
    shapeCast S1x224x128 (cmpi .sgt (andi (k1_pay2 v2) (broadcast S224x128 K)) (broadcast S224x128 0#32))
      shapeCasts_S224x128_S1x224x128 j = IntOp.cmpi .sgt (IntOp.andi (lbl v2 (j 1) (j 2)) K) 0#32 := by
  rw [condUnit_apply _ _ j]
  show IntOp.cmpi .sgt (IntOp.andi (k1_pay2 v2 (ix2 (j 1) (j 2))) K) 0#32 = _
  rw [pay2_apply]

variable (h0 : ∀ i : S1x96x224x128.Idx, (i 3).val < 96 → v0 i = x (Cert.Spec.ixX b (i 1).val (i 2).val (128 + (i 3).val)))
include h0

/-- The 96 channels of the staging block, on the lanes that stand for a column. -/
theorem v1_rd : Rd (chan x b) lane96 96 (shapeCast S96x224x128 v0 shapeCasts_S1x96x224x128_S96x224x128) (fun _ _ => 0) := by
  intro j hj
  have hl : (j 2).val < 96 := hj
  refine (dropUnit3_apply v0 _ j).trans ((h0 (ix4 ⟨0, Nat.one_pos⟩ (j 0) (j 1) (j 2)) hl).trans ?_)
  exact congrArg (fun t => x (Cert.Spec.ixX b t (j 1).val (128 + (j 2).val))) (Nat.zero_add _).symm

/-- The 8 channels the first four levels of the tree leave. -/
theorem pay3_rd : Rd (chan x b) lane96 8 (k1_pay3 v0 v2) (fun r l => base8 (lbl v2 r l)) := by
  have h1 := v1_rd x b v0 h0
  have h17 := Rd.select (h1.slice 32 slices_S96x224x128_o32_0_0_S32x224x128) (h1.slice 0 slices_S96x224x128_o0_0_0_S32x224x128) _
    (fun r l => IntOp.cmpi .sge (lbl v2 r l) 32#32) (geCond_apply v2 32#32 broadcasts_S1x224x128_S32x224x128)
  have h18 := Rd.select (h1.slice 64 slices_S96x224x128_o64_0_0_S32x224x128) h17 _
    (fun r l => IntOp.cmpi .sge (lbl v2 r l) 64#32) (geCond_apply v2 64#32 broadcasts_S1x224x128_S32x224x128)
  have h27 := Rd.select (h18.slice 16 slices_S32x224x128_o16_0_0_S16x224x128) (h18.slice 0 slices_S32x224x128_o0_0_0_S16x224x128) _
    (fun r l => IntOp.cmpi .sgt (IntOp.andi (lbl v2 r l) 16#32) 0#32) (bitCond_apply v2 16#32 broadcasts_S1x224x128_S16x224x128)
  have h36 := Rd.select (h27.slice 8 slices_S16x224x128_o8_0_0_S8x224x128) (h27.slice 0 slices_S16x224x128_o0_0_0_S8x224x128) _
    (fun r l => IntOp.cmpi .sgt (IntOp.andi (lbl v2 r l) 8#32) 0#32) (bitCond_apply v2 8#32 broadcasts_S1x224x128_S8x224x128)
  exact h36

end Tree

/-! ## The masked block and the body's value -/

section Block
variable {F : FTy → Type} [FloatOps F]
variable (x : FVec F Cert.Spec.SX .f32) (y : IVec Cert.Spec.SY 32) (b : ℕ) (v0 : Vec F S1x96x224x128 .f32) (v2 : Vec F S1x224x128 .i32)

/-- The last select of the body: the lanes from 96 on are set to the float zero. -/
def maskLanes (v62 : FVec F S1x224x128 .f32) : FVec F S1x224x128 .f32 :=
  select (cmpi .slt (iota .tc S1x224x128 32 [2] iota_S1x224x128_d2_w32) (broadcast S1x224x128 96#32)) v62
    (broadcast S1x224x128 (Scalar.ofBits .f32 0x00000000#32))

theorem lane_slt : ∀ l : Fin 128, IntOp.cmpi .slt (BitVec.ofNat 32 l.val) 96#32 = if l.val < 96 then 1#1 else 0#1 := by decide

/-- The lane condition at an index. -/
theorem laneCond_apply (j : S1x224x128.Idx) :
    cmpi .slt (iota .tc S1x224x128 32 [2] iota_S1x224x128_d2_w32) (broadcast S1x224x128 96#32) j
      = if (j 2).val < 96 then 1#1 else 0#1 := by
  show IntOp.cmpi .slt (iota .tc S1x224x128 32 [2] iota_S1x224x128_d2_w32 j) 96#32 = _
  rw [iota_single_apply]
  exact lane_slt (j 2)

/-- The masked block is the block of selected scores. -/
theorem mask_eq (v62 : FVec F S1x224x128 .f32) (h62 : Rd (chan x b) lane96 1 v62 (fun r l => base1 (lbl v2 r l)))
    (hy : ∀ j : Cert.Spec.SY.Idx, (y j).toNat < 96)
    (h2 : ∀ i : S1x224x128.Idx, (i 2).val < 96 → v2 i = y (Cert.Spec.ixY b (i 1).val (128 + (i 2).val))) :
    maskLanes v62 = Cert.Spec.tcW x y b := by
  funext j
  unfold maskLanes
  rw [select_apply, laneCond_apply]
  by_cases hl : (j 2).val < 96
  · have hj0 : (j 0).val = 0 := Nat.lt_one_iff.1 (j 0).isLt
    have hw : lbl v2 (j 1) (j 2) = y (Cert.Spec.ixY b (j 1).val (128 + (j 2).val)) :=
      h2 (ix3 ⟨0, Nat.one_pos⟩ (j 1) (j 2)) hl
    rw [if_pos hl, select_one, h62 j hl]
    unfold Cert.Spec.tcW
    rw [if_pos hl]
    unfold Cert.Spec.pick
    have e : base1 (lbl v2 (j 1) (j 2)) + (j 0).val = (y (Cert.Spec.ixY b (j 1).val (128 + (j 2).val))).toNat := by
      rw [hw, base1_eq _ (hy _), hj0, Nat.add_zero]
    exact congrArg (fun t => x (Cert.Spec.ixX b t (j 1).val (128 + (j 2).val))) e
  · rw [if_neg hl, select_zero]
    unfold Cert.Spec.tcW
    rw [if_neg hl]
    rfl

end Block

section Value
variable {F : FTy → Type} [FloatOps F]

/-- What the body stores: the old scalar less the sum of the block of selected scores. -/
theorem tc_block_value (x : FVec F Cert.Spec.SX .f32) (y : IVec Cert.Spec.SY 32) (b : ℕ)
    (hy : ∀ j : Cert.Spec.SY.Idx, (y j).toNat < 96)
    (v0 : Vec F S1x96x224x128 .f32) (v2 : Vec F S1x224x128 .i32)
    (h0 : ∀ i : S1x96x224x128.Idx, (i 3).val < 96 → v0 i = x (Cert.Spec.ixX b (i 1).val (i 2).val (128 + (i 3).val)))
    (h2 : ∀ i : S1x224x128.Idx, (i 2).val < 96 → v2 i = y (Cert.Spec.ixY b (i 1).val (128 + (i 2).val)))
    (old : Elt F .f32) :
    k1_pay1 (k1_pay2 v2) (k1_pay3 v0 v2) (k1_pay4 v2) old = Scalar.subf old (Cert.Spec.tcTerm x y b) := by
  have h36 := pay3_rd x b v0 v2 h0
  have h45 := Rd.select (h36.slice 4 slices_S8x224x128_o4_0_0_S4x224x128) (h36.slice 0 slices_S8x224x128_o0_0_0_S4x224x128) (k1_pay4 v2)
    (fun r l => IntOp.cmpi .sgt (IntOp.andi (lbl v2 r l) 4#32) 0#32) (bitCond_apply v2 4#32 broadcasts_S1x224x128_S4x224x128)
  have h54 := Rd.select (h45.slice 2 slices_S4x224x128_o2_0_0_S2x224x128) (h45.slice 0 slices_S4x224x128_o0_0_0_S2x224x128) _
    (fun r l => IntOp.cmpi .sgt (IntOp.andi (lbl v2 r l) 2#32) 0#32) (bitCond_apply v2 2#32 broadcasts_S1x224x128_S2x224x128)
  have h62 := Rd.select (h54.slice 1 slices_S2x224x128_o1_0_0_S1x224x128) (h54.slice 0 slices_S2x224x128_o0_0_0_S1x224x128) _
    (fun r l => IntOp.cmpi .sgt (IntOp.andi (lbl v2 r l) 1#32) 0#32) (bitCondUnit_apply v2 1#32)
  have hblk := mask_eq x y b v2 _ h62 hy h2
  have key := congrArg (fun W => Scalar.subf old (extractAt ![0, 0, 0, 0] (shapeCast S1x1x1x1 (multiReduction .add [1, 2, 3] S1
    (shapeCast S1x1x224x128 W shapeCasts_S1x224x128_S1x1x224x128) 0x00000000#32 reduces_S1x1x224x128_S1 (.inl rfl) rfl)
    shapeCasts_S1_S1x1x1x1) inpos_S1x1x1x1_p0_0_0_0)) hblk
  exact key

end Value

end Cert.KernelIdeal.Hand

end
-- ==== Proof.KI.TCBody.lean ====
/-
  The body obligation of the TensorCore's pipeline: at every grid point the body, run on the point's staging buffers as
  the pipeline hands them over (the two inputs just fetched: the block inside the array, anything beyond; the 1 x 1 cell
  at anything at the first point, at the running difference after), leaves the inputs as they were and the cell at the
  next running difference — its content minus the batch's term, which is what the payload computes from the two blocks.
-/
import proofs.«209113_g38259568672962_cont_8to1_b_1629_19_alg».proof.Proof.KI.TCData
import proofs.«209113_g38259568672962_cont_8to1_b_1629_19_alg».proof.Proof.KI.TCRun
import proofs.«209113_g38259568672962_cont_8to1_b_1629_19_alg».proof.Proof.KI.TCAux
import proofs.«209113_g38259568672962_cont_8to1_b_1629_19_alg».proof.Proof.KI.TCBlock

noncomputable section

namespace Cert.KernelIdeal.Hand

open Cert.KernelIdeal Cert.KernelIdeal.Gen Cert.KernelIdeal.GenP

open Idealize.ShloMosaic Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

variable (m : (ℓ : Loc nD τ sig) → Buf (Elt F) ℓ)

variable (t0 : (c : Dev nD) → Buf (Elt F) (tLoc c))

/-- The first coordinate of a grid point is the point's number: the batch. -/
theorem coords_0 (t : Fin cfg1.N) : (grid1.coords t 0).val = t.val := by
  rcases fin_N1 t with rfl | rfl | rfl | rfl | rfl | rfl | rfl | rfl <;> rfl

/-- What the payload computes from the two staged blocks at point t and the cell's content: the content minus batch t's
    term — the select tree picks, at every lane inside the array, the score the label names, and masks the lanes beyond. -/
theorem pay_at (hy : YOK m) (c : Dev nD) (t : Fin cfg1.N) (d0 : S1x96x224x128.Idx → Elt F .f32) (d1 : S1x224x128.Idx → Elt F .i32) (old : Elt F .f32) :
    k1_pay1 (k1_pay2 (win1_1.fill (grid1.coords t) d1 (yblk m c t))) (k1_pay3 (win1_0.fill (grid1.coords t) d0 (xblk m c t)) (win1_1.fill (grid1.coords t) d1 (yblk m c t)))
        (k1_pay4 (win1_1.fill (grid1.coords t) d1 (yblk m c t))) old
      = Scalar.subf old (Cert.Spec.tcTerm (m (xLoc c)) (m (yLoc c)) t.val) :=
  tc_block_value (m (xLoc c)) (m (yLoc c)) t.val (fun j => hy c j) _ _
    (fun i hi => xfill_at c (m (xLoc c)) t d0 i hi) (fun i hi => yfill_at c (m (yLoc c)) t d1 i hi) old

/-- The library's body obligation: the inputs' buffers arrive just fetched, the cell at anything (first point) or at the
    running difference; the body leaves the inputs as they were and the cell at the next running difference. -/
theorem body_obligation (hy : YOK m) (c : Dev nD) :
    BodyObligationLoose (datT m t0 0 c) (defs₀ (F := F)) Variants.none (none : HIx 1) Set.univ := fun t => by
  rw [bigSep_W1, bigSep_W1]
  simp only
  rw [show (datT m t0 0 c).Φ t.succ = (datT m t0 0 c).Φ t.castSucc from rfl,
    show (datT m t0 0 c).owesAt (none : HIx 1) t.succ = (datT m t0 0 c).owesAt (none : HIx 1) t.castSucc from rfl]
  iintro ⟨HΦ, Ho, ⟨%d0, H0⟩, ⟨%d1, H1⟩, ⟨%d2, H2⟩⟩
  rw [before_0 m t0 c t d0, before_1 m t0 c t d1]
  have hx : win1_0.cut (grid1.coords t) ((datT m t0 0 c).after (0 : Fin 3) t) = xblk m c t := win1_0.cut_fill _ _ _
  have hyb : win1_1.cut (grid1.coords t) ((datT m t0 0 c).after (1 : Fin 3) t) = yblk m c t := win1_1.cut_fill _ _ _
  by_cases h0 : t.val = 0
  · rw [before_2_zero m t0 c t h0 d2]
    iapply (sound_body_first (F := F) c Set.univ (grid1.coords t) ((coords_0 t).trans h0) _ _ _ _ _ _
      (win1_0.fill (grid1.coords t) d0 (xblk m c t)) (win1_1.fill (grid1.coords t) d1 (yblk m c t)) d2 _)
    isplitl [H0]; · iexact H0
    isplitl [H1]; · iexact H1
    isplitl [H2]; · iexact H2
    iintro ⟨H0, H1, H2⟩
    isplitl [HΦ]; · iexact HΦ
    isplitl [Ho]; · iexact Ho
    isplitl [H0]
    · iexists d0
      change _ ⊢ owns (T c) (stage1_0 (cfg1.slots t 0)) fullShare (win1_0.fill (grid1.coords t) d0 (win1_0.cut (grid1.coords t) ((datT m t0 0 c).after (0 : Fin 3) t)))
      rw [hx]; try iexact H0
    isplitl [H1]
    · iexists d1
      change _ ⊢ owns (T c) (stage1_1 (cfg1.slots t 1)) fullShare (win1_1.fill (grid1.coords t) d1 (win1_1.cut (grid1.coords t) ((datT m t0 0 c).after (1 : Fin 3) t)))
      rw [hyb]; try iexact H1
    · rw [pay_at m hy c t d0 d1]
      have e : (datT m t0 0 c).after (2 : Fin 3) t
          = fun _ => Scalar.subf (FloatOps.ofBits .f32 0#32) (Cert.Spec.tcTerm (m (xLoc c)) (m (yLoc c)) t.val) := by
        dsimp only [datT]; rw [h0]; rfl
      rw [e]; try iexact H2
  · rw [before_2_pos m t0 c t h0 d2]
    iapply (sound_body_later (F := F) c Set.univ (grid1.coords t) (fun h => h0 ((coords_0 t).symm.trans h)) _ _ _ _ _ _
      (win1_0.fill (grid1.coords t) d0 (xblk m c t)) (win1_1.fill (grid1.coords t) d1 (yblk m c t)) (accT m c t.val) _)
    isplitl [H0]; · iexact H0
    isplitl [H1]; · iexact H1
    isplitl [H2]; · iexact H2
    iintro ⟨H0, H1, H2⟩
    isplitl [HΦ]; · iexact HΦ
    isplitl [Ho]; · iexact Ho
    isplitl [H0]
    · iexists d0
      change _ ⊢ owns (T c) (stage1_0 (cfg1.slots t 0)) fullShare (win1_0.fill (grid1.coords t) d0 (win1_0.cut (grid1.coords t) ((datT m t0 0 c).after (0 : Fin 3) t)))
      rw [hx]; try iexact H0
    isplitl [H1]
    · iexists d1
      change _ ⊢ owns (T c) (stage1_1 (cfg1.slots t 1)) fullShare (win1_1.fill (grid1.coords t) d1 (win1_1.cut (grid1.coords t) ((datT m t0 0 c).after (1 : Fin 3) t)))
      rw [hyb]; try iexact H1
    · rw [pay_at m hy c t d0 d1]
      have e : (datT m t0 0 c).after (2 : Fin 3) t
          = fun _ => Scalar.subf (accT m c t.val) (Cert.Spec.tcTerm (m (xLoc c)) (m (yLoc c)) t.val) := by
        dsimp only [datT]; rfl
      rw [e]; try iexact H2

end Cert.KernelIdeal.Hand

end
-- ==== Proof.KI.TCFinal.lean ====
/-
  The arrays after the eight grid points of the TensorCore call, as the pipeline's bookkeeping computes them: the two
  inputs are never written back, so they hold what the region found; the 1 x 1 scalar is written back after the last point
  only, with the running difference after all eight batches.
-/
import proofs.«209113_g38259568672962_cont_8to1_b_1629_19_alg».proof.Proof.KI.TCData

noncomputable section

namespace Cert.KernelIdeal.Hand

open Cert.KernelIdeal Cert.KernelIdeal.Gen Cert.KernelIdeal.GenP

open Idealize.ShloMosaic Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

variable (m : (ℓ : Loc nD τ sig) → Buf (Elt F) ℓ)

variable (t0 : (c : Dev nD) → Buf (Elt F) (tLoc c))

/-- The scalar's block is the one cell at every point. -/
theorem xsize1_2 : ∀ (t : Fin cfg1.N) a, win1_2.xsize (grid1.coords t) a = (![1, 1] : Fin 2 → ℕ) a :=
  (by decide +kernel : ∀ (t : Fin grid1.N) a, win1_2.xsize (grid1.coords t) a = (![1, 1] : Fin 2 → ℕ) a)
/-- Its one index. -/
def z2 (t : Fin cfg1.N) : (win1_2.xblock (grid1.coords t)).Idx := fun a =>
  ⟨0, by
    show 0 < win1_2.xsize (grid1.coords t) a
    rw [xsize1_2 t a]
    match a with
    | ⟨0, _⟩ => exact Nat.one_pos
    | ⟨1, _⟩ => exact Nat.one_pos⟩

theorem arrAt_x (c : Dev nD) : (datT m t0 0 c).arrAt (0 : Fin 3) cfg1.N = m (xLoc c) :=
  (datT m t0 0 c).arrAt_in (0 : Fin 3) rfl _
theorem arrAt_y (c : Dev nD) : (datT m t0 0 c).arrAt (1 : Fin 3) cfg1.N = m (yLoc c) :=
  (datT m t0 0 c).arrAt_in (1 : Fin 3) rfl _

/-- Below the last point nothing is written back to the scalar's array. -/
theorem arrAt_t_lt (c : Dev nD) : ∀ n, n ≤ 7 → (datT m t0 0 c).arrAt (2 : Fin 3) n = t0 c
  | 0, _ => rfl
  | n + 1, h => by
    have hn : n < cfg1.N := by rw [show cfg1.N = 8 from N_1]; omega
    rw [show n + 1 = (⟨n, hn⟩ : Fin cfg1.N).val + 1 from rfl, Dat.arrAt_succ,
      if_neg (fun hf => by have := (flush1_2 _).mp hf; dsimp only at this; omega)]
    exact arrAt_t_lt c n (by omega)

theorem arrAt_t (c : Dev nD) : (datT m t0 0 c).arrAt (2 : Fin 3) cfg1.N = Cert.Spec.tcOut (m (xLoc c)) (m (yLoc c)) := by
  have h7 : (7 : ℕ) < cfg1.N := by rw [show cfg1.N = 8 from N_1]; omega
  rw [show cfg1.N = (⟨7, h7⟩ : Fin cfg1.N).val + 1 from N_1, Dat.arrAt_succ, if_pos ((flush1_2 _).mpr rfl)]
  funext i
  have hi : i = ((cfg1.win 2).blk ⟨7, h7⟩).view.emb (z2 ⟨7, h7⟩) := by
    funext a; apply Fin.ext
    have h1 : (i a).val < 1 := by
      have := (i a).isLt
      match a with
      | ⟨0, _⟩ => exact this
      | ⟨1, _⟩ => exact this
    have h2 : ((((cfg1.win 2).blk ⟨7, h7⟩).view.emb (z2 ⟨7, h7⟩)) a).val < 1 := by
      have := ((((cfg1.win 2).blk ⟨7, h7⟩).view.emb (z2 ⟨7, h7⟩)) a).isLt
      match a with
      | ⟨0, _⟩ => exact this
      | ⟨1, _⟩ => exact this
    omega
  rw [hi, View.write_emb_of_mem _ _ (Finset.mem_univ _), cast_eq]
  rfl

end Cert.KernelIdeal.Hand

end
-- ==== Proof.KI.TCReg.lean ====
/-
  The TensorCore's pallas_call as a kernel region: the thread states it is entered from and leaves, and the record of its
  obligations — the layout, the body obligation, the wait evidence (the TensorCore owes nothing then), and the entry and exit
  entailments that hand the three arrays to the pipeline and take them back at their final contents.
-/
import proofs.«209113_g38259568672962_cont_8to1_b_1629_19_alg».proof.Proof.KI.TCBody
import proofs.«209113_g38259568672962_cont_8to1_b_1629_19_alg».proof.Proof.KI.TCFinal

noncomputable section

namespace Cert.KernelIdeal.Hand

open Cert.KernelIdeal Cert.KernelIdeal.Gen Cert.KernelIdeal.GenP

open Idealize.ShloMosaic Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

variable (m : (ℓ : Loc nD τ sig) → Buf (Elt F) ℓ)

variable (t0 : (c : Dev nD) → Buf (Elt F) (tLoc c))

/-- After the one SparseCore call the TensorCore owes no handshake unit. -/
theorem Otc_one (c : Dev nD) : (K (F := F)).Otc c 1 = 0 := by
  unfold SparseCore.Cfg.Otc
  exact Finset.sum_eq_zero fun q _ => if_neg (by have := q.isLt; omega)

/-- The thread state the region is entered from: what the TensorCore owes (nothing), its recorded pairs at the levels of the
    first handshake; the scores and labels whole; the scalar at what it holds. -/
def preT (c : Dev nD) : sProp 𝕄 :=
  iprop((∃ W, ⌜(K (F := F)).WBelow (T c) W 8⌝ ∗ owes (T c) ((K (F := F)).Otc c 1) W)
    ∗ (xLoc c ↦{fullShare} m (xLoc c)) ∗ (yLoc c ↦{fullShare} m (yLoc c)) ∗ (tLoc c ↦{fullShare} t0 c))

/-- The one it leaves: the same, the scalar at the running difference after the eight batches. -/
def postT (c : Dev nD) : sProp 𝕄 :=
  iprop((∃ W, ⌜(K (F := F)).WBelow (T c) W 8⌝ ∗ owes (T c) ((K (F := F)).Otc c 1) W)
    ∗ (xLoc c ↦{fullShare} m (xLoc c)) ∗ (yLoc c ↦{fullShare} m (yLoc c))
    ∗ (tLoc c ↦{fullShare} Cert.Spec.tcOut (m (xLoc c)) (m (yLoc c))))

set_option backward.isDefEq.respectTransparency.types false in
/-- The region: the windows' layout facts, no semaphore of the kernel's own, the body obligation; the three arrays into the
    pipeline, nothing into the invariant, nothing bypassing. -/
def regT (hy : YOK m) {lv : GSem nD τ sig → HIx 1 → ℕ} (hlv : (K (F := F)).Refines lv) :
    Pipeline.RegionSeg (pcfgs (F := F)) adm (datT m t0) (none : HIx 1) defs₀ 𝒱₀ (K (F := F)).L lv 0 where
  win := launch1.win.to₀
  block_pos := launch1.block_pos
  stage_whole := launch1.stage_whole
  K := PEmpty
  osem := fun k => k.elim
  ho := Pipeline.OwnSemFacts.none _
  hbody c := body_obligation m t0 hy c
  hwaits := Pipeline.hwaits_of_owed_zero _ _ _ _ (K (F := F)).L lv 0 fun c _ => Otc_one c
  pre c := preT m t0 c
  post c := postT m c
  X _ := iprop(emp)
  Y _ := iprop(emp)
  Z _ := iprop(emp)
  hentry c := by
    unfold preT
    have harr := Pipeline.arrays_eq cfgs (datT m t0) (0 : Fin 1) c launch1.arr_whole ((datT m t0 0 c).share_full fun _ => rfl)
      (fun w => (datT m t0 0 c).arrAt w 0)
    iintro ⟨⟨⟨%W, %hW, HO⟩, Hx, Hy, Ht⟩, -, -⟩
    imodintro
    isplitl [Hx Hy Ht]
    · iapply (Entails.of_eq harr.symm)
      rw [bigSep_W1]
      isplitl [Hx]; · iexact Hx
      isplitl [Hy]; · iexact Hy
      iexact Ht
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr <;> iempintro
  hin c := by iintro -; iempintro
  hout c := by
    rw [scopedRest1_eq, Pipeline.ownSems0_none]
    iintro -; isplitr; · iempintro
    isplitr <;> iempintro
  hexit c := by
    unfold postT
    have harr := Pipeline.arrays_eq cfgs (datT m t0) (0 : Fin 1) c launch1.arr_whole ((datT m t0 0 c).share_full fun _ => rfl)
      (fun w => (datT m t0 0 c).arrAt w cfg1.N)
    rw [bigSep_W1] at harr
    have harr' := Entails.of_eq harr
    iintro ⟨Ha, HO, -, -⟩
    ihave Ha' := harr' $$ Ha
    icases Ha' with ⟨Hx, Hy, Ht⟩
    imodintro
    isplitl [HO]
    · unfold Pipeline.Dat.owesAt Pipeline.owesWithin
      icases HO with ⟨%W, %hW, HO⟩
      iexists W; isplitr; swap; · iexact HO
      ipureintro
      intro p hp
      rcases hW hp with h | ⟨w, s, rfl⟩
      · exact h
      · exact Nat.zero_le _
    rw [arrAt_x m t0 c, arrAt_y m t0 c, arrAt_t m t0 c]
    isplitl [Hx]; · iexact Hx
    isplitl [Hy]; · iexact Hy
    iexact Ht

end Cert.KernelIdeal.Hand

end
-- ==== Proof.KI.TC.lean ====
/-
  The TensorCore's pallas_call as a kernel region of the SparseCore program, on the TensorCore thread under the extended
  body table: from the scores x and the labels y whole, the 1 x 1 scalar at any contents, the region boundary, the level
  facts and the pipeline's share of the launch element, the call runs to the scalar at the running difference after the
  eight batches, x and y unchanged, the boundary back, and the thread owing what it owed.
-/
import proofs.«209113_g38259568672962_cont_8to1_b_1629_19_alg».proof.Proof.KI.TCGhost
import proofs.«209113_g38259568672962_cont_8to1_b_1629_19_alg».proof.Proof.KI.TCReg

noncomputable section

namespace Cert.KernelIdeal.Hand

open Cert.KernelIdeal Cert.KernelIdeal.Gen Cert.KernelIdeal.GenP

open Idealize.ShloMosaic Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

variable (m : (ℓ : Loc nD τ sig) → Buf (Elt F) ℓ)

set_option backward.isDefEq.respectTransparency.types false in
/-- The region in the certificate's own signature: the pipeline's entry call, from the entry state, the boundary, the level
    facts and the cells' ghost state, to the boundary and the exit state. -/
theorem wp_region (t0 : (c : Dev nD) → Buf (Elt F) (tLoc c)) (hy : YOK m) (d : Dev nD) {lv : GSem nD τ sig → HIx 1 → ℕ} (hlv : (K (F := F)).Refines lv)
    (Φ : PUnit.{1} → sProp 𝕄) :
    iprop((iprop(boundary (T d) ∗ postT m d) -∗ wp frame (wpE (D (F := F)) 𝒱 (T d) none) Set.univ (.ret PUnit.unit) Φ)
        ∗ boundary (T d) ∗ preT m t0 d ∗ levAts (K (F := F)).L lv ∗ GT d)
      ⊢ wp frame (wpE (D (F := F)) 𝒱 (T d) none) Set.univ (.op (.customCall (Pipeline.entry (0 : Fin 1)) ()) fun _ => .ret PUnit.unit) Φ := by
  have h := Pipeline.RegionSeg.wp (pcfgs (F := F)) adm (datT m t0) (none : HIx 1) Gen.cellOf_inj (EP (F := F)) defs₀ 𝒱₀
    (K (F := F)).L lv (regT m t0 hy hlv) d none (fun u hu => nomatch hu) (α := PUnit.{1}) (fun _ => .ret PUnit.unit) Φ
  exact h

set_option backward.isDefEq.respectTransparency.types false in
theorem wp_tc (hy : YOK m) (d : Dev nD) {lv : GSem nD τ sig → HIx 1 → ℕ} (hlv : (K (F := F)).Refines lv)
    (W : Waits sig (HIx 1)) (hW : (K (F := F)).WBelow (T d) W 8) (t0 : Buf (Elt F) (tLoc d)) (Φ : PUnit → sProp 𝕄) :
    iprop(GT d ∗ boundary (T d) ∗ levAts (K (F := F)).L lv ∗ owes (T d) ((K (F := F)).Otc d 1) W
        ∗ (xLoc d ↦{fullShare} m (xLoc d)) ∗ (yLoc d ↦{fullShare} m (yLoc d)) ∗ (tLoc d ↦{fullShare} t0)
        ∗ (iprop(boundary (T d) ∗ (∃ W', ⌜(K (F := F)).WBelow (T d) W' 8⌝ ∗ owes (T d) ((K (F := F)).Otc d 1) W')
              ∗ (xLoc d ↦{fullShare} m (xLoc d)) ∗ (yLoc d ↦{fullShare} m (yLoc d))
              ∗ (tLoc d ↦{fullShare} Cert.Spec.tcOut (m (xLoc d)) (m (yLoc d)))) -∗ Φ ⟨⟩))
      ⊢ wp frame (wpE ((K (F := F)).defs (D (F := F))) 𝒱 (SparseCore.T d) none) Set.univ
          (Prog.lift (.customCall (SparseCore.inner (Pipeline.entry 0)) ())) Φ := by
  -- the scalar's contents on every device (there is one)
  let t0' : (c : Dev nD) → Buf (Elt F) (tLoc c) := fun c => (Subsingleton.elim d c) ▸ t0
  have ht0 : t0' d = t0 := rfl
  have hlift := (K (F := F)).wp_liftProg (D (F := F)) 𝒱 (T d) Set.univ none
    (.op (.customCall (Pipeline.entry (0 : Fin 1)) ()) fun _ => .ret PUnit.unit) Φ
  refine BIBase.Entails.trans ?_ hlift
  refine BIBase.Entails.trans ?_ (wp_region m t0' hy d hlv Φ)
  iintro ⟨HG, Hb, Hlev, HO, Hx, Hy, Ht, Hk⟩
  isplitl [Hk]
  · iintro ⟨Hb, Hp⟩
    rw [wp_ret]; imodintro
    iapply Hk
    isplitl [Hb]; · iexact Hb
    unfold postT
    iexact Hp
  isplitl [Hb]; · iexact Hb
  isplitl [HO Hx Hy Ht]
  · unfold preT
    isplitl [HO]
    · iexists W; isplitr; · ipureintro; exact hW
      iexact HO
    isplitl [Hx]; · iexact Hx
    isplitl [Hy]; · iexact Hy
    rw [ht0]; iexact Ht
  isplitl [Hlev]; · iexact Hlev
  iexact HG

/-- info: 'Cert.KernelIdeal.Hand.wp_tc' depends on axioms: [propext, Classical.choice, Quot.sound] -/
#guard_msgs in #print axioms wp_tc

end Cert.KernelIdeal.Hand

end
-- ==== Proof.KI.Launch.lean ====
/-
  The launch of the whole program: the launch element of the ghost state (the handshakes' rounds, and the pipeline's
  cells for the one TensorCore call), @main on the TensorCore — the SparseCore call handing x, y and the lane totals to
  the two SparseCores and taking them back with the totals at the specification's, the TensorCore call leaving the scalar
  at the specification's, then the host's four operations — and how the final memory reads the claim.
-/
import proofs.«209113_g38259568672962_cont_8to1_b_1629_19_alg».proof.Proof.KI.Tail
import proofs.«209113_g38259568672962_cont_8to1_b_1629_19_alg».proof.Proof.KI.SCPay
import proofs.«209113_g38259568672962_cont_8to1_b_1629_19_alg».proof.Proof.KI.TC

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The launch element -/

def u₀ : UU := (initOf (K (F := F)).hsCells (K (F := F)).hsToks, (uP, 1))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => GT (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave HR' := (show (BI.own (embR ((uP, 1) : UP × Counters)) : sProp 𝕄) ⊢ BI.own (EP (F := F) uP) from Entails.of_eq rfl) $$ HR
  imod (fundT (F := F)) $$ HR' with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- The launch valuation. -/
def V0 (d : Dev nD) : Valuation τ sig (Elt F) := fun b => m (d, b)
/-- After the two calls: the lane totals and the scalar at the specification's. -/
def V1 (d : Dev nD) : Valuation τ sig (Elt F) :=
  Function.update (Function.update (V0 m d) o' (Cert.Spec.scOut (m (xLoc d)) (m (yLoc d)) : Buf (Elt F) (oLoc d)))
    t' (Cert.Spec.tcOut (m (xLoc d)) (m (yLoc d)) : Buf (Elt F) (tLoc d))

theorem V1_x (d : Dev nD) : V1 m d x' = m (xLoc d) :=
  (Function.update_of_ne (show x' ≠ t' by decide) _ _).trans (Function.update_of_ne (show x' ≠ o' by decide) _ _)
theorem V1_y (d : Dev nD) : V1 m d y' = m (yLoc d) :=
  (Function.update_of_ne (show y' ≠ t' by decide) _ _).trans (Function.update_of_ne (show y' ≠ o' by decide) _ _)
theorem V1_o (d : Dev nD) : V1 m d o' = (Cert.Spec.scOut (m (xLoc d)) (m (yLoc d)) : Buf (Elt F) (oLoc d)) :=
  (Function.update_of_ne (show o' ≠ t' by decide) _ _).trans (Function.update_self _ _ _)
theorem V1_t (d : Dev nD) : V1 m d t' = (Cert.Spec.tcOut (m (xLoc d)) (m (yLoc d)) : Buf (Elt F) (tLoc d)) := Function.update_self _ _ _
theorem V1_c (d : Dev nD) : V1 m d c' = V0 m d c' :=
  (Function.update_of_ne (show c' ≠ t' by decide) _ _).trans (Function.update_of_ne (show c' ≠ o' by decide) _ _)
theorem V1_r2 (d : Dev nD) : V1 m d r2' = V0 m d r2' :=
  (Function.update_of_ne (show r2' ≠ t' by decide) _ _).trans (Function.update_of_ne (show r2' ≠ o' by decide) _ _)
theorem V1_r3 (d : Dev nD) : V1 m d r3' = V0 m d r3' :=
  (Function.update_of_ne (show r3' ≠ t' by decide) _ _).trans (Function.update_of_ne (show r3' ≠ o' by decide) _ _)
theorem V1_r4 (d : Dev nD) : V1 m d r4' = V0 m d r4' :=
  (Function.update_of_ne (show r4' ≠ t' by decide) _ _).trans (Function.update_of_ne (show r4' ≠ o' by decide) _ _)

/-- The arguments keep their contents over the host's operations, and the result is the specification's value. -/
theorem VT_x (d : Dev nD) : (opAdd (F := F)).result ((opCast (F := F)).result ((opSum (F := F)).result ((opC (F := F)).result (V1 m d)))) x' = m (xLoc d) := by
  show StableHlo.after [opC (F := F), opSum, opCast, opAdd] (V1 m d) x' = _
  after_results
  exact V1_x m d
theorem VT_y (d : Dev nD) : (opAdd (F := F)).result ((opCast (F := F)).result ((opSum (F := F)).result ((opC (F := F)).result (V1 m d)))) y' = m (yLoc d) := by
  show StableHlo.after [opC (F := F), opSum, opCast, opAdd] (V1 m d) y' = _
  after_results
  exact V1_y m d
theorem VT_r4 (d : Dev nD) : (opAdd (F := F)).result ((opCast (F := F)).result ((opSum (F := F)).result ((opC (F := F)).result (V1 m d)))) r4' = (Cert.Spec.kernelVal (m (xLoc d)) (m (yLoc d)) : Buf (Elt F) ((SparseCore.T d).loc main_v4)) := by
  show StableHlo.after [opC (F := F), opSum, opCast, opAdd] (V1 m d) r4' = _
  after_results
  rw [V1_o, V1_t]
  rfl

/-- What @main leaves the claim: the arguments at their launch contents, the result at the specification's value. -/
def FIN (d : Dev nD) : sProp 𝕄 :=
  iprop((xLoc d ↦{fullShare} m (xLoc d)) ∗ (yLoc d ↦{fullShare} m (yLoc d))
    ∗ ((SparseCore.T d).loc main_v4 ↦{fullShare} (Cert.Spec.kernelVal (m (xLoc d)) (m (yLoc d)) : Buf (Elt F) ((SparseCore.T d).loc main_v4))))

/-- The TensorCore's handshake state before call 1 is its debts beside the rest. -/
theorem tcSt_one (d : Dev nD) : ∃ R : sProp 𝕄, (K (F := F)).tcSt EH d 1
    = iprop((∃ W, ⌜(K (F := F)).WBelow (T d) W (8 * 1)⌝ ∗ owes (T d) ((K (F := F)).Otc d 1) W) ∗ R) := ⟨_, by unfold SparseCore.Cfg.tcSt; rfl⟩

theorem hmain (hy : YOK m) (κ : GSem nD τ sig → ℕ) (d : Dev nD) :
    iprop((K (F := F)).ctx EH (P m) κ ∗ (K (F := F)).tcSt EH d 0 ∗ (K (F := F)).tcRes m ρ d ∗ GT (F := F) d)
      ⊢ wp frame (wpE ((K (F := F)).defs (D (F := F))) 𝒱 (SparseCore.T d) none) Set.univ (main d)
          fun _ => iprop((K (F := F)).tcSt EH d 1 ∗ FIN m d) := by
  obtain ⟨R, hR⟩ := tcSt_one (F := F) d
  unfold SparseCore.Cfg.tcRes
  rw [unscopedBufs_eq]
  simp only [main, wp_bind, wp_pure]
  iintro ⟨#Hctx, Hst, ⟨Hb, ⟨Hx, Hy, Ho, Ht, Hc, H2, H3, H4⟩, Hsems, Hprng⟩, HG⟩
  -- the SparseCore call: x, y and the lane totals to the two SparseCores and back
  iapply ((K (F := F)).wp_run (D (F := F)) 𝒱 (EH := EH) (P := P m) κ d 0) $$ [Hst Hx Hy Ho Ht Hc H2 H3 H4 Hb Hsems HG]
  isplitr; · iexact Hctx
  isplitl [Hst]; · iexact Hst
  isplitl [Hx Hy Ho]
  · iapply (st_intro m d)
    isplitl [Hx]; · iexact Hx
    isplitl [Hy]; · iexact Hy
    iexact Ho
  iintro ⟨Hst, Hdn⟩
  ihave Hdn' := (dn_elim m d) $$ Hdn
  icases Hdn' with ⟨Hx, Hy, Ho⟩
  -- the TensorCore call: the scalar from x and y
  have hR' : (K (F := F)).tcSt EH d ((0 : Fin 1).val + 1) = _ := hR
  ihave Hst' := (Entails.of_eq hR') $$ Hst
  icases Hst' with ⟨⟨%W, %hW, HO⟩, HR⟩
  ihave Hlev := (SparseCore.Cfg.ctx_levAts (K := K (F := F)) (EH := EH) (P := P m) κ) $$ Hctx
  iapply (wp_tc m hy d (lv := (K (F := F)).lev) (by sl_refines_lev) W hW (m (tLoc d)) _) $$ [HG Hb Hlev HO Hx Hy Ht Ho Hc H2 H3 H4 HR Hsems]
  isplitl [HG]; · iexact HG
  isplitl [Hb]; · iexact Hb
  isplitl [Hlev]; · iexact Hlev
  isplitl [HO]; · iexact HO
  isplitl [Hx]; · iexact Hx
  isplitl [Hy]; · iexact Hy
  isplitl [Ht]; · iexact Ht
  iintro ⟨Hb, HO, Hx, Hy, Ht⟩
  -- the host's four operations over the eight arrays
  ihave Hheld := (Entails.of_eq (held_S8 (F := F) d (V1 m d)).symm) $$ [Hx Hy Ho Ht Hc H2 H3 H4]
  · rw [V1_x, V1_y, V1_o, V1_t, V1_c, V1_r2, V1_r3, V1_r4]
    isplitl [Hx]; · iexact Hx
    isplitl [Hy]; · iexact Hy
    isplitl [Ho]; · iexact Ho
    isplitl [Ht]; · iexact Ht
    isplitl [Hc]; · iexact Hc
    isplitl [H2]; · iexact H2
    isplitl [H3]; · iexact H3
    iexact H4
  iapply (wp_hlo_within 𝒱 (SparseCore.T d) none Set.univ (op := opC) (S := S8) hC (V := V1 m d)) $$ [Hb Hheld]
  · isplitl [Hb]; · iexact Hb
    iexact Hheld
  iintro ⟨Hb, Hheld⟩
  rw [wp_ret]; imodintro
  iapply (wp_hlo_within 𝒱 (SparseCore.T d) none Set.univ (op := opSum) (S := S8) hSum (V := (opC (F := F)).result (V1 m d))) $$ [Hb Hheld]
  · isplitl [Hb]; · iexact Hb
    iexact Hheld
  iintro ⟨Hb, Hheld⟩
  rw [wp_ret]; imodintro
  iapply (wp_hlo_within 𝒱 (SparseCore.T d) none Set.univ (op := opCast) (S := S8) hCast (V := (opSum (F := F)).result ((opC (F := F)).result (V1 m d)))) $$ [Hb Hheld]
  · isplitl [Hb]; · iexact Hb
    iexact Hheld
  iintro ⟨Hb, Hheld⟩
  rw [wp_ret]; imodintro
  iapply (wp_hlo_within 𝒱 (SparseCore.T d) none Set.univ (op := opAdd) (S := S8) hAdd (V := (opCast (F := F)).result ((opSum (F := F)).result ((opC (F := F)).result (V1 m d))))) $$ [Hb Hheld]
  · isplitl [Hb]; · iexact Hb
    iexact Hheld
  iintro ⟨Hb, Hheld⟩
  rw [wp_ret]; imodintro; imodintro
  isplitl [HO HR]
  · iapply (Entails.of_eq hR.symm)
    isplitl [HO]; · iexact HO
    iexact HR
  ihave Hh := (Entails.of_eq (held_S8 (F := F) d _)) $$ Hheld
  icases Hh with ⟨Hx, Hy, -, -, -, -, -, H4⟩
  unfold FIN
  rw [VT_x m d, VT_y m d, VT_r4 m d]
  isplitl [Hx]; · iexact Hx
  isplitl [Hy]; · iexact Hy
  iexact H4

/-! ## The claim read off the final memory -/

def fq (d : Dev nD) (s' : Phys nD τ sig (Elt F)) : Prop :=
  s'.mem.mem (xLoc d) = m (xLoc d) ∧ s'.mem.mem (yLoc d) = m (yLoc d)
    ∧ s'.mem.mem ((SparseCore.T d).loc main_v4) = (Cert.Spec.kernelVal (m (xLoc d)) (m (yLoc d)) : Buf (Elt F) ((SparseCore.T d).loc main_v4))

theorem hfin (d : Dev nD) (s' : Phys nD τ sig (Elt F)) : iprop(FIN m d ∗ SI s') ⊢ (⌜fq m d s'⌝ : sProp 𝕄) := by
  unfold FIN
  iintro ⟨⟨Hx, Hy, H4⟩, HSI⟩
  icombine HSI Hx gives %hx
  icombine HSI Hy gives %hy
  icombine HSI H4 gives %h4
  ipureintro
  exact ⟨funext fun i => hx i (Finset.mem_univ i), funext fun i => hy i (Finset.mem_univ i), funext fun i => h4 i (Finset.mem_univ i)⟩

end Cert.KernelIdeal.Hand

end
-- ==== Proof.KI.SCViews.lean ====
/-
  One vector subcore's task: the thread it runs on, the memrefs its body names, the three semaphores of its own copies and
  its three scratch buffers among the subcore's own, the slices it copies (the block of labels, a band of scores, its row
  of the lane totals) and what the scratches hold once a copy has landed: the source's slice read through the slice's view.
-/
import proofs.«209113_g38259568672962_cont_8to1_b_1629_19_alg».proof.Proof.KI.SCPay

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

section Tile

variable (d : Dev nD) (L : grid0.Coords)

/-- The vector subcore the task at grid coordinates L runs on. -/
abbrev cV (L : grid0.Coords) : Fin τ.nSC := (L 0).castLE hcore0
abbrev jV (L : grid0.Coords) : Fin τ.nSub := (L 1).castLE hsub0
abbrev thrV (d : Dev nD) (L : grid0.Coords) : Thread nD τ := V d (cV L) (jV L)

-- the kernel's memrefs, spelt as the body table passes them
local notation "xW" => (Memref.whole Cert.KernelIdeal.main_arg0_scv : Memref Cert.KernelIdeal.sig Kind.scVector Space.hbm Cert.KernelIdeal.S8x96x224x224 EltTy.f32)
local notation "yW" => (Memref.whole Cert.KernelIdeal.main_arg1_scv : Memref Cert.KernelIdeal.sig Kind.scVector Space.hbm Cert.KernelIdeal.S8x224x224 EltTy.i32)
local notation "oW" => (Memref.whole Cert.KernelIdeal.main_v0_scv : Memref Cert.KernelIdeal.sig Kind.scVector Space.hbm Cert.KernelIdeal.S32x16 EltTy.f32)
local notation "sY" => (Memref.whole Cert.KernelIdeal.cc0_scratch0 : Memref Cert.KernelIdeal.sig Kind.scVector Space.vmem Cert.KernelIdeal.S56x128 EltTy.i32)
local notation "sX" => (Memref.whole Cert.KernelIdeal.cc0_scratch1 : Memref Cert.KernelIdeal.sig Kind.scVector Space.vmem Cert.KernelIdeal.S96x8x128 EltTy.f32)
local notation "sA" => (Memref.whole Cert.KernelIdeal.cc0_scratch2 : Memref Cert.KernelIdeal.sig Kind.scVector Space.vmem Cert.KernelIdeal.S16 EltTy.f32)

/-- The three semaphores of the task's own copies. -/
abbrev cell0 (d : Dev nD) (L : grid0.Coords) : GSem nD τ sig := (thrV d L, .dma cc0_scoped0.sem)
abbrev cell1 (d : Dev nD) (L : grid0.Coords) : GSem nD τ sig := (thrV d L, .dma cc0_scoped1.sem)
abbrev cell2 (d : Dev nD) (L : grid0.Coords) : GSem nD τ sig := (thrV d L, .dma cc0_scoped2.sem)

theorem ownSems0_V :
    (ownSems0 (thrV d L) : sProp 𝕄)
      = iprop(semVal (cell0 d L) 0 ∗ semVal (cell1 d L) 0 ∗ semVal (cell2 d L) 0
          ∗ bigSep ((((ownCells (thrV d L)).erase (cell0 d L)).erase (cell1 d L)).erase (cell2 d L)) fun g => semVal g 0) := by
  unfold SparseCore.Cfg.ownSems0
  rw [SparseCore.bigSep_erase' ((mem_ownCells (g := cell0 d L)).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d L)).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d L)).mpr ⟨rfl, by show (SemLoc.dma cc0_scoped2.sem : SemLoc sig).isScoped .scVector = true; decide⟩⟩⟩)]

/-- The three scratch buffers are among the subcore's own: they are them, at some contents, and the rest. -/
theorem ownBufs_V :
    (ownBufs (thrV d L) : sProp 𝕄)
      = iprop((∃ f, (thrV d L).loc cc0_scratch0 ↦{fullShare} f) ∗ (∃ f, (thrV d L).loc cc0_scratch1 ↦{fullShare} f)
          ∗ (∃ f, (thrV d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

variable [FloatOps F]

omit [FloatOps F] in
theorem pts_x (q : PosShare TreeShare) (f : Buf (Elt F) (xLoc d)) :
    ((xW).view.loc (thrV d L) ↦{q} f : sProp 𝕄) = xLoc d ↦{q} f := by
  simp only [Memref.view_whole, View.set_whole]
omit [FloatOps F] in
theorem pts_y (q : PosShare TreeShare) (f : Buf (Elt F) (yLoc d)) :
    ((yW).view.loc (thrV d L) ↦{q} f : sProp 𝕄) = yLoc d ↦{q} f := by
  simp only [Memref.view_whole, View.set_whole]
omit [FloatOps F] in
theorem pts_s0 (f : Buf (Elt F) ((thrV d L).loc cc0_scratch0)) :
    ((sY).view.loc (thrV d L) ↦{fullShare} f : sProp 𝕄) = (thrV d L).loc cc0_scratch0 ↦{fullShare} f := rfl
omit [FloatOps F] in
theorem pts_s1 (f : Buf (Elt F) ((thrV d L).loc cc0_scratch1)) :
    ((sX).view.loc (thrV d L) ↦{fullShare} f : sProp 𝕄) = (thrV d L).loc cc0_scratch1 ↦{fullShare} f := rfl
omit [FloatOps F] in
theorem pts_s2 (f : Buf (Elt F) ((thrV d L).loc cc0_scratch2)) :
    ((sA).view.loc (thrV d L) ↦{fullShare} f : sProp 𝕄) = (thrV d L).loc cc0_scratch2 ↦{fullShare} f := rfl

/-! ## The slices the task copies, and what its scratches hold after the copies -/

/-- The task's subcore number. -/
abbrev widL (L : grid0.Coords) : ℕ := 2 * (L 1).val + (L 0).val

/-- The 56 x 128 block of labels the task fetches, as the program slices it. -/
abbrev yRowM (L : grid0.Coords) : Memref sig .scVector .hbm S56x128 .i32 :=
  ((yW).slice (Rect.unit (s := S8x224x224) (k0_off1 L) S1x56x128.size (k0_off1_inb L)) (fun _ => rfl)).squeeze S56x128 squeezes_S1x56x128_S56x128
/-- The 96 x 8 x 128 band of scores trip k1 of the outer loop fetches. -/
abbrev xBandM (L : grid0.Coords) (k1 : Fin k0_t1_loop.trips) : Memref sig .scVector .hbm S96x8x128 .f32 :=
  ((xW).slice (Rect.unit (s := S8x96x224x224) (k0_off2 L k1) S1x96x8x128.size (k0_off2_inb L k1)) (fun _ => rfl)).squeeze S96x8x128 squeezes_S1x96x8x128_S96x8x128
/-- The task's row of the lane totals. -/
abbrev oRowM (L : grid0.Coords) : Memref sig .scVector .hbm S16 .f32 :=
  ((oW).slice (Rect.unit (s := S32x16) (k0_off4 L) S1x16.size (k0_off4_inb L)) (fun _ => rfl)).squeeze S16 squeezes_S1x16_S16

/-- What the label scratch holds after its fetch: the block of labels read through its slice. -/
def labS : Buf (Elt F) ((thrV d L).loc cc0_scratch0) := (yRowM L).view.read (Elt F) (m (yLoc d))
/-- What the band scratch holds after trip k1's fetch. -/
def bandS (k1 : Fin k0_t1_loop.trips) : Buf (Elt F) ((thrV d L).loc cc0_scratch1) := (xBandM L k1).view.read (Elt F) (m (xLoc d))

omit [FloatOps F] in
theorem s0_lands (f0 : Buf (Elt F) ((thrV d L).loc cc0_scratch0)) :
    (sY).view.write (Elt F) f0 (labS m d L) Finset.univ = labS m d L := View.write_whole_univ _ _ _
omit [FloatOps F] in
theorem s1_lands (k1 : Fin k0_t1_loop.trips) (f1 : Buf (Elt F) ((thrV d L).loc cc0_scratch1)) :
    (sX).view.write (Elt F) f1 (bandS m d L k1) Finset.univ = bandS m d L k1 := View.write_whole_univ _ _ _

theorem k0_t1_trips : k0_t1_loop.trips = 7 := by decide
theorem k0_t2_trips : k0_t2_loop.trips = 64 := by decide

omit [FloatOps F] in
theorem set_oRowM : (oRowM L).view.set = oRow d (widL L) := by
  show (((oW).view.slice (Rect.unit (s := S32x16) (k0_off4 L) S1x16.size (k0_off4_inb L))).reshape S16 squeezes_S1x16_S16.numel_eq).set = _
  rw [View.set_reshape]
  show ((View.whole main_v0_scv).slice _).set = _
  rw [View.set_slice_whole]
  ext j
  rw [Rect.mem_set_unit, oRow, Finset.mem_filter]
  simp only [Finset.mem_univ, true_and]
  rw [k0_off4_eq]
  unfold widL
  constructor
  · intro h
    have h0 := h 0
    simp at h0
    omega
  · intro h a
    have h1 : (j 1).val < 16 := (j 1).isLt
    fin_cases a
    · simp; omega
    · simp; omega

omit [FloatOps F] in
theorem pts_oRow (f : Buf (Elt F) (oLoc d)) :
    ((oRowM L).view.loc (thrV d L) ↦[(oRowM L).view.set]{fullShare} f : sProp 𝕄) = oLoc d ↦[oRow d (widL L)]{fullShare} f := by
  rw [set_oRowM d L]

end Tile

end Cert.KernelIdeal.Hand

end
-- ==== Proof.KI.SCTrip.lean ====
/-
  One trip of the inner loop: the three index vectors the gather is made at, as the body computes them — the 16 labels loaded
  from the label scratch, the band's row in every lane, the 16 columns one per lane — over the words the body's integer
  chains give for the trip.
-/
import proofs.«209113_g38259568672962_cont_8to1_b_1629_19_alg».proof.Proof.KI.SCViews

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)
section Tile
variable (d : Dev nD) (L : grid0.Coords)

-- the kernel's memrefs, spelt as the body table passes them
local notation "xW" => (Memref.whole Cert.KernelIdeal.main_arg0_scv : Memref Cert.KernelIdeal.sig Kind.scVector Space.hbm Cert.KernelIdeal.S8x96x224x224 EltTy.f32)
local notation "yW" => (Memref.whole Cert.KernelIdeal.main_arg1_scv : Memref Cert.KernelIdeal.sig Kind.scVector Space.hbm Cert.KernelIdeal.S8x224x224 EltTy.i32)
local notation "oW" => (Memref.whole Cert.KernelIdeal.main_v0_scv : Memref Cert.KernelIdeal.sig Kind.scVector Space.hbm Cert.KernelIdeal.S32x16 EltTy.f32)
local notation "sY" => (Memref.whole Cert.KernelIdeal.cc0_scratch0 : Memref Cert.KernelIdeal.sig Kind.scVector Space.vmem Cert.KernelIdeal.S56x128 EltTy.i32)
local notation "sX" => (Memref.whole Cert.KernelIdeal.cc0_scratch1 : Memref Cert.KernelIdeal.sig Kind.scVector Space.vmem Cert.KernelIdeal.S96x8x128 EltTy.f32)
local notation "sA" => (Memref.whole Cert.KernelIdeal.cc0_scratch2 : Memref Cert.KernelIdeal.sig Kind.scVector Space.vmem Cert.KernelIdeal.S16 EltTy.f32)

variable [FloatOps F]

/-! ## One trip's index vectors, as the body computes them -/

/-- The row of the band trip k2 reads, as a word: k2 / 8 by the body's floor division. -/
def trip2Row (k2 : Fin k0_t2_loop.trips) : BitVec 32 :=
  let arg10 : BitVec 32 := Scf.iv 0#32 1#32 k2
  let c8_i32_16 : BitVec 32 := 8#32
  let v39 : BitVec 32 := Scalar.divsi arg10 c8_i32_16
  let c0_i32_17 : BitVec 32 := 0#32
  let v40 : BitVec 1 := Scalar.cmpi .sgt arg10 c0_i32_17
  let v41 : BitVec 32 := Scalar.extui v40
  let c0_i32_18 : BitVec 32 := 0#32
  let v42 : BitVec 1 := Scalar.cmpi .slt arg10 c0_i32_18
  let v43 : BitVec 32 := Scalar.extui v42
  let v44 : BitVec 32 := Scalar.subi v41 v43
  let c0_i32_19 : BitVec 32 := 0#32
  let v45 : BitVec 1 := Scalar.cmpi .sgt c8_i32_16 c0_i32_19
  let v46 : BitVec 32 := Scalar.extui v45
  let c0_i32_20 : BitVec 32 := 0#32
  let v47 : BitVec 1 := Scalar.cmpi .slt c8_i32_16 c0_i32_20
  let v48 : BitVec 32 := Scalar.extui v47
  let v49 : BitVec 32 := Scalar.subi v46 v48
  let v50 : BitVec 1 := Scalar.cmpi .ne v44 v49
  let v51 : BitVec 32 := Scalar.remsi arg10 c8_i32_16
  let c0_i32_21 : BitVec 32 := 0#32
  let v52 : BitVec 1 := Scalar.cmpi .ne v51 c0_i32_21
  let v53 : BitVec 1 := Scalar.andi v50 v52
  let c1_i32_22 : BitVec 32 := 1#32
  let v54 : BitVec 32 := Scalar.subi v39 c1_i32_22
  Scalar.select v53 v54 v39

/-- The first column trip k2 reads, as a word: (k2 mod 8) * 16 by the body's floor remainder. -/
def trip2Col (k2 : Fin k0_t2_loop.trips) : BitVec 32 :=
  let arg10 : BitVec 32 := Scf.iv 0#32 1#32 k2
  let c8_i32_23 : BitVec 32 := 8#32
  let c0_i32_24 : BitVec 32 := 0#32
  let v56 : BitVec 1 := Scalar.cmpi .eq c8_i32_23 c0_i32_24
  let c1_i32_25 : BitVec 32 := 1#32
  let v57 : BitVec 32 := Scalar.select v56 c1_i32_25 c8_i32_23
  let v58 : BitVec 32 := Scalar.remsi arg10 v57
  let c0_i32_26 : BitVec 32 := 0#32
  let v59 : BitVec 1 := Scalar.cmpi .ne v58 c0_i32_26
  let c0_i32_27 : BitVec 32 := 0#32
  let v60 : BitVec 1 := Scalar.cmpi .slt v58 c0_i32_27
  let c0_i32_28 : BitVec 32 := 0#32
  let v61 : BitVec 1 := Scalar.cmpi .slt v57 c0_i32_28
  let v62 : BitVec 1 := Scalar.xori v60 v61
  let v63 : BitVec 1 := Scalar.andi v62 v59
  let v64 : BitVec 32 := Scalar.addi v58 v57
  let v65 : BitVec 32 := Scalar.select v63 v64 v58
  let c16_i32_30 : BitVec 32 := 16#32
  Scalar.muli v65 c16_i32_30

/-- The 16 labels trip k2 of band k1 loads from the label scratch. -/
def lblVec (k1 : Fin k0_t1_loop.trips) (k2 : Fin k0_t2_loop.trips) : Vec F S16 .i32 :=
  shapeCast S16 ((sY).view.readAt (Elt F) (Rect.unit (s := S56x128) (k0_off3 k1 k2) S1x16.size (k0_off3_inb k1 k2)).toLoadRect (labS m d L)) shapeCasts_S1x16_S16
/-- The band row, in every lane. -/
def rowVec (k2 : Fin k0_t2_loop.trips) : IVec S16 32 := broadcast S16 (trip2Row k2)
/-- The columns, one per lane. -/
def colVec (k2 : Fin k0_t2_loop.trips) : IVec S16 32 := addi (broadcast S16 (trip2Col k2)) (iota .scVector S16 32 [0] iota_S16_d0_w32_scVector)

end Tile

end Cert.KernelIdeal.Hand

end
-- ==== Proof.KI.SCAux.lean ====
/-
  The offsets the vector subcores' program computes, in closed form.

  The program computes the batch wid / 4 and the first row (wid % 4) * 56 of a subcore's block from its number
  wid = 2 * (subcore) + (core) by floor division and remainder spelt over signed 32-bit words, the first row of band k1 by
  adding k1 * 8, and a trip's row k2 / 8 within the band and first column (k2 % 8) * 16 the same way.  The domains are
  finite (2 x 16 subcores, 7 bands, 64 trips): each closed form is checked by evaluation at every point.

  With them, the slices the copies read are read at an index: a slice at unit strides places its index (a, b) at
  offset + (a, b) behind the squeezed unit axis, so the label scratch holds y[wid / 4, (wid % 4) * 56 + a, b] at (a, b) and
  the band scratch of band k1 holds x[wid / 4, c, (wid % 4) * 56 + k1 * 8 + r, w] at (c, r, w).
-/
import proofs.«209113_g38259568672962_cont_8to1_b_1629_19_alg».proof.Proof.KI.SCViews
import proofs.«209113_g38259568672962_cont_8to1_b_1629_19_alg».proof.Proof.Spec
import Idealize.ShloMosaic.Lib.ValueIdx
import Idealize.ShloMosaic.Lib.ValueLayout

noncomputable section

namespace Cert.KernelIdeal.Hand

open Cert.KernelIdeal Cert.KernelIdeal.Gen

open Idealize.ShloMosaic Idealize.ShloMosaic.ValueIdx
open Idealize.ShloMosaic.SparseCore (S V T)
open Idealize.SL.Sem

/-- The label block's offsets: batch wid / 4, first row (wid % 4) * 56, first column 0. -/
theorem k0_off1_eq : ∀ i : grid0.Coords,
    k0_off1 i = ![(2 * (i 1).val + (i 0).val) / 4, ((2 * (i 1).val + (i 0).val) % 4) * 56, 0] := by decide +kernel

/-- A band's offsets: batch wid / 4, all classes, first row (wid % 4) * 56 + k1 * 8, first column 0. -/
theorem k0_off2_eq : ∀ (i : grid0.Coords) (k1 : Fin k0_t1_loop.trips),
    k0_off2 i k1 = ![(2 * (i 1).val + (i 0).val) / 4, 0, ((2 * (i 1).val + (i 0).val) % 4) * 56 + k1.val * 8, 0] := by
  decide +kernel

/-- A trip's offsets in the label block: row k1 * 8 + k2 / 8, first column (k2 % 8) * 16. -/
theorem k0_off3_eq : ∀ (k1 : Fin k0_t1_loop.trips) (k2 : Fin k0_t2_loop.trips),
    k0_off3 k1 k2 = ![k1.val * 8 + k2.val / 8, (k2.val % 8) * 16] := by decide +kernel

/-! ## The two slices read at an index -/

variable {F : FTy → Type}
variable (m : (ℓ : Loc nD τ sig) → Buf (Elt F) ℓ)

section Tile
variable (d : Dev nD) (L : grid0.Coords)

/-- A subcore's number is below 32. -/
theorem widL_lt : widL L < 32 := by
  have h0 : (L 0).val < 2 := (L 0).isLt
  have h1 : (L 1).val < 16 := (L 1).isLt
  unfold widL; omega

/-- Entry (a, b) of a subcore's block of labels is y[wid / 4, (wid % 4) * 56 + a, b]. -/
theorem yRow_emb (a : Fin 56) (b : Fin 128) :
    (yRowM L).view.emb (ix2 a b) = Cert.Spec.ixY (widL L / 4) ((widL L % 4) * 56 + a.val) b.val := by
  have hw := widL_lt L
  show (Rect.unit (s := S8x224x224) (k0_off1 L) S1x56x128.size (k0_off1_inb L)).emb
      (Shape.reshapeEquiv squeezes_S1x56x128_S56x128.numel_eq (ix2 a b)) = _
  rw [reshapeEquiv_ix2_1ab]
  funext c
  refine Fin.ext ?_
  rw [Rect.emb_apply]
  show k0_off1 L c + 1 * (ix3 (⟨0, Nat.one_pos⟩ : Fin 1) a b c).val = _
  rw [k0_off1_eq]
  have ha := a.isLt
  have hb := b.isLt
  match c with
  | ⟨0, _⟩ =>
    show widL L / 4 + 1 * 0 = widL L / 4 % 8
    omega
  | ⟨1, _⟩ =>
    show (widL L % 4) * 56 + 1 * a.val = ((widL L % 4) * 56 + a.val) % 224
    omega
  | ⟨2, _⟩ =>
    show 0 + 1 * b.val = b.val % 224
    omega

/-- What the label scratch holds at (a, b) once the block has landed. -/
theorem labS_apply (j : S56x128.Idx) :
    labS m d L j = m (yLoc d) (Cert.Spec.ixY (widL L / 4) ((widL L % 4) * 56 + (j 0).val) (j 1).val) := by
  obtain ⟨a, b, rfl⟩ : ∃ (a : Fin 56) (b : Fin 128), j = ix2 a b := ⟨j 0, j 1, eq_ix2 j⟩
  unfold labS
  rw [View.read_apply, yRow_emb L a b]
  exact cast_eq _ _

/-- Entry (c, r, w) of band k1 of a subcore's scores is x[wid / 4, c, (wid % 4) * 56 + k1 * 8 + r, w]. -/
theorem xBand_emb (k1 : Fin k0_t1_loop.trips) (c : Fin 96) (r : Fin 8) (w : Fin 128) :
    (xBandM L k1).view.emb (ix3 c r w)
      = Cert.Spec.ixX (widL L / 4) c.val ((widL L % 4) * 56 + k1.val * 8 + r.val) w.val := by
  have hw := widL_lt L
  have hk : k1.val < 7 := Nat.lt_of_lt_of_le k1.isLt (Nat.le_of_eq k0_t1_trips)
  show (Rect.unit (s := S8x96x224x224) (k0_off2 L k1) S1x96x8x128.size (k0_off2_inb L k1)).emb
      (Shape.reshapeEquiv squeezes_S1x96x8x128_S96x8x128.numel_eq (ix3 c r w)) = _
  rw [reshapeEquiv_ix3_1abc]
  funext e
  refine Fin.ext ?_
  rw [Rect.emb_apply]
  show k0_off2 L k1 e + 1 * (ix4 (⟨0, Nat.one_pos⟩ : Fin 1) c r w e).val = _
  rw [k0_off2_eq]
  have hc := c.isLt
  have hr := r.isLt
  have hw' := w.isLt
  match e with
  | ⟨0, _⟩ =>
    show widL L / 4 + 1 * 0 = widL L / 4 % 8
    omega
  | ⟨1, _⟩ =>
    show 0 + 1 * c.val = c.val % 96
    omega
  | ⟨2, _⟩ =>
    show (widL L % 4) * 56 + k1.val * 8 + 1 * r.val = ((widL L % 4) * 56 + k1.val * 8 + r.val) % 224
    omega
  | ⟨3, _⟩ =>
    show 0 + 1 * w.val = w.val % 224
    omega

/-- What the band scratch holds at (c, r, w) once band k1 has landed. -/
theorem bandS_apply (k1 : Fin k0_t1_loop.trips) (j : S96x8x128.Idx) :
    bandS m d L k1 j
      = m (xLoc d) (Cert.Spec.ixX (widL L / 4) (j 0).val ((widL L % 4) * 56 + k1.val * 8 + (j 1).val) (j 2).val) := by
  obtain ⟨c, r, w, rfl⟩ : ∃ (c : Fin 96) (r : Fin 8) (w : Fin 128), j = ix3 c r w := ⟨j 0, j 1, j 2, eq_ix3 j⟩
  unfold bandS
  rw [View.read_apply, xBand_emb L k1 c r w]
  exact cast_eq _ _

end Tile

end Cert.KernelIdeal.Hand

end
-- ==== Proof.KI.SCGather.lean ====
/-
  One trip's gather, read: the check the body assumes holds, and what the gather loads is what the value names.

  For trip k2 of band k1 the band's row is k2 / 8 in every lane and lane l's column is (k2 % 8) * 16 + l (hypotheses on the
  two index vectors the body computes).  The 16 labels loaded from the label scratch are
  y[wid / 4, (wid % 4) * 56 + k1 * 8 + k2 / 8, (k2 % 8) * 16 + l]: below 96 by the precondition.  So the three index vectors
  lie inside the 96 x 8 x 128 band scratch, and the gathered element of lane l is
  x[wid / 4, label, (wid % 4) * 56 + k1 * 8 + k2 / 8, (k2 % 8) * 16 + l]: the score the label selects.
-/
import proofs.«209113_g38259568672962_cont_8to1_b_1629_19_alg».proof.Proof.KI.SCTrip
import proofs.«209113_g38259568672962_cont_8to1_b_1629_19_alg».proof.Proof.KI.SCAux

noncomputable section

namespace Cert.KernelIdeal.Hand

open Cert.KernelIdeal Cert.KernelIdeal.Gen
open Idealize.ShloMosaic Idealize.ShloMosaic.ValueIdx
open Idealize.ShloMosaic.SparseCore (S V T)
open Idealize.SL.Sem

variable {F : FTy → Type}
variable (m : (ℓ : Loc nD τ sig) → Buf (Elt F) ℓ)

section Tile
variable (d : Dev nD) (L : grid0.Coords)

variable [FloatOps F]

/-- Lane i of the loaded labels is the label of row (wid % 4) * 56 + k1 * 8 + k2 / 8, column (k2 % 8) * 16 + i. -/
theorem lblVec_apply (k1 : Fin k0_t1_loop.trips) (k2 : Fin k0_t2_loop.trips) (i : Fin 16) :
    lblVec m d L k1 k2 (ix1 i)
      = m (yLoc d) (Cert.Spec.ixY (widL L / 4) ((widL L % 4) * 56 + k1.val * 8 + k2.val / 8) ((k2.val % 8) * 16 + i.val)) := by
  unfold lblVec
  refine (shapeCast_1a_a_apply (a := 16) _ _ i).trans ?_
  rw [View.readAt_apply]
  show labS m d L ((Rect.unit (s := S56x128) (k0_off3 k1 k2) S1x16.size (k0_off3_inb k1 k2)).toLoadRect.idx (ix2 (0 : Fin 1) i)) = _
  rw [labS_apply]
  have e0 : (((Rect.unit (s := S56x128) (k0_off3 k1 k2) S1x16.size (k0_off3_inb k1 k2)).toLoadRect.idx (ix2 (0 : Fin 1) i)) 0).val
      = k1.val * 8 + k2.val / 8 := by
    rw [LoadRect.idx_apply]
    show k0_off3 k1 k2 0 + 1 * 0 = _
    rw [k0_off3_eq]
    show k1.val * 8 + k2.val / 8 + 1 * 0 = _
    omega
  have e1 : (((Rect.unit (s := S56x128) (k0_off3 k1 k2) S1x16.size (k0_off3_inb k1 k2)).toLoadRect.idx (ix2 (0 : Fin 1) i)) 1).val
      = (k2.val % 8) * 16 + i.val := by
    rw [LoadRect.idx_apply]
    show k0_off3 k1 k2 1 + 1 * i.val = _
    rw [k0_off3_eq]
    show (k2.val % 8) * 16 + 1 * i.val = _
    omega
  rw [e0, e1, Nat.add_assoc]

/-- THE CHECK: with the band's row k2 / 8 in every lane and lane l's column (k2 % 8) * 16 + l, the three index vectors lie
    inside the band scratch. -/
theorem chk_of (hy : YOK m) (k1 : Fin k0_t1_loop.trips) (k2 : Fin k0_t2_loop.trips) (v72 v75 : IVec S16 32)
    (h72 : ∀ l, (v72 l).toNat = k2.val / 8) (h75 : ∀ l, (v75 l).toNat = (k2.val % 8) * 16 + (l 0).val) :
    k0_chk1 (lblVec m d L k1 k2) v72 v75 := by
  intro a x
  obtain ⟨i, rfl⟩ : ∃ i : Fin 16, x = ix1 i := ⟨x 0, eq_ix1 x⟩
  have hk2 : k2.val < 64 := Nat.lt_of_lt_of_le k2.isLt (Nat.le_of_eq k0_t2_trips)
  have hi := i.isLt
  match a with
  | ⟨0, _⟩ =>
    show (lblVec m d L k1 k2 (ix1 i)).toNat < 96
    rw [lblVec_apply]
    exact hy d _
  | ⟨1, _⟩ =>
    show (v72 (ix1 i)).toNat < 8
    rw [h72]
    omega
  | ⟨2, _⟩ =>
    show (v75 (ix1 i)).toNat < 128
    rw [h75]
    show (k2.val % 8) * 16 + i.val < 128
    omega

/-- THE GATHER: lane by lane, the score the lane's label selects. -/
theorem gather_of (k1 : Fin k0_t1_loop.trips) (k2 : Fin k0_t2_loop.trips) (v72 v75 : IVec S16 32)
    (h72 : ∀ l, (v72 l).toNat = k2.val / 8) (h75 : ∀ l, (v75 l).toNat = (k2.val % 8) * 16 + (l 0).val)
    (h : ∀ a x, ((![lblVec m d L k1 k2, v72, v75] : Fin 3 → IVec S16 32) a x).toNat < S96x8x128.size a) :
    loadIdx (((Memref.whole cc0_scratch1 : Memref sig .scVector .vmem S96x8x128 .f32).access (.whole S96x8x128)).read (Elt F) (bandS m d L k1))
        ![lblVec m d L k1 k2, v72, v75] h
      = Cert.Spec.scG (m (xLoc d)) (m (yLoc d)) (widL L) k1.val k2.val := by
  funext x
  obtain ⟨i, rfl⟩ : ∃ i : Fin 16, x = ix1 i := ⟨x 0, eq_ix1 x⟩
  show (View.read (Elt F) ((Memref.whole cc0_scratch1 : Memref sig .scVector .vmem S96x8x128 .f32).access (Rect.whole S96x8x128)) (bandS m d L k1))
      (idxAt (s := S96x8x128) ![lblVec m d L k1 k2, v72, v75] h (ix1 i)) = _
  rw [View.read_apply]
  have hemb : ∀ j : S96x8x128.Idx,
      ((Memref.whole cc0_scratch1 : Memref sig .scVector .vmem S96x8x128 .f32).access (Rect.whole S96x8x128)).emb j = j :=
    fun j => Rect.emb_whole_apply S96x8x128 j
  rw [hemb]
  refine (cast_eq _ _).trans ?_
  rw [bandS_apply]
  show m (xLoc d) (Cert.Spec.ixX (widL L / 4) (lblVec m d L k1 k2 (ix1 i)).toNat
      ((widL L % 4) * 56 + k1.val * 8 + (v72 (ix1 i)).toNat) (v75 (ix1 i)).toNat) = _
  rw [h72, h75, lblVec_apply]
  rfl

end Tile

end Cert.KernelIdeal.Hand

end
-- ==== Proof.KI.SCOut.lean ====
/-
  The write-out of a subcore's lane totals, read at an index.

  A subcore's row of the 32 x 16 array of lane totals is the slice at row wid, squeezed to 16 lanes: lane c of it is entry
  (wid, c).  Writing a vector of 16 lanes through it, unmasked, leaves lane (j 1) of the vector at each entry j of that row.
-/
import proofs.«209113_g38259568672962_cont_8to1_b_1629_19_alg».proof.Proof.KI.SCAux
import Idealize.ShloMosaic.Lib.Writes

noncomputable section

namespace Cert.KernelIdeal.Hand

open Cert.KernelIdeal Cert.KernelIdeal.Gen
open Idealize.ShloMosaic Idealize.ShloMosaic.ValueIdx
open Idealize.ShloMosaic.SparseCore (S V T)
open Idealize.SL.Sem

variable {F : FTy → Type}
variable (m : (ℓ : Loc nD τ sig) → Buf (Elt F) ℓ)

section Tile
variable (d : Dev nD) (L : grid0.Coords)

/-- Lane c of a subcore's row of the lane totals is entry (wid, c) of the 32 x 16 array. -/
theorem oRow_emb (c : Fin 16) : (oRowM L).view.emb (ix1 c) = (ix2 ⟨widL L, widL_lt L⟩ c : S32x16.Idx) := by
  show (Rect.unit (s := S32x16) (k0_off4 L) S1x16.size (k0_off4_inb L)).emb
      (Shape.reshapeEquiv squeezes_S1x16_S16.numel_eq (ix1 c)) = _
  have hr : Shape.reshapeEquiv squeezes_S1x16_S16.numel_eq (ix1 c) = (ix2 (0 : Fin 1) c : S1x16.Idx) :=
    Shape.reshapeEquiv_eq_of_rowMajor _ (by
      rw [Shape.rowMajor_val_two, Shape.rowMajor_val_one]
      show 0 * 16 + c.val = c.val
      omega)
  rw [hr]
  funext e
  refine Fin.ext ?_
  rw [Rect.emb_apply]
  show k0_off4 L e + 1 * (ix2 (0 : Fin 1) c e).val = _
  rw [k0_off4_eq]
  match e with
  | ⟨0, _⟩ =>
    show 2 * (L 1).val + (L 0).val + 1 * 0 = widL L
    unfold widL; omega
  | ⟨1, _⟩ =>
    show 0 + 1 * c.val = c.val
    omega

/-- Writing a vector of 16 lanes through a subcore's row leaves lane (j 1) of it at entry j of that row. -/
theorem oRow_write (w : S16.Idx → F .f32) (j : Idx (oLoc d)) (hj : j ∈ oRow d (widL L)) :
    (oRowM L).view.write (Elt F) (m (oLoc d)) w Finset.univ j = w (ix1 (⟨(j 1).val, (j 1).isLt⟩ : Fin 16)) := by
  have hj0 : (j 0).val = widL L := by
    rw [oRow, Finset.mem_filter] at hj
    exact hj.2
  have he : (oRowM L).view.emb (ix1 (⟨(j 1).val, (j 1).isLt⟩ : Fin 16)) = j := by
    rw [oRow_emb]
    funext e
    refine Fin.ext ?_
    match e with
    | ⟨0, _⟩ => exact hj0.symm
    | ⟨1, _⟩ => rfl
  have key : (oRowM L).view.write (Elt F) (m (oLoc d)) w Finset.univ ((oRowM L).view.emb (ix1 (⟨(j 1).val, (j 1).isLt⟩ : Fin 16)))
      = w (ix1 (⟨(j 1).val, (j 1).isLt⟩ : Fin 16)) := by
    rw [View.write_emb_of_mem _ _ (Finset.mem_univ _)]
    exact cast_eq _ _
  rw [he] at key
  exact key

variable [FloatOps F]

/-- THE WRITE-OUT: once the running vector after the 7 bands has been written through the subcore's row, each entry of that
    row holds the lane total the value names. -/
theorem oRow_final (acc : S16.Idx → F .f32) (hacc : acc = Cert.Spec.scOuter (m (xLoc d)) (m (yLoc d)) (widL L) 7)
    (j : Idx (oLoc d)) (hj : j ∈ oRow d (widL L)) :
    (oRowM L).view.writes (Elt F) (m (oLoc d)) [⟨Rect.whole S16, acc⟩] j = oSpec m d j := by
  have hj0 : (j 0).val = widL L := by
    rw [oRow, Finset.mem_filter] at hj
    exact hj.2
  have he : ((oRowM L).view.slice (Rect.whole S16)).emb (ix1 (⟨(j 1).val, (j 1).isLt⟩ : Fin 16)) = j := by
    show (oRowM L).view.emb ((Rect.whole S16).emb (ix1 (⟨(j 1).val, (j 1).isLt⟩ : Fin 16))) = j
    rw [Rect.emb_whole_apply, oRow_emb]
    funext e
    refine Fin.ext ?_
    match e with
    | ⟨0, _⟩ => exact hj0.symm
    | ⟨1, _⟩ => rfl
  have key : ((oRowM L).view.slice (Rect.whole S16)).write (Elt F) (m (oLoc d)) acc Finset.univ
        (((oRowM L).view.slice (Rect.whole S16)).emb (ix1 (⟨(j 1).val, (j 1).isLt⟩ : Fin 16)))
      = acc (ix1 (⟨(j 1).val, (j 1).isLt⟩ : Fin 16)) := by
    rw [View.write_emb_of_mem _ _ (Finset.mem_univ _)]
    exact cast_eq _ _
  rw [he] at key
  rw [View.writes_singleton]
  refine key.trans ?_
  rw [hacc]
  show _ = Cert.Spec.scOuter (m (xLoc d)) (m (yLoc d)) (j 0).val 7 _
  rw [hj0]
  rfl

end Tile

end Cert.KernelIdeal.Hand

end
-- ==== Proof.KI.SCBody.lean ====
/-
  One vector subcore's task, run once at a symbolic place: the block of labels fetched into the label scratch, then seven
  bands — each a band of scores fetched into the band scratch and 64 trips, each trip loading 16 labels, gathering the 16
  scores they select out of the band scratch and subtracting them from the running vector —, then the running vector
  stored and copied out to the task's row of the lane totals.  The value is carried in the loops' invariants: after k1
  bands the running vector is the specification's after k1 bands, within band k1 after k2 trips it is the specification's
  after k2 trips; one trip subtracts what the specification says it gathers.  The task reads the scores and the labels
  under its read token and gives them back; its row comes back at the lane totals the specification names.
-/
import proofs.«209113_g38259568672962_cont_8to1_b_1629_19_alg».proof.Proof.KI.SCGather
import proofs.«209113_g38259568672962_cont_8to1_b_1629_19_alg».proof.Proof.KI.SCOut

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)
section Tile
variable (d : Dev nD) (L : grid0.Coords)

-- the kernel's memrefs, spelt as the body table passes them
local notation "xW" => (Memref.whole Cert.KernelIdeal.main_arg0_scv : Memref Cert.KernelIdeal.sig Kind.scVector Space.hbm Cert.KernelIdeal.S8x96x224x224 EltTy.f32)
local notation "yW" => (Memref.whole Cert.KernelIdeal.main_arg1_scv : Memref Cert.KernelIdeal.sig Kind.scVector Space.hbm Cert.KernelIdeal.S8x224x224 EltTy.i32)
local notation "oW" => (Memref.whole Cert.KernelIdeal.main_v0_scv : Memref Cert.KernelIdeal.sig Kind.scVector Space.hbm Cert.KernelIdeal.S32x16 EltTy.f32)
local notation "sY" => (Memref.whole Cert.KernelIdeal.cc0_scratch0 : Memref Cert.KernelIdeal.sig Kind.scVector Space.vmem Cert.KernelIdeal.S56x128 EltTy.i32)
local notation "sX" => (Memref.whole Cert.KernelIdeal.cc0_scratch1 : Memref Cert.KernelIdeal.sig Kind.scVector Space.vmem Cert.KernelIdeal.S96x8x128 EltTy.f32)
local notation "sA" => (Memref.whole Cert.KernelIdeal.cc0_scratch2 : Memref Cert.KernelIdeal.sig Kind.scVector Space.vmem Cert.KernelIdeal.S16 EltTy.f32)

variable [FloatOps F]

/-- The running vector stored over the whole 16-lane scratch reads back as itself. -/
theorem sA_roundtrip (f2 : Buf (Elt F) ((thrV d L).loc cc0_scratch2)) (acc : S16.Idx → F .f32) :
    ReadAs.same.apply ((sA).view.read (Elt F) ((sA).view.writes (Elt F) f2 [⟨Rect.unit (s := S16) ![0] S16.size inb_S16_S16_0, acc⟩])) = acc := by
  funext l
  have hl : (Rect.unit (s := S16) ![0] S16.size inb_S16_S16_0).emb l = l := by
    funext a; apply Fin.ext
    obtain rfl : a = 0 := Subsingleton.elim _ _
    rw [Rect.emb_apply]
    show 0 + 1 * (l 0).val = (l 0).val
    simp
  show (sA).view.read (Elt F) ((sA).view.writes (Elt F) f2 [⟨Rect.unit (s := S16) ![0] S16.size inb_S16_S16_0, acc⟩]) l = acc l
  conv_lhs => rw [← hl]
  exact View.read_writes_cons_emb (sA).view f2 (Rect.unit (s := S16) ![0] S16.size inb_S16_S16_0) acc [] l

omit [FloatOps F] in
theorem pts_s1_access (f : Buf (Elt F) ((thrV d L).loc cc0_scratch1)) :
    ((sX).view.loc (thrV d L) ↦{fullShare} f : sProp 𝕄) = (((sX).access (.whole S96x8x128)).loc (thrV d L) ↦{fullShare} f : sProp 𝕄) := rfl

/-- The outer loop's invariant: after k1 bands the running vector is the specification's; the scores under the task's read
    token, the label scratch at the fetched block, the band scratch at whatever the last band left, the band copies'
    semaphore at zero, and what the thread owes with its recorded waits. -/
def inv1 (O : CellTallies nD τ sig (HIx 1)) (W : Waits sig (HIx 1)) (k1 : Nat) (acc : FVec F S16 .f32) : sProp 𝕄 :=
  iprop(⌜acc = Cert.Spec.scOuter (m (xLoc d)) (m (yLoc d)) (widL L) k1⌝
    ∗ Transfers.MayWaits (thrV d L) (none : HIx 1) O
    ∗ ((xW).view.loc (thrV d L) ↦{tileShare (L 0).val (L 1).val} m (xLoc d))
    ∗ ((sY).view.loc (thrV d L) ↦{fullShare} labS m d L)
    ∗ (∃ f1, (sX).view.loc (thrV d L) ↦{fullShare} f1)
    ∗ semVal (cell1 d L) 0
    ∗ ∃ W', ⌜∀ p ∈ W', p ∈ W ∨ p.2 = none⌝ ∗ owes (thrV d L) O W')

/-- The inner loop's invariant in band k1, from the running vector acc0: after k2 trips the running vector is the
    specification's; the label scratch at the fetched block and the band scratch at the fetched band. -/
def inv2 (k1 : Fin k0_t1_loop.trips) (acc0 : FVec F S16 .f32) (k2 : Nat) (acc : FVec F S16 .f32) : sProp 𝕄 :=
  iprop(⌜acc = Cert.Spec.scInner (m (xLoc d)) (m (yLoc d)) (widL L) k1.val acc0 k2⌝
    ∗ ((sY).view.loc (thrV d L) ↦{fullShare} labS m d L)
    ∗ ((sX).view.loc (thrV d L) ↦{fullShare} bandS m d L k1))

set_option maxHeartbeats 4000000 in
theorem tile_body (hy : YOK m) (O : CellTallies nD τ sig (HIx 1)) (W : Waits sig (HIx 1)) (hO : ∀ g, O g none = 0) :
    iprop(levAts (K (F := F)).L (K (F := F)).lev ∗ emp
        ∗ (xyPts m d (tileShare (L 0).val (L 1).val) ∗ oRowPts d (widL L) (m (oLoc d)))
        ∗ scopedBufs (thrV d L) ∗ scopedSems0 (thrV d L) ∗ owes (thrV d L) O W)
      ⊢ wp frame (wpE (defs₀ (F := F)) 𝒱₀ (thrV d L) none) Set.univ
          (cc0__sc_gather_sum L xW (Memref.isWhole_whole _) yW (Memref.isWhole_whole _) oW (Memref.isWhole_whole _)
            sY (Memref.isWhole_whole _) sX (Memref.isWhole_whole _) sA (Memref.isWhole_whole _) cc0_scoped0 cc0_scoped1 cc0_scoped2)
          fun _ => iprop((xyPts m d (tileShare (L 0).val (L 1).val) ∗ oRowPts d (widL L) (oSpec m d))
            ∗ scopedBufs (thrV d L) ∗ scopedSems0 (thrV d L)
            ∗ ∃ W', ⌜∀ p ∈ W', p ∈ W ∨ p.2 = none⌝ ∗ owes (thrV d L) O W') := by
  unfold cc0__sc_gather_sum k0_part1
  rw [(K (F := F)).scopedBufs_V facts d (cV L) (jV L), SparseCore.Cfg.scopedSems0_V (Val := Elt F) d (cV L) (jV L), ownSems0_V, ownBufs_V, xyPts_eq]
  iintro ⟨#Hlv, -, ⟨⟨Hx, Hy⟩, Ho⟩, ⟨⟨%f0, Hs0⟩, ⟨%f1, Hs1⟩, ⟨%f2, Hs2⟩, Hbufs⟩, ⟨Hsem0, Hsem1, Hsem2, Hsems⟩, HO⟩
  ihave Hmw := ((K (F := F)).mayWaits_none (thr := thrV d L) hO) $$ Hlv
  ihave Hx' := (Entails.of_eq (pts_x (F := F) d L _ _).symm) $$ Hx
  ihave Hy' := (Entails.of_eq (pts_y (F := F) d L _ _).symm) $$ Hy
  ihave Ho' := (Entails.of_eq (pts_oRow (F := F) d L _).symm) $$ Ho
  ihave Hs0' := (Entails.of_eq (pts_s0 (F := F) d L _).symm) $$ Hs0
  ihave Hs1' := (Entails.of_eq (pts_s1 (F := F) d L _).symm) $$ Hs1
  ihave Hs2' := (Entails.of_eq (pts_s2 (F := F) d L _).symm) $$ Hs2
  -- the labels' fetch and its wait
  sl_exec
  ihave Hs0 := (Entails.of_eq (congrArg (fun f => ((sY).view.loc (thrV d L) ↦{fullShare} f : sProp 𝕄))
    (show (sY).view.write (Elt F) f0 (tile_body.sl.dma0 m d L) Finset.univ = labS m d L from s0_lands m d L f0))) $$ Hs0'
  -- the seven bands
  sl_for (inv1 m d L O W) $$ [Hmw Hx' Hs0 Hs1' Hsem1 HO]
  case region =>
    intro k1 acc
    unfold inv1
    iintro ⟨%hacc, #Hmw, Hx, Hs0, ⟨%f1', Hs1⟩, Hsem1, %W', %hW', HO⟩
    -- the band's fetch and its wait
    sl_exec
    ihave Hs1' := (Entails.of_eq (congrArg (fun f => ((sX).view.loc (thrV d L) ↦{fullShare} f : sProp 𝕄))
      (show (sX).view.write (Elt F) f1' (tile_body.sl.dma0_1 m d L k1) Finset.univ = bandS m d L k1 from s1_lands m d L k1 f1'))) $$ Hs1
    -- the band's 64 trips
    sl_for (inv2 m d L k1 acc) $$ [Hs0 Hs1']
    case region =>
      intro k2 acc2
      unfold inv2
      iintro ⟨%hacc2, Hs0, Hs1⟩
      sl_exec
      -- the row and column vectors the trip's chains give, lane by lane, by evaluation over the 64 trips
      have h72 : ∀ (k2 : Fin k0_t2_loop.trips) (l : S16.Idx), (tile_body.sl.v72 k2 l).toNat = k2.val / 8 := by decide +kernel
      have h75 : ∀ (k2 : Fin k0_t2_loop.trips) (l : S16.Idx), (tile_body.sl.v75 k2 l).toNat = (k2.val % 8) * 16 + (l 0).val := by decide +kernel
      have hchk : k0_chk1 (tile_body.sl.v71 m d L k1 k2) (tile_body.sl.v72 k2) (tile_body.sl.v75 k2) :=
        chk_of m d L hy k1 k2 _ _ (h72 k2) (h75 k2)
      rw [wp_assume_of _ _ _ _ hchk]
      ihave Hs1a := (Entails.of_eq (pts_s1_access (F := F) d L _)) $$ Hs1
      iapply (SparseCore.wp_vectorLoadIdx 𝒱₀ (thrV d L) none Set.univ (base := sX) (S := Finset.univ) (q := fullShare) (Finset.subset_univ _)) $$ Hs1a
      iintro Hs1a
      sl_exec
      sl_step
      isplitr
      · ipureintro
        rw [hacc2]
        exact congrArg (subf _) (gather_of m d L k1 k2 _ _ (h72 k2) (h75 k2) _)
      isplitl [Hs0]; · iexact Hs0
      iexact Hs1a
    · unfold inv2
      isplitr; · ipureintro; rfl
      isplitl [Hs0]; · iexact Hs0
      iexact Hs1'
    iintro %acc' HI
    unfold inv2
    icases HI with ⟨%hacc', Hs0, Hs1⟩
    sl_exec
    sl_step
    isplitr
    · ipureintro
      rw [hacc', hacc]
      exact congrArg (Cert.Spec.scInner (m (xLoc d)) (m (yLoc d)) (widL L) k1.val (Cert.Spec.scOuter (m (xLoc d)) (m (yLoc d)) (widL L) k1.val)) k0_t2_trips
    isplitr; · iexact Hmw
    isplitl [Hx]; · iexact Hx
    isplitl [Hs0]; · iexact Hs0
    isplitl [Hs1]; · iexists _; iexact Hs1
    isplitl [Hsem1]; · iexact Hsem1
    iexists (insert (SemLoc.dma cc0_scoped1.sem, (default : HIx 1)) W'); isplitr
    · ipureintro; intro p hp
      rcases Finset.mem_insert.mp hp with hp | hp
      · exact .inr (hp ▸ rfl)
      · exact hW' p hp
    · iexact HO
  · unfold inv1
    isplitr; · ipureintro; rfl
    isplitl [Hmw]; · iexact Hmw
    isplitl [Hx']; · iexact Hx'
    isplitl [Hs0]; · iexact Hs0
    isplitl [Hs1']; · iexists _; iexact Hs1'
    isplitl [Hsem1]; · iexact Hsem1
    iexists (insert (SemLoc.dma cc0_scoped0.sem, (default : HIx 1)) W); isplitr
    · ipureintro; intro p hp
      rcases Finset.mem_insert.mp hp with hp | hp
      · exact .inr (hp ▸ rfl)
      · exact .inl hp
    · iexact HO
  iintro %accF HI
  unfold inv1
  icases HI with ⟨%haccF, -, Hx, Hs0, ⟨%f1F, Hs1⟩, Hsem1, %WF, %hWF, HO⟩
  -- the running vector stored and written out to the task's row
  sl_exec
  sl_step
  have haccF' : tile_body.sl.dma2 d L f2 accF = Cert.Spec.scOuter (m (xLoc d)) (m (yLoc d)) (widL L) 7 :=
    (sA_roundtrip d L f2 accF).trans (haccF.trans (congrArg (Cert.Spec.scOuter (m (xLoc d)) (m (yLoc d)) (widL L)) k0_t1_trips))
  isplitl [Hx Hy' Ho']
  · isplitl [Hx Hy']
    · isplitl [Hx]
      · iapply (Entails.of_eq (pts_x (F := F) d L _ _)); iexact Hx
      · iapply (Entails.of_eq (pts_y (F := F) d L _ _)); iexact Hy'
    · iapply (Entails.of_eq ((pts_oRow (F := F) d L _).trans (pointsTo_congr fun j hj => oRow_final m d L _ haccF' j hj)))
      iexact Ho'
  isplitl [Hs0 Hs1 Hs2' Hbufs]
  · isplitl [Hs0]; · iexists _; iapply (Entails.of_eq (pts_s0 (F := F) d L _)); iexact Hs0
    isplitl [Hs1]; · iexists _; iapply (Entails.of_eq (pts_s1 (F := F) d L _)); iexact Hs1
    isplitl [Hs2']; · iexists _; iapply (Entails.of_eq (pts_s2 (F := F) d L _)); iexact Hs2'
    iexact Hbufs
  isplitl [Hsem0 Hsem1 Hsem2 Hsems]
  · isplitl [Hsem0]; · iexact Hsem0
    isplitl [Hsem1]; · iexact Hsem1
    isplitl [Hsem2]; · iexact Hsem2
    iexact Hsems
  iexists (insert (SemLoc.dma cc0_scoped2.sem, (default : HIx 1)) WF); isplitr
  · ipureintro; intro p hp
    rcases Finset.mem_insert.mp hp with hp | hp
    · exact .inr (hp ▸ rfl)
    · exact hWF p hp
  · iexact HO

end Tile

end Cert.KernelIdeal.Hand

end
-- ==== Proof.KI.SC.lean ====
/-
  The vector subcores' call as the launch theorem wants it: what the handshakes carry and how the operands split among the
  2 x 16 tasks (imported), and the obligation for one task — the printed body at the task's grid coordinates, from the
  task's operands and the subcore's own storage to the task's results and the storage back.
-/
import proofs.«209113_g38259568672962_cont_8to1_b_1629_19_alg».proof.Proof.KI.SCBody

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

-- the kernel's memrefs, spelt as the body table passes them
local notation "xW" => (Memref.whole Cert.KernelIdeal.main_arg0_scv : Memref Cert.KernelIdeal.sig Kind.scVector Space.hbm Cert.KernelIdeal.S8x96x224x224 EltTy.f32)
local notation "yW" => (Memref.whole Cert.KernelIdeal.main_arg1_scv : Memref Cert.KernelIdeal.sig Kind.scVector Space.hbm Cert.KernelIdeal.S8x224x224 EltTy.i32)
local notation "oW" => (Memref.whole Cert.KernelIdeal.main_v0_scv : Memref Cert.KernelIdeal.sig Kind.scVector Space.hbm Cert.KernelIdeal.S32x16 EltTy.f32)
local notation "sY" => (Memref.whole Cert.KernelIdeal.cc0_scratch0 : Memref Cert.KernelIdeal.sig Kind.scVector Space.vmem Cert.KernelIdeal.S56x128 EltTy.i32)
local notation "sX" => (Memref.whole Cert.KernelIdeal.cc0_scratch1 : Memref Cert.KernelIdeal.sig Kind.scVector Space.vmem Cert.KernelIdeal.S96x8x128 EltTy.f32)
local notation "sA" => (Memref.whole Cert.KernelIdeal.cc0_scratch2 : Memref Cert.KernelIdeal.sig Kind.scVector Space.vmem Cert.KernelIdeal.S16 EltTy.f32)

variable [FloatOps F]

/-! ## The launch theorem's obligation for the call -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather_sum (coordsV c s)
          xW (Memref.isWhole_whole _) yW (Memref.isWhole_whole _) oW (Memref.isWhole_whole _)
          sY (Memref.isWhole_whole _) sX (Memref.isWhole_whole _) sA (Memref.isWhole_whole _) cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hy : YOK m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hy O W hO).trans (wp_mono frame _ _ fun _ => obl_post)

end Cert.KernelIdeal.Hand

end
-- ==== Proof.KI.Run.lean ====
/-
  The program's run: every weakly fair execution of all the threads — @main on the TensorCore, the two sequencers, the
  thirty-two vector subcores — terminates, nothing faulting, with the result array at the specification's value of the
  kernel and the two arguments unchanged, whenever every label names a class.
-/
import proofs.«209113_g38259568672962_cont_8to1_b_1629_19_alg».proof.Proof.KI.Launch
import proofs.«209113_g38259568672962_cont_8to1_b_1629_19_alg».proof.Proof.KI.SC

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The program's run -/

/-- Every final memory: the result at the specification's value, the arguments unchanged. -/
def QC : PUnit × MemSt nD τ sig (Elt F) → Prop := fun r => ∀ c : Dev nD,
  r.2.mem ((SparseCore.T c).loc main_v4) = (Cert.Spec.kernelVal (m (xLoc c)) (m (yLoc c)) : Buf (Elt F) ((SparseCore.T c).loc main_v4))
    ∧ r.2.mem (xLoc c) = m (xLoc c) ∧ r.2.mem (yLoc c) = m (yLoc c)

theorem run_main [∀ e, Nonempty (Elt F e)] (hy : YOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hy)
    (fun q _ => match q with | 0 => vecSplit m)
    m ρ main (fun d => GT (F := F) d) (FIN m) (u₀ (F := F)) (sep_elim_left.trans (hu₀ m)) (hmain m ρ hy) (fq m) (hfin m) (QC m)
    (fun _ h c => ⟨(h c).2.2, (h c).1, (h c).2.1⟩)

end Cert.KernelIdeal.Hand

end
-- ==== Proof.K.Common.lean ====
/-
  What every module about this program's run shares: the program as the launch theorem of a SparseCore program sees it
  (its labels, its SparseCore configuration, its body table, the side conditions of the handshake semaphores), the
  resource algebra (the handshakes' rounds, beside the pipeline's rounds for the one TensorCore call, beside the counters of
  the subcores' own copies), the launch memory, and the names of the arrays: the scores x and the labels y (the arguments),
  the 32 x 16 array of lane totals o, the 1 x 1 scalar t, and the host's four scalars.
-/
import proofs.«209113_g38259568672962_cont_8to1_b_1629_19_alg».proof.Defs
import proofs.«209113_g38259568672962_cont_8to1_b_1629_19_alg».proof.Proof.Gen.Kernel
import proofs.«209113_g38259568672962_cont_8to1_b_1629_19_alg».proof.Proof.Gen.Kernel.Launch
import proofs.«209113_g38259568672962_cont_8to1_b_1629_19_alg».proof.Proof.Gen.Kernel.Points
import proofs.«209113_g38259568672962_cont_8to1_b_1629_19_alg».proof.Proof.SkeletonKernelP
import proofs.«209113_g38259568672962_cont_8to1_b_1629_19_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The pipeline's rounds (the staging cells of the TensorCore call). -/
abbrev UP : Type := UR sig nD τ
/-- Handshakes, beside the pipeline's cells, beside the counters of the subcores' own copies. -/
abbrev UU : Type := UH × (UP × Counters)

/-- The handshakes' component. -/
abbrev EH : Emb UH (MT nD τ sig (HIx 1) (Elt F) ℕ UU ℕ) := embL
/-- The pipeline's component. -/
def EP : Emb UP (MT nD τ sig (HIx 1) (Elt F) ℕ UU ℕ) :=
  (Emb.inl : Emb UP (UP × Counters)).trans (embR : Emb (UP × Counters) (MT nD τ sig (HIx 1) (Elt F) ℕ UU ℕ))
instance EP_landsIn : (EP : Emb UP (MT nD τ sig (HIx 1) (Elt F) ℕ UU ℕ)).LandsIn (upEmb : UEmb _ (MT nD τ sig (HIx 1) (Elt F) ℕ UU ℕ)) := by
  unfold EP; infer_instance

/-! ## The arrays -/

/-- The scores x and the labels y (the arguments); the lane totals o; the scalar t; as locations of device d. -/
abbrev xLoc (d : Dev nD) : Loc nD τ sig := (SparseCore.T d).loc main_arg0
abbrev yLoc (d : Dev nD) : Loc nD τ sig := (SparseCore.T d).loc main_arg1
abbrev oLoc (d : Dev nD) : Loc nD τ sig := (SparseCore.T d).loc main_v0
abbrev tLoc (d : Dev nD) : Loc nD τ sig := (SparseCore.T d).loc main_v1

/-- Every label names a class: as an unsigned word it is below 96. -/
def YOK (m : (ℓ : Loc nD τ sig) → Buf (Elt F) ℓ) : Prop :=
  ∀ (d : Dev nD) (j : S8x224x224.Idx), (m (yLoc d) j : BitVec 32).toNat < 96

end Cert.Kernel.Hand

end
-- ==== Proof.K.Tail.lean ====
/-
  The TensorCore's eight arrays in HBM — the arguments x and y, the lane totals o, the scalar t, and the host's zero
  constant and three scalars — held together, and the host's four closing operations run over them: the zero constant,
  the sum of the lane totals from it, the scalar laid out as a rank-0 array, and the addition of the two. With o at the
  lane totals and t at the scalar of the specification, the last array ends at the specification's value of the kernel.
-/
import proofs.«209113_g38259568672962_cont_8to1_b_1629_19_alg».proof.Proof.K.Common

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type}

local notation "𝕄" => MT nD τ sig (HIx 1) (Elt F) ℕ UU ℕ

abbrev x' : DevRef τ sig := Proc.devRef .tc (main_arg0 : Ref sig .tc)
abbrev y' : DevRef τ sig := Proc.devRef .tc (main_arg1 : Ref sig .tc)
abbrev o' : DevRef τ sig := Proc.devRef .tc (main_v0 : Ref sig .tc)
abbrev t' : DevRef τ sig := Proc.devRef .tc (main_v1 : Ref sig .tc)
abbrev c' : DevRef τ sig := Proc.devRef .tc (main_cst : Ref sig .tc)
abbrev r2' : DevRef τ sig := Proc.devRef .tc (main_v2 : Ref sig .tc)
abbrev r3' : DevRef τ sig := Proc.devRef .tc (main_v3 : Ref sig .tc)
abbrev r4' : DevRef τ sig := Proc.devRef .tc (main_v4 : Ref sig .tc)

/-- The TensorCore's arrays, all unscoped. -/
abbrev S8 : Finset (DevRef τ sig) := {x', y', o', t', c', r2', r3', r4'}

theorem held_S8 (d : Dev nD) (W : Valuation τ sig (Elt F)) :
    (held (T d) S8 W : sProp 𝕄) = iprop((xLoc d ↦{fullShare} W x') ∗ (yLoc d ↦{fullShare} W y') ∗ (oLoc d ↦{fullShare} W o') ∗ (tLoc d ↦{fullShare} W t')
      ∗ ((SparseCore.T d).loc main_cst ↦{fullShare} W c') ∗ ((SparseCore.T d).loc main_v2 ↦{fullShare} W r2') ∗ ((SparseCore.T d).loc main_v3 ↦{fullShare} W r3')
      ∗ ((SparseCore.T d).loc main_v4 ↦{fullShare} W r4')) := by
  unfold held S8
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((xLoc d ↦{fullShare} W main_arg0) ∗ (yLoc d ↦{fullShare} W main_arg1) ∗ (oLoc d ↦{fullShare} W main_v0) ∗ (tLoc d ↦{fullShare} W main_v1)
      ∗ ((SparseCore.T d).loc main_cst ↦{fullShare} W main_cst) ∗ ((SparseCore.T d).loc main_v2 ↦{fullShare} W main_v2) ∗ ((SparseCore.T d).loc main_v3 ↦{fullShare} W main_v3)
      ∗ ((SparseCore.T d).loc main_v4 ↦{fullShare} W main_v4)) := by
  unfold unscopedBufs
  rw [show (Finset.univ.filter fun b : Ref sig .tc => ¬ b.isScoped) = {main_arg0, main_arg1, main_v0, main_v1, main_cst, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

variable [FloatOps F]

/-- The host's four closing operations. -/
abbrev opC : HloOp τ sig (Elt F) := StableHlo.nullary main_cst (constant S_ .f32 0x00000000#32)
abbrev opSum : HloOp τ sig (Elt F) := StableHlo.binary main_v0 main_cst main_v2 ((fun x v => Host.reduceAdd x v Facts₀.reducesTo_S32x16_S_d0_1 Facts₀.h_S_) : (⟨S32x16, .f32⟩ : BufTy).Contents (Elt F) → (⟨S_, .f32⟩ : BufTy).Contents (Elt F) → (⟨S_, .f32⟩ : BufTy).Contents (Elt F))
abbrev opCast : HloOp τ sig (Elt F) := StableHlo.reshape main_v1 main_v3 rfl Facts₀.shapeCasts_S1x1_S_
abbrev opAdd : HloOp τ sig (Elt F) := StableHlo.binary main_v2 main_v3 main_v4 (addf : (⟨S_, .f32⟩ : BufTy).Contents (Elt F) → (⟨S_, .f32⟩ : BufTy).Contents (Elt F) → (⟨S_, .f32⟩ : BufTy).Contents (Elt F))

theorem hC : (opC (F := F)).bufs ⊆ S8 := show ({c'} : Finset (DevRef τ sig)) ⊆ S8 by decide
theorem hSum : (opSum (F := F)).bufs ⊆ S8 := show ({o', c', r2'} : Finset (DevRef τ sig)) ⊆ S8 by decide
theorem hCast : (opCast (F := F)).bufs ⊆ S8 := show ({t', r3'} : Finset (DevRef τ sig)) ⊆ S8 by decide
theorem hAdd : (opAdd (F := F)).bufs ⊆ S8 := show ({r2', r3', r4'} : Finset (DevRef τ sig)) ⊆ S8 by decide

/-- The valuation after the four operations. -/
abbrev VT (W : Valuation τ sig (Elt F)) : Valuation τ sig (Elt F) :=
  (opAdd (F := F)).result ((opCast (F := F)).result ((opSum (F := F)).result ((opC (F := F)).result W)))

end Cert.Kernel.Hand

end
-- ==== Proof.K.SCPay.lean ====
/-
  What the handshakes of the vector subcores' call carry, and how the call's operands split among the 2 x 16 tasks.

  Every task reads the scores x and the labels y, so each is handed a read share of the two arrays whole: the call's full
  share is halved between the two processors, and a processor's half is dealt to its 16 tasks token by token (the
  remainder of the half stays with the split until the tokens come back).  Task (c, i) — subcore number 2 i + c — owns
  row 2 i + c of the 32 x 16 array of lane totals; it hands the shares back and its row at the lane totals the
  specification names.  The 32 rows are pairwise disjoint and cover the array.
-/
import proofs.«209113_g38259568672962_cont_8to1_b_1629_19_alg».proof.Proof.K.Common

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

/-! ## Rows and shares -/

/-- Row w of the 32 x 16 array of lane totals. -/
def oRow (d : Dev nD) (w : ℕ) : Finset (Idx (oLoc d)) := Finset.univ.filter fun j => (j 0).val = w

/-- The half of the full share processor c reads the arguments under. -/
def coreShare (c : ℕ) : PosShare TreeShare := if c = 0 then fullShare.left else fullShare.right

/-- The token of processor c's half that its task i reads the arguments under. -/
abbrev tileShare (c i : ℕ) : PosShare TreeShare := Transfers.shareTokN (coreShare c) i

theorem oRow_disjoint (d : Dev nD) {w w' : ℕ} (h : w ≠ w') : Disjoint (oRow d w) (oRow d w') := by
  refine Finset.disjoint_left.mpr fun j hj hj' => h ?_
  rw [oRow, Finset.mem_filter] at hj hj'
  exact hj.2.symm.trans hj'.2

theorem oRows_disjoint (d : Dev nD) :
    ∀ p ∈ (Finset.univ : Finset (Fin 2 × Fin 16)), ∀ p' ∈ (Finset.univ : Finset (Fin 2 × Fin 16)), p ≠ p' →
      Disjoint (oRow d (2 * p.2.val + p.1.val)) (oRow d (2 * p'.2.val + p'.1.val)) := by
  intro p _ p' _ hne
  refine oRow_disjoint d fun e => hne ?_
  have h1 := p.1.isLt; have h2 := p'.1.isLt
  exact Prod.ext (Fin.ext (by omega)) (Fin.ext (by omega))

theorem oRows_cover (d : Dev nD) :
    (Finset.univ : Finset (Fin 2 × Fin 16)).biUnion (fun p => oRow d (2 * p.2.val + p.1.val)) = Finset.univ := by
  refine Finset.eq_univ_iff_forall.mpr fun j => Finset.mem_biUnion.mpr ?_
  have hj : (j 0).val < 32 := (j 0).isLt
  refine ⟨(⟨(j 0).val % 2, Nat.mod_lt _ (by decide)⟩, ⟨(j 0).val / 2, by omega⟩), Finset.mem_univ _, ?_⟩
  rw [oRow, Finset.mem_filter]
  exact ⟨Finset.mem_univ _, by show (j 0).val = 2 * ((j 0).val / 2) + (j 0).val % 2; omega⟩

/-- The array of lane totals whole is its 32 rows, dealt by processor and task. -/
theorem oPts_rows (d : Dev nD) (f : Buf (Elt F) (oLoc d)) :
    (oLoc d ↦{fullShare} f : sProp 𝕄)
      = bigSep Finset.univ fun c : Fin 2 => bigSep Finset.univ fun i : Fin 16 => oLoc d ↦[oRow d (2 * i.val + c.val)]{fullShare} f := by
  rw [← SparseCore.bigSep_product (Finset.univ : Finset (Fin 2)) (Finset.univ : Finset (Fin 16))
      (fun p : Fin 2 × Fin 16 => (oLoc d ↦[oRow d (2 * p.2.val + p.1.val)]{fullShare} f : sProp 𝕄)),
    Finset.univ_product_univ, ← pointsTo_biUnion Finset.univ (ℓ := oLoc d) (fun p : Fin 2 × Fin 16 => oRow d (2 * p.2.val + p.1.val)) (oRows_disjoint d),
    oRows_cover]

variable [FloatOps F]

/-! ## What the handshakes carry -/

/-- The scores and the labels under a share, at their launch contents. -/
def xyPts (d : Dev nD) (q : PosShare TreeShare) : sProp 𝕄 := iprop((xLoc d ↦{q} m (xLoc d)) ∗ (yLoc d ↦{q} m (yLoc d)))
omit [FloatOps F] in
theorem xyPts_eq (d : Dev nD) (q : PosShare TreeShare) : xyPts m d q = iprop((xLoc d ↦{q} m (xLoc d)) ∗ (yLoc d ↦{q} m (yLoc d))) := rfl
instance xyPts_storable (d : Dev nD) (q : PosShare TreeShare) : BI.Storable (upEmb : UEmb _ 𝕄) (xyPts m d q) := by
  unfold xyPts; infer_instance
/-- Row w of the lane totals at the contents f. -/
abbrev oRowPts (d : Dev nD) (w : ℕ) (f : Buf (Elt F) (oLoc d)) : sProp 𝕄 := oLoc d ↦[oRow d w]{fullShare} f
/-- The lane totals the specification names. -/
abbrev oSpec (d : Dev nD) : Buf (Elt F) (oLoc d) := Cert.Spec.scOut (m (xLoc d)) (m (yLoc d))

/-- The call hands processor c its half share of the arguments and its 16 rows of the lane totals; a task its token of that
    half and its row; both ways back the same, the rows at the lane totals the specification names. -/
def P : (K (F := F)).Pay (nD := nD) (Val := Elt F) (Name := ℕ) (U := UU) where
  st := fun _ d c => iprop(xyPts m d (coreShare c.val) ∗ bigSep Finset.univ fun i : Fin 16 => oRowPts d (2 * i.val + c.val) (m (oLoc d)))
  dn := fun _ d c => iprop(xyPts m d (coreShare c.val) ∗ bigSep Finset.univ fun i : Fin 16 => oRowPts d (2 * i.val + c.val) (oSpec m d))
  go := fun _ d c i => iprop(xyPts m d (tileShare c.val i.val) ∗ oRowPts d (2 * i.val + c.val) (m (oLoc d)))
  td := fun _ d c i => iprop(xyPts m d (tileShare c.val i.val) ∗ oRowPts d (2 * i.val + c.val) (oSpec m d))
  x := fun _ _ => iprop(emp)

instance P_storable : (P (F := F) m).IsStorable where
  st _ d c := by unfold P; infer_instance
  dn _ d c := by unfold P; infer_instance
  go _ d c i := by unfold P; infer_instance
  td _ d c i := by unfold P; infer_instance

theorem P_st (d : Dev nD) (c : Fin ((K (F := F)).nCore 0)) :
    (P m).st 0 d c = iprop(xyPts m d (coreShare c.val) ∗ bigSep Finset.univ fun i : Fin 16 => oRowPts d (2 * i.val + c.val) (m (oLoc d))) := rfl
theorem P_dn (d : Dev nD) (c : Fin ((K (F := F)).nCore 0)) :
    (P m).dn 0 d c = iprop(xyPts m d (coreShare c.val) ∗ bigSep Finset.univ fun i : Fin 16 => oRowPts d (2 * i.val + c.val) (oSpec m d)) := rfl
theorem P_go (d : Dev nD) (c : Fin ((K (F := F)).nCore 0)) (i : Fin ((K (F := F)).nSub 0)) :
    (P m).go 0 d c i = iprop(xyPts m d (tileShare c.val i.val) ∗ oRowPts d (2 * i.val + c.val) (m (oLoc d))) := rfl
theorem P_td (d : Dev nD) (c : Fin ((K (F := F)).nCore 0)) (i : Fin ((K (F := F)).nSub 0)) :
    (P m).td 0 d c i = iprop(xyPts m d (tileShare c.val i.val) ∗ oRowPts d (2 * i.val + c.val) (oSpec m d)) := rfl

/-! ## A processor's operands split among its tasks -/

omit [FloatOps F] in
theorem xy_split (d : Dev nD) (q : PosShare TreeShare) :
    xyPts m d q ⊢ iprop(xyPts m d (Transfers.shareDrop q 16) ∗ bigSep Finset.univ fun i : Fin 16 => xyPts m d (Transfers.shareTokN q i.val)) := by
  simp only [xyPts_eq]
  rw [bigSep_sep']
  iintro ⟨Hx, Hy⟩
  ihave Hx' := (Transfers.pointsTo_toks_split q 16) $$ Hx
  ihave Hy' := (Transfers.pointsTo_toks_split q 16) $$ Hy
  icases Hx' with ⟨Hxr, Hxt⟩
  icases Hy' with ⟨Hyr, Hyt⟩
  isplitl [Hxr Hyr]
  · isplitl [Hxr]; · iexact Hxr
    iexact Hyr
  isplitl [Hxt]; · iexact Hxt
  iexact Hyt

omit [FloatOps F] in
theorem xy_join (d : Dev nD) (q : PosShare TreeShare) :
    iprop(xyPts m d (Transfers.shareDrop q 16) ∗ bigSep Finset.univ fun i : Fin 16 => xyPts m d (Transfers.shareTokN q i.val)) ⊢ xyPts m d q := by
  simp only [xyPts_eq]
  rw [bigSep_sep']
  iintro ⟨⟨Hxr, Hyr⟩, Hxt, Hyt⟩
  isplitl [Hxr Hxt]
  · iapply (Transfers.pointsTo_toks_join q 16); isplitl [Hxr]; · iexact Hxr
    iexact Hxt
  · iapply (Transfers.pointsTo_toks_join q 16); isplitl [Hyr]; · iexact Hyr
    iexact Hyt

theorem vecSplit' : (K (F := F)).VecSplit' (P m) 0 := by
  intro d c
  show iprop(xyPts m d (coreShare c.val) ∗ bigSep Finset.univ fun i : Fin 16 => oRowPts d (2 * i.val + c.val) (m (oLoc d)))
    ⊢ |={Set.univ}=> iprop((bigSep Finset.univ fun i : Fin 16 => iprop(xyPts m d (tileShare c.val i.val) ∗ oRowPts d (2 * i.val + c.val) (m (oLoc d))))
        ∗ ((bigSep Finset.univ fun i : Fin 16 => iprop(xyPts m d (tileShare c.val i.val) ∗ oRowPts d (2 * i.val + c.val) (oSpec m d)))
          -∗ iprop(xyPts m d (coreShare c.val) ∗ bigSep Finset.univ fun i : Fin 16 => oRowPts d (2 * i.val + c.val) (oSpec m d))))
  rw [bigSep_sep', bigSep_sep']
  iintro ⟨Hxy, Ho⟩
  ihave Hxy' := (xy_split m d (coreShare c.val)) $$ Hxy
  icases Hxy' with ⟨Hr, Ht⟩
  imodintro
  isplitl [Ht Ho]
  · isplitl [Ht]; · iexact Ht
    iexact Ho
  iintro ⟨Ht, Ho⟩
  isplitl [Hr Ht]
  · iapply (xy_join m d (coreShare c.val)); isplitl [Hr]; · iexact Hr
    iexact Ht
  iexact Ho

theorem vecSplit : (K (F := F)).VecSplit (P m) 0 := SparseCore.Cfg.VecSplit.of_plain (vecSplit' m)

/-! ## The call's operands split between the two processors -/

omit [FloatOps F] in
theorem xy_halves (d : Dev nD) :
    xyPts m d fullShare ⊣⊢ iprop(xyPts m d (coreShare (0 : Fin 2).val) ∗ xyPts m d (coreShare (1 : Fin 2).val)) := by
  have hx : (xLoc d ↦{fullShare} m (xLoc d) : sProp 𝕄) ⊣⊢ iprop((xLoc d ↦{fullShare.left} m (xLoc d)) ∗ xLoc d ↦{fullShare.right} m (xLoc d)) :=
    pointsTo_share (PosShare.mem_left_op_right _)
  have hy : (yLoc d ↦{fullShare} m (yLoc d) : sProp 𝕄) ⊣⊢ iprop((yLoc d ↦{fullShare.left} m (yLoc d)) ∗ yLoc d ↦{fullShare.right} m (yLoc d)) :=
    pointsTo_share (PosShare.mem_left_op_right _)
  show iprop((xLoc d ↦{fullShare} m (xLoc d)) ∗ (yLoc d ↦{fullShare} m (yLoc d)))
    ⊣⊢ iprop(iprop((xLoc d ↦{fullShare.left} m (xLoc d)) ∗ (yLoc d ↦{fullShare.left} m (yLoc d)))
        ∗ iprop((xLoc d ↦{fullShare.right} m (xLoc d)) ∗ (yLoc d ↦{fullShare.right} m (yLoc d))))
  constructor
  · iintro ⟨Hx, Hy⟩
    ihave Hx' := hx.1 $$ Hx
    ihave Hy' := hy.1 $$ Hy
    icases Hx' with ⟨Hx0, Hx1⟩
    icases Hy' with ⟨Hy0, Hy1⟩
    isplitl [Hx0 Hy0]
    · isplitl [Hx0]; · iexact Hx0
      iexact Hy0
    · isplitl [Hx1]; · iexact Hx1
      iexact Hy1
  · iintro ⟨⟨Hx0, Hy0⟩, Hx1, Hy1⟩
    isplitl [Hx0 Hx1]
    · iapply hx.2; isplitl [Hx0]; · iexact Hx0
      iexact Hx1
    · iapply hy.2; isplitl [Hy0]; · iexact Hy0
      iexact Hy1

theorem st_intro (d : Dev nD) :
    iprop((xLoc d ↦{fullShare} m (xLoc d)) ∗ (yLoc d ↦{fullShare} m (yLoc d)) ∗ (oLoc d ↦{fullShare} m (oLoc d)))
      ⊢ (bigSep Finset.univ fun c : Fin ((K (F := F)).nCore 0) => (P m).st 0 d c : sProp 𝕄) := by
  show _ ⊢ (bigSep Finset.univ fun c : Fin 2 =>
    iprop(xyPts m d (coreShare c.val) ∗ bigSep Finset.univ fun i : Fin 16 => oRowPts d (2 * i.val + c.val) (m (oLoc d))) : sProp 𝕄)
  rw [bigSep_sep', oPts_rows, bigSep_fin_two (fun c : Fin 2 => xyPts m d (coreShare c.val))]
  iintro ⟨Hx, Hy, Ho⟩
  isplitl [Hx Hy]
  · iapply (xy_halves m d).1; rw [xyPts_eq]; isplitl [Hx]; · iexact Hx
    iexact Hy
  iexact Ho

theorem dn_elim (d : Dev nD) :
    (bigSep Finset.univ fun c : Fin ((K (F := F)).nCore 0) => (P m).dn 0 d c : sProp 𝕄)
      ⊢ iprop((xLoc d ↦{fullShare} m (xLoc d)) ∗ (yLoc d ↦{fullShare} m (yLoc d)) ∗ (oLoc d ↦{fullShare} (Cert.Spec.scOut (m (xLoc d)) (m (yLoc d)) : Buf (Elt F) (oLoc d)))) := by
  show (bigSep Finset.univ fun c : Fin 2 =>
    iprop(xyPts m d (coreShare c.val) ∗ bigSep Finset.univ fun i : Fin 16 => oRowPts d (2 * i.val + c.val) (oSpec m d)) : sProp 𝕄) ⊢ _
  rw [bigSep_sep', oPts_rows, bigSep_fin_two (fun c : Fin 2 => xyPts m d (coreShare c.val))]
  iintro ⟨Hxy, Ho⟩
  ihave Hxy' := ((xy_halves m d).2.trans (Entails.of_eq (xyPts_eq m d fullShare))) $$ Hxy
  icases Hxy' with ⟨Hx, Hy⟩
  isplitl [Hx]; · iexact Hx
  isplitl [Hy]; · iexact Hy
  iexact Ho

end Cert.Kernel.Hand

end
-- ==== Proof.K.TCGhost.lean ====
/-
  What the launch element must fund for the TensorCore's pipeline: on every device the staging cells' launch ghost state and
  the duty tokens of the transfers the pipeline's loop issues.
-/
import proofs.«209113_g38259568672962_cont_8to1_b_1629_19_alg».proof.Proof.K.Common

noncomputable section

namespace Cert.Kernel.Hand

open Cert.Kernel Cert.Kernel.Gen Cert.Kernel.GenP

open Idealize.ShloMosaic Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

variable (m : (ℓ : Loc nD τ sig) → Buf (Elt F) ℓ)

/-- The pipeline component's launch element: every staging cell's owner at round 0 and a duty token for every transfer
    the one pipeline issues. -/
def uP : UP := initOf (Pipeline.cells cfgs Gen.cellOf_inj) (Pipeline.launchToks cfgs Gen.cellOf_inj)

/-- What the region needs of the launch element on device d: the staging cells' launch ghost state and the duty tokens of
    the transfers the pipeline's loop issues. -/
def GT (d : Dev nD) : sProp 𝕄 := iprop(Pipeline.cellsGhost cfgs (EP (F := F)) 0 d ∗ Pipeline.toksInit cfgs (EP (F := F)) 0 d)

/-- The launch element funds every device's share. -/
theorem fundT : (BI.own (EP (F := F) uP) : sProp 𝕄) ⊢ |==> bigSep Finset.univ fun d : Dev nD => GT (F := F) d := by
  have h1 : ∀ (Φ : Fin 1 → sProp 𝕄), bigSep Finset.univ Φ = Φ 0 := fun Φ => by
    rw [show (Finset.univ : Finset (Fin 1)) = {0} from by decide, BI.bigSep_singleton]
  unfold GT
  rw [bigSep_sep']
  refine (Pipeline.fund_ghost cfgs (EP (F := F)) Gen.cellOf_inj).trans ?_
  simp only [h1]
  exact BI.Entails.refl _

end Cert.Kernel.Hand

end
-- ==== Proof.K.TCData.lean ====
/-
  The proof data of the TensorCore's pipeline: the arrays as the region finds them, what each staging buffer holds after
  the body at each of the eight grid points (the two inputs' blocks; the 1 x 1 cell at the running difference), and what
  the body finds in them when it runs.
-/
import proofs.«209113_g38259568672962_cont_8to1_b_1629_19_alg».proof.Proof.K.Common
import Idealize.ShloMosaic.Lib.Pipeline.Frame

noncomputable section

namespace Cert.Kernel.Hand

open Cert.Kernel Cert.Kernel.Gen Cert.Kernel.GenP

open Idealize.ShloMosaic Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

variable (m : (ℓ : Loc nD τ sig) → Buf (Elt F) ℓ)

variable (t0 : (c : Dev nD) → Buf (Elt F) (tLoc c))

/-- The prefetched tables' admissible contents: no table. -/
abbrev adm : (p : Fin 1) → (pcfgs (F := F) p).Adm := fun p => (cfgs p).toPCfg_adm

/-- The scores' block at point t as the fetch reads it: its part inside the array (96 of the 128 columns). -/
def xblk (c : Dev nD) (t : Fin cfg1.N) : (win1_0.xblock (grid1.coords t)).Idx → Elt F .f32 :=
  (win1_0.blk t).view.read (Elt F) (m (xLoc c))
/-- The labels' likewise. -/
def yblk (c : Dev nD) (t : Fin cfg1.N) : (win1_1.xblock (grid1.coords t)).Idx → Elt F .i32 :=
  (win1_1.blk t).view.read (Elt F) (m (yLoc c))

/-- The running scalar after n batches. -/
abbrev accT (c : Dev nD) (n : ℕ) : Elt F .f32 := Cert.Spec.tcAcc (m (xLoc c)) (m (yLoc c)) n

/-- The proof data of the one pipeline on device c: the arrays as the region finds them; after the body at point t the two
    inputs' staging buffers at their blocks (filled out past the arrays' end with a word nothing reads) and the scalar's
    at the running difference after t + 1 batches; no invariant; the debts of the handshakes still to come, unchanged; the
    recorded pairs at the levels of the first handshake. -/
def datT (_ : Fin 1) (c : Dev nD) : Dat τ (Elt F) (HIx 1) ℕ UU ℕ cfg1 c where
  A w := match w with
    | ⟨0, _⟩ => m (xLoc c)
    | ⟨1, _⟩ => m (yLoc c)
    | ⟨2, _⟩ => t0 c
  after w t := match w with
    | ⟨0, _⟩ => win1_0.fill (grid1.coords t) (fun _ => Scalar.ofBits .f32 0#32) (xblk m c t)
    | ⟨1, _⟩ => win1_1.fill (grid1.coords t) (fun _ => (0#32 : BitVec 32)) (yblk m c t)
    | ⟨2, _⟩ => fun _ => accT m c (t.val + 1)
  Φ _ := iprop(emp)
  q _ := fullShare
  owed _ := (K (F := F)).Otc c 1
  recorded _ := {p | (K (F := F)).lev (T c, p.1) p.2 ≤ 8}

/-- What the body finds: the inputs' buffers just fetched — the block inside the array, anything beyond —, -/
theorem before_0 (c : Dev nD) (t : Fin cfg1.N) (d) :
    (datT m t0 0 c).before (0 : Fin 3) t d = win1_0.fill (grid1.coords t) d (xblk m c t) := by
  unfold Dat.before; rw [if_pos (fetch1_0 t)]; rfl
theorem before_1 (c : Dev nD) (t : Fin cfg1.N) (d) :
    (datT m t0 0 c).before (1 : Fin 3) t d = win1_1.fill (grid1.coords t) d (yblk m c t) := by
  unfold Dat.before; rw [if_pos (fetch1_1 t)]; rfl
/-- the scalar's cell at anything at the first point, -/
theorem before_2_zero (c : Dev nD) (t : Fin cfg1.N) (h : t.val = 0) (d) : (datT m t0 0 c).before (2 : Fin 3) t d = d :=
  Dat.before_out_reset _ (2 : Fin 3) rfl t (.inl h) d
/-- and at the running difference after t batches at a later one (it is written back after the last point only). -/
theorem before_2_pos (c : Dev nD) (t : Fin cfg1.N) (h : t.val ≠ 0) (d) :
    (datT m t0 0 c).before (2 : Fin 3) t d = fun _ => accT m c t.val := by
  have hN : t.val < 8 := lt_of_lt_of_eq t.isLt (show cfg1.N = 8 from N_1)
  rw [Dat.before_out_kept _ (2 : Fin 3) rfl t h (Bool.eq_false_iff.mpr fun hf => by have := (flush1_2 _).mp hf; dsimp only at this; omega)
    (fun _ => rfl) (fun _ _ => rfl)]
  dsimp only [datT]
  rw [Nat.sub_add_cancel (Nat.pos_of_ne_zero h)]

end Cert.Kernel.Hand

end
-- ==== Proof.K.TCRun.lean ====
/-
  The TensorCore body, run once on symbolic whole staging memrefs: it loads the two input blocks whole, at the first grid
  point zeroes the 1 x 1 cell, and stores to the cell its content minus the block's masked sum, as the payload spells it.
-/
import proofs.«209113_g38259568672962_cont_8to1_b_1629_19_alg».proof.Proof.K.Common
import Idealize.ShloMosaic.Lib.Pipeline.Frame
import Idealize.ShloMosaic.Lib.WholeRead

noncomputable section

namespace Cert.Kernel.Hand

open Cert.Kernel Cert.Kernel.Gen Cert.Kernel.GenP

open Idealize.ShloMosaic Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

variable (m : (ℓ : Loc nD τ sig) → Buf (Elt F) ℓ)

/-- The body's test for the first grid point, as printed. -/
abbrev tcCond (i : grid1.Coords) : Prop :=
  Scalar.cmpi CmpIPredicate.ne (Scalar.extui (Scalar.andi (Scalar.cmpi CmpIPredicate.eq (BitVec.ofNat 32 (i 0).val) 0#32)
    (Scalar.cmpi CmpIPredicate.eq (BitVec.ofNat 32 (i 1).val) 0#32))) 0#32 = 1#1

/-- It holds at the first batch only. -/
theorem tcCond_iff (i : grid1.Coords) : tcCond i ↔ (i 0).val = 0 := by
  have h0 : (i 0).val < 8 := (i 0).isLt
  have h1 : (i 1).val = 0 := by have := (i 1).isLt; have e : grid1.bound 1 = 1 := rfl; omega
  unfold tcCond; rw [h1]
  generalize (i 0).val = n at h0
  interval_cases n <;> decide

theorem sound_body_first (c : Dev nD) (E : Set ℕ) (i : grid1.Coords) (hi : (i 0).val = 0)
    (arg2 : Memref sig .tc .vmem S1x96x224x128 .f32) (harg2 : arg2.IsWhole) (arg3 : Memref sig .tc .vmem S1x224x128 .i32) (harg3 : arg3.IsWhole)
    (arg4 : Memref sig .tc .smem S1x1 .f32) (harg4 : arg4.IsWhole)
    (X0 : Vec F S1x96x224x128 .f32) (X1 : Vec F S1x224x128 .i32) (X2 : Vec F S1x1 .f32) (Kk : PUnit → sProp 𝕄) :
    iprop(owns (T c) arg2 fullShare X0 ∗ owns (T c) arg3 fullShare X1 ∗ owns (T c) arg4 fullShare X2
        ∗ (iprop(owns (T c) arg2 fullShare X0 ∗ owns (T c) arg3 fullShare X1
            ∗ owns (T c) arg4 fullShare (fun _ => k1_pay1 (k1_pay2 X1) (k1_pay3 X0 X1) (k1_pay4 X1) (Scalar.ofBits .f32 0#32))) -∗ Kk ⟨⟩))
      ⊢ wp frame (wpE (defs₀ (F := F)) Variants.none (T c) none) E (cc1__tc_body i arg2 harg2 arg3 harg3 arg4 harg4) Kk := by
  have hc : tcCond i := (tcCond_iff i).mpr hi
  simp only [cc1__tc_body_eq_skeleton]; unfold cc1__tc_body_skel
  simp only [k1_part1_eq_skeleton]; unfold k1_part1_skel
  unfold owns
  iintro ⟨⟨%f0, %hf0, H0⟩, ⟨%f1, %hf1, H1⟩, ⟨%f2, %hf2, H2⟩, Hk⟩
  obtain rfl := harg2.eq_unread hf0; obtain rfl := harg3.eq_unread hf1; obtain rfl := harg4.eq_unread hf2
  sl_exec (disch := first | exact hc)
  sl_step
  iapply Hk
  have hz4 : ∀ a : Fin 4, (![0, 0, 0, 0] : Fin 4 → ℕ) a = 0 := by decide
  have hz3 : ∀ a : Fin 3, (![0, 0, 0] : Fin 3 → ℕ) a = 0 := by decide
  have hr0 : View.readAt (Elt F) arg2.view (Rect.unit ![0, 0, 0, 0] S1x96x224x128.size inb_S1x96x224x128_S1x96x224x128_0_0_0_0).toLoadRect (harg2.unread X0) = X0 := by
    funext j; rw [harg2.readAt_unread]; congr 1; funext a; apply Fin.ext
    show (![0, 0, 0, 0] : Fin 4 → ℕ) a + 1 * (j a).val = (j a).val; rw [hz4 a]; omega
  have hr1 : View.readAt (Elt F) arg3.view (Rect.unit ![0, 0, 0] S1x224x128.size inb_S1x224x128_S1x224x128_0_0_0).toLoadRect (harg3.unread X1) = X1 := by
    funext j; rw [harg3.readAt_unread]; congr 1; funext a; apply Fin.ext
    show (![0, 0, 0] : Fin 3 → ℕ) a + 1 * (j a).val = (j a).val; rw [hz3 a]; omega
  have hcov : ∀ y : S1x1.Idx, y ∈ (Rect.unit (s := S1x1) ![0, 0] ![1, 1] inb_S1x1_S1x1_0_0).set := fun y => by
    rw [Rect.mem_set_unit]; intro a
    have h := (y a).isLt
    have hs : S1x1.size a = 1 := by fin_cases a <;> rfl
    have ho : (![0, 0] : Fin 2 → ℕ) a = 0 := by fin_cases a <;> rfl
    have h1 : (![1, 1] : Fin 2 → ℕ) a = 1 := by fin_cases a <;> rfl
    rw [ho, h1]; omega
  rw [hr0, hr1]
  isplitl [H0]
  · iexists _; isplitr; · ipureintro; exact hf0
    iexact H0
  isplitl [H1]
  · iexists _; isplitr; · ipureintro; exact hf1
    iexact H1
  iexists _; isplitr; swap; · iexact H2
  ipureintro
  funext y
  obtain ⟨x, rfl⟩ := (Rect.unit (s := S1x1) ![0, 0] ![1, 1] inb_S1x1_S1x1_0_0).exists_idx_of_mem (hcov y)
  refine (View.read_writes_cons_emb arg4.view _ (Rect.unit (s := S1x1) ![0, 0] ![1, 1] inb_S1x1_S1x1_0_0) _ _ x).trans ?_
  show k1_pay1 _ _ _ _ = k1_pay1 _ _ _ _
  unfold sound_body_first.sl.r_1
  rfl

theorem sound_body_later (c : Dev nD) (E : Set ℕ) (i : grid1.Coords) (hi : (i 0).val ≠ 0)
    (arg2 : Memref sig .tc .vmem S1x96x224x128 .f32) (harg2 : arg2.IsWhole) (arg3 : Memref sig .tc .vmem S1x224x128 .i32) (harg3 : arg3.IsWhole)
    (arg4 : Memref sig .tc .smem S1x1 .f32) (harg4 : arg4.IsWhole)
    (X0 : Vec F S1x96x224x128 .f32) (X1 : Vec F S1x224x128 .i32) (old : Elt F .f32) (Kk : PUnit → sProp 𝕄) :
    iprop(owns (T c) arg2 fullShare X0 ∗ owns (T c) arg3 fullShare X1 ∗ owns (T c) arg4 fullShare (fun _ => old)
        ∗ (iprop(owns (T c) arg2 fullShare X0 ∗ owns (T c) arg3 fullShare X1
            ∗ owns (T c) arg4 fullShare (fun _ => k1_pay1 (k1_pay2 X1) (k1_pay3 X0 X1) (k1_pay4 X1) old)) -∗ Kk ⟨⟩))
      ⊢ wp frame (wpE (defs₀ (F := F)) Variants.none (T c) none) E (cc1__tc_body i arg2 harg2 arg3 harg3 arg4 harg4) Kk := by
  have hc : ¬tcCond i := fun h => hi ((tcCond_iff i).mp h)
  simp only [cc1__tc_body_eq_skeleton]; unfold cc1__tc_body_skel
  simp only [k1_part1_eq_skeleton]; unfold k1_part1_skel
  unfold owns
  iintro ⟨⟨%f0, %hf0, H0⟩, ⟨%f1, %hf1, H1⟩, ⟨%f2, %hf2, H2⟩, Hk⟩
  obtain rfl := harg2.eq_unread hf0; obtain rfl := harg3.eq_unread hf1; obtain rfl := harg4.eq_unread hf2
  sl_exec (disch := first | exact hc)
  sl_step
  iapply Hk
  have hz4 : ∀ a : Fin 4, (![0, 0, 0, 0] : Fin 4 → ℕ) a = 0 := by decide
  have hz3 : ∀ a : Fin 3, (![0, 0, 0] : Fin 3 → ℕ) a = 0 := by decide
  have hr0 : View.readAt (Elt F) arg2.view (Rect.unit ![0, 0, 0, 0] S1x96x224x128.size inb_S1x96x224x128_S1x96x224x128_0_0_0_0).toLoadRect (harg2.unread X0) = X0 := by
    funext j; rw [harg2.readAt_unread]; congr 1; funext a; apply Fin.ext
    show (![0, 0, 0, 0] : Fin 4 → ℕ) a + 1 * (j a).val = (j a).val; rw [hz4 a]; omega
  have hr1 : View.readAt (Elt F) arg3.view (Rect.unit ![0, 0, 0] S1x224x128.size inb_S1x224x128_S1x224x128_0_0_0).toLoadRect (harg3.unread X1) = X1 := by
    funext j; rw [harg3.readAt_unread]; congr 1; funext a; apply Fin.ext
    show (![0, 0, 0] : Fin 3 → ℕ) a + 1 * (j a).val = (j a).val; rw [hz3 a]; omega
  have hcov : ∀ y : S1x1.Idx, y ∈ (Rect.unit (s := S1x1) ![0, 0] ![1, 1] inb_S1x1_S1x1_0_0).set := fun y => by
    rw [Rect.mem_set_unit]; intro a
    have h := (y a).isLt
    have hs : S1x1.size a = 1 := by fin_cases a <;> rfl
    have ho : (![0, 0] : Fin 2 → ℕ) a = 0 := by fin_cases a <;> rfl
    have h1 : (![1, 1] : Fin 2 → ℕ) a = 1 := by fin_cases a <;> rfl
    rw [ho, h1]; omega
  rw [hr0, hr1]
  isplitl [H0]
  · iexists _; isplitr; · ipureintro; exact hf0
    iexact H0
  isplitl [H1]
  · iexists _; isplitr; · ipureintro; exact hf1
    iexact H1
  iexists _; isplitr; swap; · iexact H2
  ipureintro
  funext y
  obtain ⟨x, rfl⟩ := (Rect.unit (s := S1x1) ![0, 0] ![1, 1] inb_S1x1_S1x1_0_0).exists_idx_of_mem (hcov y)
  refine (View.read_writes_cons_emb arg4.view _ (Rect.unit (s := S1x1) ![0, 0] ![1, 1] inb_S1x1_S1x1_0_0) _ _ x).trans ?_
  show k1_pay1 _ _ _ _ = k1_pay1 _ _ _ _
  unfold sound_body_later.sl.r
  rw [harg4.readAt_unread]

end Cert.Kernel.Hand

end
-- ==== Proof.K.TCAux.lean ====
/-
  What a clipped fetch leaves in the two input staging blocks of the TensorCore call, read at a lane below 96. The
  blocks of the scores and of the labels sit at column block 1 of their arrays: lane j of a block stands for column
  128 + j, and only the lanes j < 96 lie inside the 224 columns; a fetch moves exactly those, so at such a lane the
  staged block holds the array's entry, whatever the block held before.
-/
import proofs.«209113_g38259568672962_cont_8to1_b_1629_19_alg».proof.Proof.K.Common

noncomputable section

namespace Cert.Kernel.Hand

open Cert.Kernel Cert.Kernel.Gen
open Idealize.ShloMosaic
open Idealize.ShloMosaic.Pipeline (Window)

variable {F : FTy → Type}

/-- The part of a block of the scores a transfer moves: all of it but the last 32 lanes. -/
theorem xsize1_0 : ∀ (t : Fin cfg1.N) a, win1_0.xsize (grid1.coords t) a = (![1, 96, 224, 96] : Fin 4 → ℕ) a :=
  (by decide +kernel : ∀ (t : Fin grid1.N) a, win1_0.xsize (grid1.coords t) a = (![1, 96, 224, 96] : Fin 4 → ℕ) a)
/-- The block index of the scores at point t: batch t, column block 1. -/
theorem index1_0 : ∀ (t : Fin cfg1.N) a, win1_0.index t a = (![t.val, 0, 0, 1] : Fin 4 → ℕ) a :=
  (by decide +kernel : ∀ (t : Fin grid1.N) a, win1_0.index t a = (![t.val, 0, 0, 1] : Fin 4 → ℕ) a)
/-- The labels' likewise. -/
theorem xsize1_1 : ∀ (t : Fin cfg1.N) a, win1_1.xsize (grid1.coords t) a = (![1, 224, 96] : Fin 3 → ℕ) a :=
  (by decide +kernel : ∀ (t : Fin grid1.N) a, win1_1.xsize (grid1.coords t) a = (![1, 224, 96] : Fin 3 → ℕ) a)
theorem index1_1 : ∀ (t : Fin cfg1.N) a, win1_1.index t a = (![t.val, 0, 1] : Fin 3 → ℕ) a :=
  (by decide +kernel : ∀ (t : Fin grid1.N) a, win1_1.index t a = (![t.val, 0, 1] : Fin 3 → ℕ) a)

theorem xfill_at (c : Dev nD) (x : Buf (Elt F) (xLoc c)) (t : Fin cfg1.N) (d : S1x96x224x128.Idx → Elt F .f32) (i : S1x96x224x128.Idx) (hi : (i 3).val < 96) :
    win1_0.fill (grid1.coords t) d ((win1_0.blk t).view.read (Elt F) x) i = x (Cert.Spec.ixX t.val (i 1).val (i 2).val (128 + (i 3).val)) := by
  have hm : win1_0.moved (grid1.coords t) i = true := (win1_0.moved_iff _ _).mpr fun a => by
    rw [xsize1_0 t a]
    match a with
    | ⟨0, _⟩ => exact (i 0).isLt
    | ⟨1, _⟩ => exact (i 1).isLt
    | ⟨2, _⟩ => exact (i 2).isLt
    | ⟨3, _⟩ => exact hi
  unfold Window.fill
  rw [dif_pos hm, View.read_apply]
  rw [cast_eq]
  refine congrArg x ?_
  funext a; apply Fin.ext
  show ((win1_0.rect t).emb _ a : ℕ) = _
  rw [Rect.emb_apply]
  show win1_0.index t a * win1_0.size a + 1 * (i a).val = _
  rw [index1_0 t a]
  have ht : t.val < 8 := t.isLt
  have h0 : (i 0).val < 1 := (i 0).isLt
  have h1 : (i 1).val < 96 := (i 1).isLt
  have h2 : (i 2).val < 224 := (i 2).isLt
  match a with
  | ⟨0, _⟩ => show t.val * 1 + 1 * (i 0).val = t.val % 8; omega
  | ⟨1, _⟩ => show 0 * 96 + 1 * (i 1).val = (i 1).val % 96; omega
  | ⟨2, _⟩ => show 0 * 224 + 1 * (i 2).val = (i 2).val % 224; omega
  | ⟨3, _⟩ => show 1 * 128 + 1 * (i 3).val = (128 + (i 3).val) % 224; omega

theorem yfill_at (c : Dev nD) (y : Buf (Elt F) (yLoc c)) (t : Fin cfg1.N) (d : S1x224x128.Idx → Elt F .i32) (i : S1x224x128.Idx) (hi : (i 2).val < 96) :
    win1_1.fill (grid1.coords t) d ((win1_1.blk t).view.read (Elt F) y) i = y (Cert.Spec.ixY t.val (i 1).val (128 + (i 2).val)) := by
  have hm : win1_1.moved (grid1.coords t) i = true := (win1_1.moved_iff _ _).mpr fun a => by
    rw [xsize1_1 t a]
    match a with
    | ⟨0, _⟩ => exact (i 0).isLt
    | ⟨1, _⟩ => exact (i 1).isLt
    | ⟨2, _⟩ => exact hi
  unfold Window.fill
  rw [dif_pos hm, View.read_apply, cast_eq]
  refine congrArg y ?_
  funext a; apply Fin.ext
  show ((win1_1.rect t).emb _ a : ℕ) = _
  rw [Rect.emb_apply]
  show win1_1.index t a * win1_1.size a + 1 * (i a).val = _
  rw [index1_1 t a]
  have ht : t.val < 8 := t.isLt
  have h0 : (i 0).val < 1 := (i 0).isLt
  have h1 : (i 1).val < 224 := (i 1).isLt
  match a with
  | ⟨0, _⟩ => show t.val * 1 + 1 * (i 0).val = t.val % 8; omega
  | ⟨1, _⟩ => show 0 * 224 + 1 * (i 1).val = (i 1).val % 224; omega
  | ⟨2, _⟩ => show 1 * 128 + 1 * (i 2).val = (128 + (i 2).val) % 224; omega

end Cert.Kernel.Hand

end
-- ==== Proof.K.TCBlock.lean ====
/-
  The value the TensorCore body computes at one grid point, as a pure function of the two staging blocks it loads.

  The body holds a 96 x 224 x 128 block of scores (lane j stands for column 128 + j; the lanes from 96 on hold padding) and a
  224 x 128 block of labels. A tree of selects on the label picks, position by position, one of the 96 channels: two signed
  comparisons (label >= 32, label >= 64) choose one of the three 32-channel thirds, and the label's bits 16, 8, 4, 2, 1 each
  halve what is left. We follow the tree block by block with one invariant (`Rd`): on the lanes below 96, channel c of the
  block is channel base + c of the scores, where the base depends on the label at the position; a slice along the channels
  adds its offset to the base and a select on a condition of the position chooses between two bases. At the last block the base
  is a function of the label word alone (`base1`), and for a label below 96 it is the label (checked over the 96 words). The last
  select sets the lanes from 96 on to zero without reading what the tree left there, so nothing is asked of the padding. The
  masked block is then the specification's block of selected scores, and the body's sum and subtraction are the
  specification's.
-/
import proofs.«209113_g38259568672962_cont_8to1_b_1629_19_alg».proof.Proof.SkeletonKernelP
import proofs.«209113_g38259568672962_cont_8to1_b_1629_19_alg».proof.Proof.Spec
import Idealize.ShloMosaic.Lib.ValueIdx
import Idealize.ShloMosaic.Lib.ValueLayout
import Idealize.ShloMosaic.Lib.Pipeline.Value

noncomputable section

namespace Cert.Kernel.Hand

open Cert.Kernel Cert.Kernel.Gen Cert.Kernel.GenP

open Idealize.ShloMosaic Idealize.ShloMosaic.ValueIdx

/-! ## Layout operations of the selection tree, read at an index -/

section Layout
variable {α : Type} {p q : ℕ}

/-- A slice along the leading axis reads the operand `k` channels further on. -/
theorem sliceLead_apply {m n : ℕ} (k : ℕ) (A : (⟨3, ![m, p, q]⟩ : Shape).Idx → α)
    (h : (⟨3, ![m, p, q]⟩ : Shape).Slices ![k, 0, 0] ⟨3, ![n, p, q]⟩) (j : (⟨3, ![n, p, q]⟩ : Shape).Idx)
    (hk : k + (j 0).val < m) :
    extractStridedSlice ⟨3, ![n, p, q]⟩ ![k, 0, 0] A h j = A (ix3 ⟨k + (j 0).val, hk⟩ (j 1) (j 2)) := by
  refine extractStridedSlice_apply _ A h j _ fun a => ?_
  match a with
  | ⟨0, _⟩ => rfl
  | ⟨1, _⟩ => exact (Nat.zero_add _).symm
  | ⟨2, _⟩ => exact (Nat.zero_add _).symm

/-- A condition on the (row, lane) plane, given a leading unit axis and broadcast along the channels, reads its plane. -/
theorem condBcast_apply {n : ℕ} (c : (⟨2, ![p, q]⟩ : Shape).Idx → α)
    (hsc : (⟨2, ![p, q]⟩ : Shape).ShapeCasts ⟨3, ![1, p, q]⟩)
    (hb : (⟨3, ![1, p, q]⟩ : Shape).Broadcasts ⟨3, ![n, p, q]⟩) (hp : p ≠ 1) (hq : q ≠ 1)
    (j : (⟨3, ![n, p, q]⟩ : Shape).Idx) :
    broadcastTo ⟨3, ![n, p, q]⟩ (shapeCast ⟨3, ![1, p, q]⟩ c hsc) hb j = c (ix2 (j 1) (j 2)) := by
  refine (broadcastTo_apply _ hb j (ix3 ⟨0, Nat.one_pos⟩ (j 1) (j 2)) fun a => ?_).trans ?_
  · match a with
    | ⟨0, _⟩ => rfl
    | ⟨1, _⟩ => exact (if_neg hp).symm
    | ⟨2, _⟩ => exact (if_neg hq).symm
  · refine (shapeCast_addUnit_apply ![p, q] c hsc _).trans (congrArg c ?_)
    funext a
    match a with
    | ⟨0, _⟩ => rfl
    | ⟨1, _⟩ => rfl

/-- The same condition with the unit axis only. -/
theorem condUnit_apply (c : (⟨2, ![p, q]⟩ : Shape).Idx → α)
    (hsc : (⟨2, ![p, q]⟩ : Shape).ShapeCasts ⟨3, ![1, p, q]⟩) (j : (⟨3, ![1, p, q]⟩ : Shape).Idx) :
    shapeCast ⟨3, ![1, p, q]⟩ c hsc j = c (ix2 (j 1) (j 2)) := by
  refine (shapeCast_addUnit_apply ![p, q] c hsc _).trans (congrArg c ?_)
  funext a
  match a with
  | ⟨0, _⟩ => rfl
  | ⟨1, _⟩ => rfl

/-- A block with a leading unit axis, viewed without it, reads the block at leading coordinate 0. -/
theorem dropUnit2_apply (v : (⟨3, ![1, p, q]⟩ : Shape).Idx → α)
    (hsc : (⟨3, ![1, p, q]⟩ : Shape).ShapeCasts ⟨2, ![p, q]⟩) (j : (⟨2, ![p, q]⟩ : Shape).Idx) :
    shapeCast ⟨2, ![p, q]⟩ v hsc j = v (ix3 ⟨0, Nat.one_pos⟩ (j 0) (j 1)) := by
  refine (shapeCast_dropUnit_apply ![p, q] v hsc j).trans (congrArg v ?_)
  funext a
  match a with
  | ⟨0, _⟩ => rfl
  | ⟨1, _⟩ => rfl
  | ⟨2, _⟩ => rfl

/-- The same one rank higher. -/
theorem dropUnit3_apply {c : ℕ} (v : (⟨4, ![1, c, p, q]⟩ : Shape).Idx → α)
    (hsc : (⟨4, ![1, c, p, q]⟩ : Shape).ShapeCasts ⟨3, ![c, p, q]⟩) (j : (⟨3, ![c, p, q]⟩ : Shape).Idx) :
    shapeCast ⟨3, ![c, p, q]⟩ v hsc j = v (ix4 ⟨0, Nat.one_pos⟩ (j 0) (j 1) (j 2)) := by
  refine (shapeCast_dropUnit_apply ![c, p, q] v hsc j).trans (congrArg v ?_)
  funext a
  match a with
  | ⟨0, _⟩ => rfl
  | ⟨1, _⟩ => rfl
  | ⟨2, _⟩ => rfl
  | ⟨3, _⟩ => rfl

end Layout

/-! ## A block of channels that reads a channel family from a base channel on -/

section Reads
variable {α : Type} {p q : ℕ}

/-- On the (row, lane) positions `P` allows, channel `c` of the block `A` is channel `base + c` of the family `G`,
    where the base may depend on the position. -/
def Rd (G : ℕ → Fin p → Fin q → α) (P : Fin p → Fin q → Prop) (m : ℕ) (A : (⟨3, ![m, p, q]⟩ : Shape).Idx → α)
    (base : Fin p → Fin q → ℕ) : Prop :=
  ∀ j : (⟨3, ![m, p, q]⟩ : Shape).Idx, P (j 1) (j 2) → A j = G (base (j 1) (j 2) + (j 0).val) (j 1) (j 2)

variable {G : ℕ → Fin p → Fin q → α} {P : Fin p → Fin q → Prop}

/-- A slice of such a block along the channels moves the base. -/
theorem Rd.slice {m n : ℕ} {A : (⟨3, ![m, p, q]⟩ : Shape).Idx → α} {base : Fin p → Fin q → ℕ} (hA : Rd G P m A base)
    (k : ℕ) (h : (⟨3, ![m, p, q]⟩ : Shape).Slices ![k, 0, 0] ⟨3, ![n, p, q]⟩) :
    Rd G P n (extractStridedSlice ⟨3, ![n, p, q]⟩ ![k, 0, 0] A h) (fun r l => base r l + k) := by
  intro j hj
  have hkn : k + n ≤ m := h.2 (0 : Fin 3)
  have hj0 : (j 0).val < n := (j 0).isLt
  have hlt : k + (j 0).val < m := by omega
  refine (sliceLead_apply k A h j hlt).trans ((hA _ hj).trans ?_)
  exact congrArg (fun t => G t (j 1) (j 2)) (Nat.add_assoc _ _ _).symm

/-- A select between two such blocks, on a condition of the position only, selects the base. -/
theorem Rd.select {n : ℕ} {X Y : (⟨3, ![n, p, q]⟩ : Shape).Idx → α} {bx bY : Fin p → Fin q → ℕ}
    (hX : Rd G P n X bx) (hY : Rd G P n Y bY) (c : IVec ⟨3, ![n, p, q]⟩ 1) (cb : Fin p → Fin q → BitVec 1)
    (hc : ∀ j, c j = cb (j 1) (j 2)) :
    Rd G P n (Idealize.ShloMosaic.select c X Y) (fun r l => if cb r l = 1#1 then bx r l else bY r l) := by
  intro j hj
  by_cases h1 : cb (j 1) (j 2) = 1#1
  · have e1 : Idealize.ShloMosaic.select c X Y j = X j := by rw [select_apply, hc j, h1, select_one]
    refine e1.trans ((hX j hj).trans ?_)
    exact congrArg (fun t => G (t + (j 0).val) (j 1) (j 2)) (if_pos h1).symm
  · have e1 : Idealize.ShloMosaic.select c X Y j = Y j := by rw [select_apply, hc j, eq_zero_of_ne_one h1, select_zero]
    refine e1.trans ((hY j hj).trans ?_)
    exact congrArg (fun t => G (t + (j 0).val) (j 1) (j 2)) (if_neg h1).symm

end Reads

/-! ## The label word: which channel the tree of selects arrives at -/

section Word

/-- The first channel of the 32-channel third a label falls in, as the two signed comparisons choose it. -/
def base32 (w : BitVec 32) : ℕ :=
  if IntOp.cmpi .sge w 64#32 = 1#1 then 0 + 64 else if IntOp.cmpi .sge w 32#32 = 1#1 then 0 + 32 else 0 + 0

/-- One halving: the upper half (`k` channels on) when the label has the bit `K`, the lower half otherwise. -/
def halve (K : BitVec 32) (k : ℕ) (w : BitVec 32) (base : ℕ) : ℕ :=
  if IntOp.cmpi .sgt (IntOp.andi w K) 0#32 = 1#1 then base + k else base + 0

/-- The base channel after the halvings by 16 and by 8. -/
def base8 (w : BitVec 32) : ℕ := halve 8#32 8 w (halve 16#32 16 w (base32 w))

/-- The channel after all five halvings. -/
def base1 (w : BitVec 32) : ℕ := halve 1#32 1 w (halve 2#32 2 w (halve 4#32 4 w (base8 w)))

theorem base1_ofNat : ∀ n : Fin 96, base1 (BitVec.ofNat 32 n.val) = n.val := by decide

/-- A label below 96 arrives at its own channel. -/
theorem base1_eq (w : BitVec 32) (h : w.toNat < 96) : base1 w = w.toNat := by
  have key : base1 (BitVec.ofNat 32 w.toNat) = w.toNat := base1_ofNat ⟨w.toNat, h⟩
  rwa [show BitVec.ofNat 32 w.toNat = w by simp] at key

end Word

/-! ## The tree of selects of the body, block by block -/

section Tree
variable {F : FTy → Type} [FloatOps F]
variable (x : FVec F Cert.Spec.SX .f32) (b : ℕ) (v0 : Vec F S1x96x224x128 .f32) (v2 : Vec F S1x224x128 .i32)

/-- Channel `c`, row `r`, column `128 + l` of batch `b` of the scores. -/
def chan (c : ℕ) (r : Fin 224) (l : Fin 128) : F .f32 := x (Cert.Spec.ixX b c r.val (128 + l.val))

/-- The lanes that stand for a column. -/
def lane96 (_ : Fin 224) (l : Fin 128) : Prop := l.val < 96

/-- The label word the body holds for row `r`, lane `l`. -/
def lbl (r : Fin 224) (l : Fin 128) : BitVec 32 := v2 (ix3 ⟨0, Nat.one_pos⟩ r l)

/-- The labels without their unit axis, at an index. -/
theorem pay2_apply (j : S224x128.Idx) : k1_pay2 v2 j = lbl v2 (j 0) (j 1) :=
  dropUnit2_apply v2 shapeCasts_S1x224x128_S224x128 j

/-- The condition "the label is at least `K`", broadcast along the channels, at an index. -/
theorem geCond_apply (K : BitVec 32) {n : ℕ} (hb : S1x224x128.Broadcasts ⟨3, ![n, 224, 128]⟩) (j : (⟨3, ![n, 224, 128]⟩ : Shape).Idx) :
    broadcastTo ⟨3, ![n, 224, 128]⟩ (shapeCast S1x224x128 (shapeCast S1x224x128 (cmpi .sge (k1_pay2 v2) (broadcast S224x128 K))
      shapeCasts_S224x128_S1x224x128) shapeCasts_S1x224x128_S1x224x128) hb j = IntOp.cmpi .sge (lbl v2 (j 1) (j 2)) K := by
  rw [shapeCast_self, condBcast_apply _ _ hb (by decide) (by decide) j]
  show IntOp.cmpi .sge (k1_pay2 v2 (ix2 (j 1) (j 2))) K = _
  rw [pay2_apply]

/-- The condition "the label has the bit `K`", broadcast along the channels, at an index. -/
theorem bitCond_apply (K : BitVec 32) {n : ℕ} (hb : S1x224x128.Broadcasts ⟨3, ![n, 224, 128]⟩) (j : (⟨3, ![n, 224, 128]⟩ : Shape).Idx) :
    broadcastTo ⟨3, ![n, 224, 128]⟩ (shapeCast S1x224x128 (cmpi .sgt (andi (k1_pay2 v2) (broadcast S224x128 K)) (broadcast S224x128 0#32))
      shapeCasts_S224x128_S1x224x128) hb j = IntOp.cmpi .sgt (IntOp.andi (lbl v2 (j 1) (j 2)) K) 0#32 := by
  rw [condBcast_apply _ _ hb (by decide) (by decide) j]
  show IntOp.cmpi .sgt (IntOp.andi (k1_pay2 v2 (ix2 (j 1) (j 2))) K) 0#32 = _
  rw [pay2_apply]

/-- The same condition with the unit axis only. -/
theorem bitCondUnit_apply (K : BitVec 32) (j : S1x224x128.Idx) :
    shapeCast S1x224x128 (cmpi .sgt (andi (k1_pay2 v2) (broadcast S224x128 K)) (broadcast S224x128 0#32))
      shapeCasts_S224x128_S1x224x128 j = IntOp.cmpi .sgt (IntOp.andi (lbl v2 (j 1) (j 2)) K) 0#32 := by
  rw [condUnit_apply _ _ j]
  show IntOp.cmpi .sgt (IntOp.andi (k1_pay2 v2 (ix2 (j 1) (j 2))) K) 0#32 = _
  rw [pay2_apply]

variable (h0 : ∀ i : S1x96x224x128.Idx, (i 3).val < 96 → v0 i = x (Cert.Spec.ixX b (i 1).val (i 2).val (128 + (i 3).val)))
include h0

/-- The 96 channels of the staging block, on the lanes that stand for a column. -/
theorem v1_rd : Rd (chan x b) lane96 96 (shapeCast S96x224x128 v0 shapeCasts_S1x96x224x128_S96x224x128) (fun _ _ => 0) := by
  intro j hj
  have hl : (j 2).val < 96 := hj
  refine (dropUnit3_apply v0 _ j).trans ((h0 (ix4 ⟨0, Nat.one_pos⟩ (j 0) (j 1) (j 2)) hl).trans ?_)
  exact congrArg (fun t => x (Cert.Spec.ixX b t (j 1).val (128 + (j 2).val))) (Nat.zero_add _).symm

/-- The 8 channels the first four levels of the tree leave. -/
theorem pay3_rd : Rd (chan x b) lane96 8 (k1_pay3 v0 v2) (fun r l => base8 (lbl v2 r l)) := by
  have h1 := v1_rd x b v0 h0
  have h17 := Rd.select (h1.slice 32 slices_S96x224x128_o32_0_0_S32x224x128) (h1.slice 0 slices_S96x224x128_o0_0_0_S32x224x128) _
    (fun r l => IntOp.cmpi .sge (lbl v2 r l) 32#32) (geCond_apply v2 32#32 broadcasts_S1x224x128_S32x224x128)
  have h18 := Rd.select (h1.slice 64 slices_S96x224x128_o64_0_0_S32x224x128) h17 _
    (fun r l => IntOp.cmpi .sge (lbl v2 r l) 64#32) (geCond_apply v2 64#32 broadcasts_S1x224x128_S32x224x128)
  have h27 := Rd.select (h18.slice 16 slices_S32x224x128_o16_0_0_S16x224x128) (h18.slice 0 slices_S32x224x128_o0_0_0_S16x224x128) _
    (fun r l => IntOp.cmpi .sgt (IntOp.andi (lbl v2 r l) 16#32) 0#32) (bitCond_apply v2 16#32 broadcasts_S1x224x128_S16x224x128)
  have h36 := Rd.select (h27.slice 8 slices_S16x224x128_o8_0_0_S8x224x128) (h27.slice 0 slices_S16x224x128_o0_0_0_S8x224x128) _
    (fun r l => IntOp.cmpi .sgt (IntOp.andi (lbl v2 r l) 8#32) 0#32) (bitCond_apply v2 8#32 broadcasts_S1x224x128_S8x224x128)
  exact h36

end Tree

/-! ## The masked block and the body's value -/

section Block
variable {F : FTy → Type} [FloatOps F]
variable (x : FVec F Cert.Spec.SX .f32) (y : IVec Cert.Spec.SY 32) (b : ℕ) (v0 : Vec F S1x96x224x128 .f32) (v2 : Vec F S1x224x128 .i32)

/-- The last select of the body: the lanes from 96 on are set to the float zero. -/
def maskLanes (v62 : FVec F S1x224x128 .f32) : FVec F S1x224x128 .f32 :=
  select (cmpi .slt (iota .tc S1x224x128 32 [2] iota_S1x224x128_d2_w32) (broadcast S1x224x128 96#32)) v62
    (broadcast S1x224x128 (Scalar.ofBits .f32 0x00000000#32))

theorem lane_slt : ∀ l : Fin 128, IntOp.cmpi .slt (BitVec.ofNat 32 l.val) 96#32 = if l.val < 96 then 1#1 else 0#1 := by decide

/-- The lane condition at an index. -/
theorem laneCond_apply (j : S1x224x128.Idx) :
    cmpi .slt (iota .tc S1x224x128 32 [2] iota_S1x224x128_d2_w32) (broadcast S1x224x128 96#32) j
      = if (j 2).val < 96 then 1#1 else 0#1 := by
  show IntOp.cmpi .slt (iota .tc S1x224x128 32 [2] iota_S1x224x128_d2_w32 j) 96#32 = _
  rw [iota_single_apply]
  exact lane_slt (j 2)

/-- The masked block is the block of selected scores. -/
theorem mask_eq (v62 : FVec F S1x224x128 .f32) (h62 : Rd (chan x b) lane96 1 v62 (fun r l => base1 (lbl v2 r l)))
    (hy : ∀ j : Cert.Spec.SY.Idx, (y j).toNat < 96)
    (h2 : ∀ i : S1x224x128.Idx, (i 2).val < 96 → v2 i = y (Cert.Spec.ixY b (i 1).val (128 + (i 2).val))) :
    maskLanes v62 = Cert.Spec.tcW x y b := by
  funext j
  unfold maskLanes
  rw [select_apply, laneCond_apply]
  by_cases hl : (j 2).val < 96
  · have hj0 : (j 0).val = 0 := Nat.lt_one_iff.1 (j 0).isLt
    have hw : lbl v2 (j 1) (j 2) = y (Cert.Spec.ixY b (j 1).val (128 + (j 2).val)) :=
      h2 (ix3 ⟨0, Nat.one_pos⟩ (j 1) (j 2)) hl
    rw [if_pos hl, select_one, h62 j hl]
    unfold Cert.Spec.tcW
    rw [if_pos hl]
    unfold Cert.Spec.pick
    have e : base1 (lbl v2 (j 1) (j 2)) + (j 0).val = (y (Cert.Spec.ixY b (j 1).val (128 + (j 2).val))).toNat := by
      rw [hw, base1_eq _ (hy _), hj0, Nat.add_zero]
    exact congrArg (fun t => x (Cert.Spec.ixX b t (j 1).val (128 + (j 2).val))) e
  · rw [if_neg hl, select_zero]
    unfold Cert.Spec.tcW
    rw [if_neg hl]
    rfl

end Block

section Value
variable {F : FTy → Type} [FloatOps F]

/-- What the body stores: the old scalar less the sum of the block of selected scores. -/
theorem tc_block_value (x : FVec F Cert.Spec.SX .f32) (y : IVec Cert.Spec.SY 32) (b : ℕ)
    (hy : ∀ j : Cert.Spec.SY.Idx, (y j).toNat < 96)
    (v0 : Vec F S1x96x224x128 .f32) (v2 : Vec F S1x224x128 .i32)
    (h0 : ∀ i : S1x96x224x128.Idx, (i 3).val < 96 → v0 i = x (Cert.Spec.ixX b (i 1).val (i 2).val (128 + (i 3).val)))
    (h2 : ∀ i : S1x224x128.Idx, (i 2).val < 96 → v2 i = y (Cert.Spec.ixY b (i 1).val (128 + (i 2).val)))
    (old : Elt F .f32) :
    k1_pay1 (k1_pay2 v2) (k1_pay3 v0 v2) (k1_pay4 v2) old = Scalar.subf old (Cert.Spec.tcTerm x y b) := by
  have h36 := pay3_rd x b v0 v2 h0
  have h45 := Rd.select (h36.slice 4 slices_S8x224x128_o4_0_0_S4x224x128) (h36.slice 0 slices_S8x224x128_o0_0_0_S4x224x128) (k1_pay4 v2)
    (fun r l => IntOp.cmpi .sgt (IntOp.andi (lbl v2 r l) 4#32) 0#32) (bitCond_apply v2 4#32 broadcasts_S1x224x128_S4x224x128)
  have h54 := Rd.select (h45.slice 2 slices_S4x224x128_o2_0_0_S2x224x128) (h45.slice 0 slices_S4x224x128_o0_0_0_S2x224x128) _
    (fun r l => IntOp.cmpi .sgt (IntOp.andi (lbl v2 r l) 2#32) 0#32) (bitCond_apply v2 2#32 broadcasts_S1x224x128_S2x224x128)
  have h62 := Rd.select (h54.slice 1 slices_S2x224x128_o1_0_0_S1x224x128) (h54.slice 0 slices_S2x224x128_o0_0_0_S1x224x128) _
    (fun r l => IntOp.cmpi .sgt (IntOp.andi (lbl v2 r l) 1#32) 0#32) (bitCondUnit_apply v2 1#32)
  have hblk := mask_eq x y b v2 _ h62 hy h2
  have key := congrArg (fun W => Scalar.subf old (extractAt ![0, 0, 0, 0] (shapeCast S1x1x1x1 (multiReduction .add [1, 2, 3] S1
    (shapeCast S1x1x224x128 W shapeCasts_S1x224x128_S1x1x224x128) 0x00000000#32 reduces_S1x1x224x128_S1 (.inl rfl) rfl)
    shapeCasts_S1_S1x1x1x1) inpos_S1x1x1x1_p0_0_0_0)) hblk
  exact key

end Value

end Cert.Kernel.Hand

end
-- ==== Proof.K.TCBody.lean ====
/-
  The body obligation of the TensorCore's pipeline: at every grid point the body, run on the point's staging buffers as
  the pipeline hands them over (the two inputs just fetched: the block inside the array, anything beyond; the 1 x 1 cell
  at anything at the first point, at the running difference after), leaves the inputs as they were and the cell at the
  next running difference — its content minus the batch's term, which is what the payload computes from the two blocks.
-/
import proofs.«209113_g38259568672962_cont_8to1_b_1629_19_alg».proof.Proof.K.TCData
import proofs.«209113_g38259568672962_cont_8to1_b_1629_19_alg».proof.Proof.K.TCRun
import proofs.«209113_g38259568672962_cont_8to1_b_1629_19_alg».proof.Proof.K.TCAux
import proofs.«209113_g38259568672962_cont_8to1_b_1629_19_alg».proof.Proof.K.TCBlock

noncomputable section

namespace Cert.Kernel.Hand

open Cert.Kernel Cert.Kernel.Gen Cert.Kernel.GenP

open Idealize.ShloMosaic Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

variable (m : (ℓ : Loc nD τ sig) → Buf (Elt F) ℓ)

variable (t0 : (c : Dev nD) → Buf (Elt F) (tLoc c))

/-- The first coordinate of a grid point is the point's number: the batch. -/
theorem coords_0 (t : Fin cfg1.N) : (grid1.coords t 0).val = t.val := by
  rcases fin_N1 t with rfl | rfl | rfl | rfl | rfl | rfl | rfl | rfl <;> rfl

/-- What the payload computes from the two staged blocks at point t and the cell's content: the content minus batch t's
    term — the select tree picks, at every lane inside the array, the score the label names, and masks the lanes beyond. -/
theorem pay_at (hy : YOK m) (c : Dev nD) (t : Fin cfg1.N) (d0 : S1x96x224x128.Idx → Elt F .f32) (d1 : S1x224x128.Idx → Elt F .i32) (old : Elt F .f32) :
    k1_pay1 (k1_pay2 (win1_1.fill (grid1.coords t) d1 (yblk m c t))) (k1_pay3 (win1_0.fill (grid1.coords t) d0 (xblk m c t)) (win1_1.fill (grid1.coords t) d1 (yblk m c t)))
        (k1_pay4 (win1_1.fill (grid1.coords t) d1 (yblk m c t))) old
      = Scalar.subf old (Cert.Spec.tcTerm (m (xLoc c)) (m (yLoc c)) t.val) :=
  tc_block_value (m (xLoc c)) (m (yLoc c)) t.val (fun j => hy c j) _ _
    (fun i hi => xfill_at c (m (xLoc c)) t d0 i hi) (fun i hi => yfill_at c (m (yLoc c)) t d1 i hi) old

/-- The library's body obligation: the inputs' buffers arrive just fetched, the cell at anything (first point) or at the
    running difference; the body leaves the inputs as they were and the cell at the next running difference. -/
theorem body_obligation (hy : YOK m) (c : Dev nD) :
    BodyObligationLoose (datT m t0 0 c) (defs₀ (F := F)) Variants.none (none : HIx 1) Set.univ := fun t => by
  rw [bigSep_W1, bigSep_W1]
  simp only
  rw [show (datT m t0 0 c).Φ t.succ = (datT m t0 0 c).Φ t.castSucc from rfl,
    show (datT m t0 0 c).owesAt (none : HIx 1) t.succ = (datT m t0 0 c).owesAt (none : HIx 1) t.castSucc from rfl]
  iintro ⟨HΦ, Ho, ⟨%d0, H0⟩, ⟨%d1, H1⟩, ⟨%d2, H2⟩⟩
  rw [before_0 m t0 c t d0, before_1 m t0 c t d1]
  have hx : win1_0.cut (grid1.coords t) ((datT m t0 0 c).after (0 : Fin 3) t) = xblk m c t := win1_0.cut_fill _ _ _
  have hyb : win1_1.cut (grid1.coords t) ((datT m t0 0 c).after (1 : Fin 3) t) = yblk m c t := win1_1.cut_fill _ _ _
  by_cases h0 : t.val = 0
  · rw [before_2_zero m t0 c t h0 d2]
    iapply (sound_body_first (F := F) c Set.univ (grid1.coords t) ((coords_0 t).trans h0) _ _ _ _ _ _
      (win1_0.fill (grid1.coords t) d0 (xblk m c t)) (win1_1.fill (grid1.coords t) d1 (yblk m c t)) d2 _)
    isplitl [H0]; · iexact H0
    isplitl [H1]; · iexact H1
    isplitl [H2]; · iexact H2
    iintro ⟨H0, H1, H2⟩
    isplitl [HΦ]; · iexact HΦ
    isplitl [Ho]; · iexact Ho
    isplitl [H0]
    · iexists d0
      change _ ⊢ owns (T c) (stage1_0 (cfg1.slots t 0)) fullShare (win1_0.fill (grid1.coords t) d0 (win1_0.cut (grid1.coords t) ((datT m t0 0 c).after (0 : Fin 3) t)))
      rw [hx]; try iexact H0
    isplitl [H1]
    · iexists d1
      change _ ⊢ owns (T c) (stage1_1 (cfg1.slots t 1)) fullShare (win1_1.fill (grid1.coords t) d1 (win1_1.cut (grid1.coords t) ((datT m t0 0 c).after (1 : Fin 3) t)))
      rw [hyb]; try iexact H1
    · rw [pay_at m hy c t d0 d1]
      have e : (datT m t0 0 c).after (2 : Fin 3) t
          = fun _ => Scalar.subf (FloatOps.ofBits .f32 0#32) (Cert.Spec.tcTerm (m (xLoc c)) (m (yLoc c)) t.val) := by
        dsimp only [datT]; rw [h0]; rfl
      rw [e]; try iexact H2
  · rw [before_2_pos m t0 c t h0 d2]
    iapply (sound_body_later (F := F) c Set.univ (grid1.coords t) (fun h => h0 ((coords_0 t).symm.trans h)) _ _ _ _ _ _
      (win1_0.fill (grid1.coords t) d0 (xblk m c t)) (win1_1.fill (grid1.coords t) d1 (yblk m c t)) (accT m c t.val) _)
    isplitl [H0]; · iexact H0
    isplitl [H1]; · iexact H1
    isplitl [H2]; · iexact H2
    iintro ⟨H0, H1, H2⟩
    isplitl [HΦ]; · iexact HΦ
    isplitl [Ho]; · iexact Ho
    isplitl [H0]
    · iexists d0
      change _ ⊢ owns (T c) (stage1_0 (cfg1.slots t 0)) fullShare (win1_0.fill (grid1.coords t) d0 (win1_0.cut (grid1.coords t) ((datT m t0 0 c).after (0 : Fin 3) t)))
      rw [hx]; try iexact H0
    isplitl [H1]
    · iexists d1
      change _ ⊢ owns (T c) (stage1_1 (cfg1.slots t 1)) fullShare (win1_1.fill (grid1.coords t) d1 (win1_1.cut (grid1.coords t) ((datT m t0 0 c).after (1 : Fin 3) t)))
      rw [hyb]; try iexact H1
    · rw [pay_at m hy c t d0 d1]
      have e : (datT m t0 0 c).after (2 : Fin 3) t
          = fun _ => Scalar.subf (accT m c t.val) (Cert.Spec.tcTerm (m (xLoc c)) (m (yLoc c)) t.val) := by
        dsimp only [datT]; rfl
      rw [e]; try iexact H2

end Cert.Kernel.Hand

end
-- ==== Proof.K.TCFinal.lean ====
/-
  The arrays after the eight grid points of the TensorCore call, as the pipeline's bookkeeping computes them: the two
  inputs are never written back, so they hold what the region found; the 1 x 1 scalar is written back after the last point
  only, with the running difference after all eight batches.
-/
import proofs.«209113_g38259568672962_cont_8to1_b_1629_19_alg».proof.Proof.K.TCData

noncomputable section

namespace Cert.Kernel.Hand

open Cert.Kernel Cert.Kernel.Gen Cert.Kernel.GenP

open Idealize.ShloMosaic Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

variable (m : (ℓ : Loc nD τ sig) → Buf (Elt F) ℓ)

variable (t0 : (c : Dev nD) → Buf (Elt F) (tLoc c))

/-- The scalar's block is the one cell at every point. -/
theorem xsize1_2 : ∀ (t : Fin cfg1.N) a, win1_2.xsize (grid1.coords t) a = (![1, 1] : Fin 2 → ℕ) a :=
  (by decide +kernel : ∀ (t : Fin grid1.N) a, win1_2.xsize (grid1.coords t) a = (![1, 1] : Fin 2 → ℕ) a)
/-- Its one index. -/
def z2 (t : Fin cfg1.N) : (win1_2.xblock (grid1.coords t)).Idx := fun a =>
  ⟨0, by
    show 0 < win1_2.xsize (grid1.coords t) a
    rw [xsize1_2 t a]
    match a with
    | ⟨0, _⟩ => exact Nat.one_pos
    | ⟨1, _⟩ => exact Nat.one_pos⟩

theorem arrAt_x (c : Dev nD) : (datT m t0 0 c).arrAt (0 : Fin 3) cfg1.N = m (xLoc c) :=
  (datT m t0 0 c).arrAt_in (0 : Fin 3) rfl _
theorem arrAt_y (c : Dev nD) : (datT m t0 0 c).arrAt (1 : Fin 3) cfg1.N = m (yLoc c) :=
  (datT m t0 0 c).arrAt_in (1 : Fin 3) rfl _

/-- Below the last point nothing is written back to the scalar's array. -/
theorem arrAt_t_lt (c : Dev nD) : ∀ n, n ≤ 7 → (datT m t0 0 c).arrAt (2 : Fin 3) n = t0 c
  | 0, _ => rfl
  | n + 1, h => by
    have hn : n < cfg1.N := by rw [show cfg1.N = 8 from N_1]; omega
    rw [show n + 1 = (⟨n, hn⟩ : Fin cfg1.N).val + 1 from rfl, Dat.arrAt_succ,
      if_neg (fun hf => by have := (flush1_2 _).mp hf; dsimp only at this; omega)]
    exact arrAt_t_lt c n (by omega)

theorem arrAt_t (c : Dev nD) : (datT m t0 0 c).arrAt (2 : Fin 3) cfg1.N = Cert.Spec.tcOut (m (xLoc c)) (m (yLoc c)) := by
  have h7 : (7 : ℕ) < cfg1.N := by rw [show cfg1.N = 8 from N_1]; omega
  rw [show cfg1.N = (⟨7, h7⟩ : Fin cfg1.N).val + 1 from N_1, Dat.arrAt_succ, if_pos ((flush1_2 _).mpr rfl)]
  funext i
  have hi : i = ((cfg1.win 2).blk ⟨7, h7⟩).view.emb (z2 ⟨7, h7⟩) := by
    funext a; apply Fin.ext
    have h1 : (i a).val < 1 := by
      have := (i a).isLt
      match a with
      | ⟨0, _⟩ => exact this
      | ⟨1, _⟩ => exact this
    have h2 : ((((cfg1.win 2).blk ⟨7, h7⟩).view.emb (z2 ⟨7, h7⟩)) a).val < 1 := by
      have := ((((cfg1.win 2).blk ⟨7, h7⟩).view.emb (z2 ⟨7, h7⟩)) a).isLt
      match a with
      | ⟨0, _⟩ => exact this
      | ⟨1, _⟩ => exact this
    omega
  rw [hi, View.write_emb_of_mem _ _ (Finset.mem_univ _), cast_eq]
  rfl

end Cert.Kernel.Hand

end
-- ==== Proof.K.TCReg.lean ====
/-
  The TensorCore's pallas_call as a kernel region: the thread states it is entered from and leaves, and the record of its
  obligations — the layout, the body obligation, the wait evidence (the TensorCore owes nothing then), and the entry and exit
  entailments that hand the three arrays to the pipeline and take them back at their final contents.
-/
import proofs.«209113_g38259568672962_cont_8to1_b_1629_19_alg».proof.Proof.K.TCBody
import proofs.«209113_g38259568672962_cont_8to1_b_1629_19_alg».proof.Proof.K.TCFinal

noncomputable section

namespace Cert.Kernel.Hand

open Cert.Kernel Cert.Kernel.Gen Cert.Kernel.GenP

open Idealize.ShloMosaic Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

variable (m : (ℓ : Loc nD τ sig) → Buf (Elt F) ℓ)

variable (t0 : (c : Dev nD) → Buf (Elt F) (tLoc c))

/-- After the one SparseCore call the TensorCore owes no handshake unit. -/
theorem Otc_one (c : Dev nD) : (K (F := F)).Otc c 1 = 0 := by
  unfold SparseCore.Cfg.Otc
  exact Finset.sum_eq_zero fun q _ => if_neg (by have := q.isLt; omega)

/-- The thread state the region is entered from: what the TensorCore owes (nothing), its recorded pairs at the levels of the
    first handshake; the scores and labels whole; the scalar at what it holds. -/
def preT (c : Dev nD) : sProp 𝕄 :=
  iprop((∃ W, ⌜(K (F := F)).WBelow (T c) W 8⌝ ∗ owes (T c) ((K (F := F)).Otc c 1) W)
    ∗ (xLoc c ↦{fullShare} m (xLoc c)) ∗ (yLoc c ↦{fullShare} m (yLoc c)) ∗ (tLoc c ↦{fullShare} t0 c))

/-- The one it leaves: the same, the scalar at the running difference after the eight batches. -/
def postT (c : Dev nD) : sProp 𝕄 :=
  iprop((∃ W, ⌜(K (F := F)).WBelow (T c) W 8⌝ ∗ owes (T c) ((K (F := F)).Otc c 1) W)
    ∗ (xLoc c ↦{fullShare} m (xLoc c)) ∗ (yLoc c ↦{fullShare} m (yLoc c))
    ∗ (tLoc c ↦{fullShare} Cert.Spec.tcOut (m (xLoc c)) (m (yLoc c))))

set_option backward.isDefEq.respectTransparency.types false in
/-- The region: the windows' layout facts, no semaphore of the kernel's own, the body obligation; the three arrays into the
    pipeline, nothing into the invariant, nothing bypassing. -/
def regT (hy : YOK m) {lv : GSem nD τ sig → HIx 1 → ℕ} (hlv : (K (F := F)).Refines lv) :
    Pipeline.RegionSeg (pcfgs (F := F)) adm (datT m t0) (none : HIx 1) defs₀ 𝒱₀ (K (F := F)).L lv 0 where
  win := launch1.win.to₀
  block_pos := launch1.block_pos
  stage_whole := launch1.stage_whole
  K := PEmpty
  osem := fun k => k.elim
  ho := Pipeline.OwnSemFacts.none _
  hbody c := body_obligation m t0 hy c
  hwaits := Pipeline.hwaits_of_owed_zero _ _ _ _ (K (F := F)).L lv 0 fun c _ => Otc_one c
  pre c := preT m t0 c
  post c := postT m c
  X _ := iprop(emp)
  Y _ := iprop(emp)
  Z _ := iprop(emp)
  hentry c := by
    unfold preT
    have harr := Pipeline.arrays_eq cfgs (datT m t0) (0 : Fin 1) c launch1.arr_whole ((datT m t0 0 c).share_full fun _ => rfl)
      (fun w => (datT m t0 0 c).arrAt w 0)
    iintro ⟨⟨⟨%W, %hW, HO⟩, Hx, Hy, Ht⟩, -, -⟩
    imodintro
    isplitl [Hx Hy Ht]
    · iapply (Entails.of_eq harr.symm)
      rw [bigSep_W1]
      isplitl [Hx]; · iexact Hx
      isplitl [Hy]; · iexact Hy
      iexact Ht
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr <;> iempintro
  hin c := by iintro -; iempintro
  hout c := by
    rw [scopedRest1_eq, Pipeline.ownSems0_none]
    iintro -; isplitr; · iempintro
    isplitr <;> iempintro
  hexit c := by
    unfold postT
    have harr := Pipeline.arrays_eq cfgs (datT m t0) (0 : Fin 1) c launch1.arr_whole ((datT m t0 0 c).share_full fun _ => rfl)
      (fun w => (datT m t0 0 c).arrAt w cfg1.N)
    rw [bigSep_W1] at harr
    have harr' := Entails.of_eq harr
    iintro ⟨Ha, HO, -, -⟩
    ihave Ha' := harr' $$ Ha
    icases Ha' with ⟨Hx, Hy, Ht⟩
    imodintro
    isplitl [HO]
    · unfold Pipeline.Dat.owesAt Pipeline.owesWithin
      icases HO with ⟨%W, %hW, HO⟩
      iexists W; isplitr; swap; · iexact HO
      ipureintro
      intro p hp
      rcases hW hp with h | ⟨w, s, rfl⟩
      · exact h
      · exact Nat.zero_le _
    rw [arrAt_x m t0 c, arrAt_y m t0 c, arrAt_t m t0 c]
    isplitl [Hx]; · iexact Hx
    isplitl [Hy]; · iexact Hy
    iexact Ht

end Cert.Kernel.Hand

end
-- ==== Proof.K.TC.lean ====
/-
  The TensorCore's pallas_call as a kernel region of the SparseCore program, on the TensorCore thread under the extended
  body table: from the scores x and the labels y whole, the 1 x 1 scalar at any contents, the region boundary, the level
  facts and the pipeline's share of the launch element, the call runs to the scalar at the running difference after the
  eight batches, x and y unchanged, the boundary back, and the thread owing what it owed.
-/
import proofs.«209113_g38259568672962_cont_8to1_b_1629_19_alg».proof.Proof.K.TCGhost
import proofs.«209113_g38259568672962_cont_8to1_b_1629_19_alg».proof.Proof.K.TCReg

noncomputable section

namespace Cert.Kernel.Hand

open Cert.Kernel Cert.Kernel.Gen Cert.Kernel.GenP

open Idealize.ShloMosaic Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

variable (m : (ℓ : Loc nD τ sig) → Buf (Elt F) ℓ)

set_option backward.isDefEq.respectTransparency.types false in
/-- The region in the certificate's own signature: the pipeline's entry call, from the entry state, the boundary, the level
    facts and the cells' ghost state, to the boundary and the exit state. -/
theorem wp_region (t0 : (c : Dev nD) → Buf (Elt F) (tLoc c)) (hy : YOK m) (d : Dev nD) {lv : GSem nD τ sig → HIx 1 → ℕ} (hlv : (K (F := F)).Refines lv)
    (Φ : PUnit.{1} → sProp 𝕄) :
    iprop((iprop(boundary (T d) ∗ postT m d) -∗ wp frame (wpE (D (F := F)) 𝒱 (T d) none) Set.univ (.ret PUnit.unit) Φ)
        ∗ boundary (T d) ∗ preT m t0 d ∗ levAts (K (F := F)).L lv ∗ GT d)
      ⊢ wp frame (wpE (D (F := F)) 𝒱 (T d) none) Set.univ (.op (.customCall (Pipeline.entry (0 : Fin 1)) ()) fun _ => .ret PUnit.unit) Φ := by
  have h := Pipeline.RegionSeg.wp (pcfgs (F := F)) adm (datT m t0) (none : HIx 1) Gen.cellOf_inj (EP (F := F)) defs₀ 𝒱₀
    (K (F := F)).L lv (regT m t0 hy hlv) d none (fun u hu => nomatch hu) (α := PUnit.{1}) (fun _ => .ret PUnit.unit) Φ
  exact h

set_option backward.isDefEq.respectTransparency.types false in
theorem wp_tc (hy : YOK m) (d : Dev nD) {lv : GSem nD τ sig → HIx 1 → ℕ} (hlv : (K (F := F)).Refines lv)
    (W : Waits sig (HIx 1)) (hW : (K (F := F)).WBelow (T d) W 8) (t0 : Buf (Elt F) (tLoc d)) (Φ : PUnit → sProp 𝕄) :
    iprop(GT d ∗ boundary (T d) ∗ levAts (K (F := F)).L lv ∗ owes (T d) ((K (F := F)).Otc d 1) W
        ∗ (xLoc d ↦{fullShare} m (xLoc d)) ∗ (yLoc d ↦{fullShare} m (yLoc d)) ∗ (tLoc d ↦{fullShare} t0)
        ∗ (iprop(boundary (T d) ∗ (∃ W', ⌜(K (F := F)).WBelow (T d) W' 8⌝ ∗ owes (T d) ((K (F := F)).Otc d 1) W')
              ∗ (xLoc d ↦{fullShare} m (xLoc d)) ∗ (yLoc d ↦{fullShare} m (yLoc d))
              ∗ (tLoc d ↦{fullShare} Cert.Spec.tcOut (m (xLoc d)) (m (yLoc d)))) -∗ Φ ⟨⟩))
      ⊢ wp frame (wpE ((K (F := F)).defs (D (F := F))) 𝒱 (SparseCore.T d) none) Set.univ
          (Prog.lift (.customCall (SparseCore.inner (Pipeline.entry 0)) ())) Φ := by
  -- the scalar's contents on every device (there is one)
  let t0' : (c : Dev nD) → Buf (Elt F) (tLoc c) := fun c => (Subsingleton.elim d c) ▸ t0
  have ht0 : t0' d = t0 := rfl
  have hlift := (K (F := F)).wp_liftProg (D (F := F)) 𝒱 (T d) Set.univ none
    (.op (.customCall (Pipeline.entry (0 : Fin 1)) ()) fun _ => .ret PUnit.unit) Φ
  refine BIBase.Entails.trans ?_ hlift
  refine BIBase.Entails.trans ?_ (wp_region m t0' hy d hlv Φ)
  iintro ⟨HG, Hb, Hlev, HO, Hx, Hy, Ht, Hk⟩
  isplitl [Hk]
  · iintro ⟨Hb, Hp⟩
    rw [wp_ret]; imodintro
    iapply Hk
    isplitl [Hb]; · iexact Hb
    unfold postT
    iexact Hp
  isplitl [Hb]; · iexact Hb
  isplitl [HO Hx Hy Ht]
  · unfold preT
    isplitl [HO]
    · iexists W; isplitr; · ipureintro; exact hW
      iexact HO
    isplitl [Hx]; · iexact Hx
    isplitl [Hy]; · iexact Hy
    rw [ht0]; iexact Ht
  isplitl [Hlev]; · iexact Hlev
  iexact HG

/-- info: 'Cert.Kernel.Hand.wp_tc' depends on axioms: [propext, Classical.choice, Quot.sound] -/
#guard_msgs in #print axioms wp_tc

end Cert.Kernel.Hand

end
-- ==== Proof.K.Launch.lean ====
/-
  The launch of the whole program: the launch element of the ghost state (the handshakes' rounds, and the pipeline's
  cells for the one TensorCore call), @main on the TensorCore — the SparseCore call handing x, y and the lane totals to
  the two SparseCores and taking them back with the totals at the specification's, the TensorCore call leaving the scalar
  at the specification's, then the host's four operations — and how the final memory reads the claim.
-/
import proofs.«209113_g38259568672962_cont_8to1_b_1629_19_alg».proof.Proof.K.Tail
import proofs.«209113_g38259568672962_cont_8to1_b_1629_19_alg».proof.Proof.K.SCPay
import proofs.«209113_g38259568672962_cont_8to1_b_1629_19_alg».proof.Proof.K.TC

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The launch element -/

def u₀ : UU := (initOf (K (F := F)).hsCells (K (F := F)).hsToks, (uP, 1))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => GT (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave HR' := (show (BI.own (embR ((uP, 1) : UP × Counters)) : sProp 𝕄) ⊢ BI.own (EP (F := F) uP) from Entails.of_eq rfl) $$ HR
  imod (fundT (F := F)) $$ HR' with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- The launch valuation. -/
def V0 (d : Dev nD) : Valuation τ sig (Elt F) := fun b => m (d, b)
/-- After the two calls: the lane totals and the scalar at the specification's. -/
def V1 (d : Dev nD) : Valuation τ sig (Elt F) :=
  Function.update (Function.update (V0 m d) o' (Cert.Spec.scOut (m (xLoc d)) (m (yLoc d)) : Buf (Elt F) (oLoc d)))
    t' (Cert.Spec.tcOut (m (xLoc d)) (m (yLoc d)) : Buf (Elt F) (tLoc d))

theorem V1_x (d : Dev nD) : V1 m d x' = m (xLoc d) :=
  (Function.update_of_ne (show x' ≠ t' by decide) _ _).trans (Function.update_of_ne (show x' ≠ o' by decide) _ _)
theorem V1_y (d : Dev nD) : V1 m d y' = m (yLoc d) :=
  (Function.update_of_ne (show y' ≠ t' by decide) _ _).trans (Function.update_of_ne (show y' ≠ o' by decide) _ _)
theorem V1_o (d : Dev nD) : V1 m d o' = (Cert.Spec.scOut (m (xLoc d)) (m (yLoc d)) : Buf (Elt F) (oLoc d)) :=
  (Function.update_of_ne (show o' ≠ t' by decide) _ _).trans (Function.update_self _ _ _)
theorem V1_t (d : Dev nD) : V1 m d t' = (Cert.Spec.tcOut (m (xLoc d)) (m (yLoc d)) : Buf (Elt F) (tLoc d)) := Function.update_self _ _ _
theorem V1_c (d : Dev nD) : V1 m d c' = V0 m d c' :=
  (Function.update_of_ne (show c' ≠ t' by decide) _ _).trans (Function.update_of_ne (show c' ≠ o' by decide) _ _)
theorem V1_r2 (d : Dev nD) : V1 m d r2' = V0 m d r2' :=
  (Function.update_of_ne (show r2' ≠ t' by decide) _ _).trans (Function.update_of_ne (show r2' ≠ o' by decide) _ _)
theorem V1_r3 (d : Dev nD) : V1 m d r3' = V0 m d r3' :=
  (Function.update_of_ne (show r3' ≠ t' by decide) _ _).trans (Function.update_of_ne (show r3' ≠ o' by decide) _ _)
theorem V1_r4 (d : Dev nD) : V1 m d r4' = V0 m d r4' :=
  (Function.update_of_ne (show r4' ≠ t' by decide) _ _).trans (Function.update_of_ne (show r4' ≠ o' by decide) _ _)

/-- The arguments keep their contents over the host's operations, and the result is the specification's value. -/
theorem VT_x (d : Dev nD) : (opAdd (F := F)).result ((opCast (F := F)).result ((opSum (F := F)).result ((opC (F := F)).result (V1 m d)))) x' = m (xLoc d) := by
  show StableHlo.after [opC (F := F), opSum, opCast, opAdd] (V1 m d) x' = _
  after_results
  exact V1_x m d
theorem VT_y (d : Dev nD) : (opAdd (F := F)).result ((opCast (F := F)).result ((opSum (F := F)).result ((opC (F := F)).result (V1 m d)))) y' = m (yLoc d) := by
  show StableHlo.after [opC (F := F), opSum, opCast, opAdd] (V1 m d) y' = _
  after_results
  exact V1_y m d
theorem VT_r4 (d : Dev nD) : (opAdd (F := F)).result ((opCast (F := F)).result ((opSum (F := F)).result ((opC (F := F)).result (V1 m d)))) r4' = (Cert.Spec.kernelVal (m (xLoc d)) (m (yLoc d)) : Buf (Elt F) ((SparseCore.T d).loc main_v4)) := by
  show StableHlo.after [opC (F := F), opSum, opCast, opAdd] (V1 m d) r4' = _
  after_results
  rw [V1_o, V1_t]
  rfl

/-- What @main leaves the claim: the arguments at their launch contents, the result at the specification's value. -/
def FIN (d : Dev nD) : sProp 𝕄 :=
  iprop((xLoc d ↦{fullShare} m (xLoc d)) ∗ (yLoc d ↦{fullShare} m (yLoc d))
    ∗ ((SparseCore.T d).loc main_v4 ↦{fullShare} (Cert.Spec.kernelVal (m (xLoc d)) (m (yLoc d)) : Buf (Elt F) ((SparseCore.T d).loc main_v4))))

/-- The TensorCore's handshake state before call 1 is its debts beside the rest. -/
theorem tcSt_one (d : Dev nD) : ∃ R : sProp 𝕄, (K (F := F)).tcSt EH d 1
    = iprop((∃ W, ⌜(K (F := F)).WBelow (T d) W (8 * 1)⌝ ∗ owes (T d) ((K (F := F)).Otc d 1) W) ∗ R) := ⟨_, by unfold SparseCore.Cfg.tcSt; rfl⟩

theorem hmain (hy : YOK m) (κ : GSem nD τ sig → ℕ) (d : Dev nD) :
    iprop((K (F := F)).ctx EH (P m) κ ∗ (K (F := F)).tcSt EH d 0 ∗ (K (F := F)).tcRes m ρ d ∗ GT (F := F) d)
      ⊢ wp frame (wpE ((K (F := F)).defs (D (F := F))) 𝒱 (SparseCore.T d) none) Set.univ (main d)
          fun _ => iprop((K (F := F)).tcSt EH d 1 ∗ FIN m d) := by
  obtain ⟨R, hR⟩ := tcSt_one (F := F) d
  unfold SparseCore.Cfg.tcRes
  rw [unscopedBufs_eq]
  simp only [main, wp_bind, wp_pure]
  iintro ⟨#Hctx, Hst, ⟨Hb, ⟨Hx, Hy, Ho, Ht, Hc, H2, H3, H4⟩, Hsems, Hprng⟩, HG⟩
  -- the SparseCore call: x, y and the lane totals to the two SparseCores and back
  iapply ((K (F := F)).wp_run (D (F := F)) 𝒱 (EH := EH) (P := P m) κ d 0) $$ [Hst Hx Hy Ho Ht Hc H2 H3 H4 Hb Hsems HG]
  isplitr; · iexact Hctx
  isplitl [Hst]; · iexact Hst
  isplitl [Hx Hy Ho]
  · iapply (st_intro m d)
    isplitl [Hx]; · iexact Hx
    isplitl [Hy]; · iexact Hy
    iexact Ho
  iintro ⟨Hst, Hdn⟩
  ihave Hdn' := (dn_elim m d) $$ Hdn
  icases Hdn' with ⟨Hx, Hy, Ho⟩
  -- the TensorCore call: the scalar from x and y
  have hR' : (K (F := F)).tcSt EH d ((0 : Fin 1).val + 1) = _ := hR
  ihave Hst' := (Entails.of_eq hR') $$ Hst
  icases Hst' with ⟨⟨%W, %hW, HO⟩, HR⟩
  ihave Hlev := (SparseCore.Cfg.ctx_levAts (K := K (F := F)) (EH := EH) (P := P m) κ) $$ Hctx
  iapply (wp_tc m hy d (lv := (K (F := F)).lev) (by sl_refines_lev) W hW (m (tLoc d)) _) $$ [HG Hb Hlev HO Hx Hy Ht Ho Hc H2 H3 H4 HR Hsems]
  isplitl [HG]; · iexact HG
  isplitl [Hb]; · iexact Hb
  isplitl [Hlev]; · iexact Hlev
  isplitl [HO]; · iexact HO
  isplitl [Hx]; · iexact Hx
  isplitl [Hy]; · iexact Hy
  isplitl [Ht]; · iexact Ht
  iintro ⟨Hb, HO, Hx, Hy, Ht⟩
  -- the host's four operations over the eight arrays
  ihave Hheld := (Entails.of_eq (held_S8 (F := F) d (V1 m d)).symm) $$ [Hx Hy Ho Ht Hc H2 H3 H4]
  · rw [V1_x, V1_y, V1_o, V1_t, V1_c, V1_r2, V1_r3, V1_r4]
    isplitl [Hx]; · iexact Hx
    isplitl [Hy]; · iexact Hy
    isplitl [Ho]; · iexact Ho
    isplitl [Ht]; · iexact Ht
    isplitl [Hc]; · iexact Hc
    isplitl [H2]; · iexact H2
    isplitl [H3]; · iexact H3
    iexact H4
  iapply (wp_hlo_within 𝒱 (SparseCore.T d) none Set.univ (op := opC) (S := S8) hC (V := V1 m d)) $$ [Hb Hheld]
  · isplitl [Hb]; · iexact Hb
    iexact Hheld
  iintro ⟨Hb, Hheld⟩
  rw [wp_ret]; imodintro
  iapply (wp_hlo_within 𝒱 (SparseCore.T d) none Set.univ (op := opSum) (S := S8) hSum (V := (opC (F := F)).result (V1 m d))) $$ [Hb Hheld]
  · isplitl [Hb]; · iexact Hb
    iexact Hheld
  iintro ⟨Hb, Hheld⟩
  rw [wp_ret]; imodintro
  iapply (wp_hlo_within 𝒱 (SparseCore.T d) none Set.univ (op := opCast) (S := S8) hCast (V := (opSum (F := F)).result ((opC (F := F)).result (V1 m d)))) $$ [Hb Hheld]
  · isplitl [Hb]; · iexact Hb
    iexact Hheld
  iintro ⟨Hb, Hheld⟩
  rw [wp_ret]; imodintro
  iapply (wp_hlo_within 𝒱 (SparseCore.T d) none Set.univ (op := opAdd) (S := S8) hAdd (V := (opCast (F := F)).result ((opSum (F := F)).result ((opC (F := F)).result (V1 m d))))) $$ [Hb Hheld]
  · isplitl [Hb]; · iexact Hb
    iexact Hheld
  iintro ⟨Hb, Hheld⟩
  rw [wp_ret]; imodintro; imodintro
  isplitl [HO HR]
  · iapply (Entails.of_eq hR.symm)
    isplitl [HO]; · iexact HO
    iexact HR
  ihave Hh := (Entails.of_eq (held_S8 (F := F) d _)) $$ Hheld
  icases Hh with ⟨Hx, Hy, -, -, -, -, -, H4⟩
  unfold FIN
  rw [VT_x m d, VT_y m d, VT_r4 m d]
  isplitl [Hx]; · iexact Hx
  isplitl [Hy]; · iexact Hy
  iexact H4

/-! ## The claim read off the final memory -/

def fq (d : Dev nD) (s' : Phys nD τ sig (Elt F)) : Prop :=
  s'.mem.mem (xLoc d) = m (xLoc d) ∧ s'.mem.mem (yLoc d) = m (yLoc d)
    ∧ s'.mem.mem ((SparseCore.T d).loc main_v4) = (Cert.Spec.kernelVal (m (xLoc d)) (m (yLoc d)) : Buf (Elt F) ((SparseCore.T d).loc main_v4))

theorem hfin (d : Dev nD) (s' : Phys nD τ sig (Elt F)) : iprop(FIN m d ∗ SI s') ⊢ (⌜fq m d s'⌝ : sProp 𝕄) := by
  unfold FIN
  iintro ⟨⟨Hx, Hy, H4⟩, HSI⟩
  icombine HSI Hx gives %hx
  icombine HSI Hy gives %hy
  icombine HSI H4 gives %h4
  ipureintro
  exact ⟨funext fun i => hx i (Finset.mem_univ i), funext fun i => hy i (Finset.mem_univ i), funext fun i => h4 i (Finset.mem_univ i)⟩

end Cert.Kernel.Hand

end
-- ==== Proof.K.SCViews.lean ====
/-
  One vector subcore's task: the thread it runs on, the memrefs its body names, the three semaphores of its own copies and
  its three scratch buffers among the subcore's own, the slices it copies (the block of labels, a band of scores, its row
  of the lane totals) and what the scratches hold once a copy has landed: the source's slice read through the slice's view.
-/
import proofs.«209113_g38259568672962_cont_8to1_b_1629_19_alg».proof.Proof.K.SCPay

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

section Tile

variable (d : Dev nD) (L : grid0.Coords)

/-- The vector subcore the task at grid coordinates L runs on. -/
abbrev cV (L : grid0.Coords) : Fin τ.nSC := (L 0).castLE hcore0
abbrev jV (L : grid0.Coords) : Fin τ.nSub := (L 1).castLE hsub0
abbrev thrV (d : Dev nD) (L : grid0.Coords) : Thread nD τ := V d (cV L) (jV L)

-- the kernel's memrefs, spelt as the body table passes them
local notation "xW" => (Memref.whole Cert.Kernel.main_arg0_scv : Memref Cert.Kernel.sig Kind.scVector Space.hbm Cert.Kernel.S8x96x224x224 EltTy.f32)
local notation "yW" => (Memref.whole Cert.Kernel.main_arg1_scv : Memref Cert.Kernel.sig Kind.scVector Space.hbm Cert.Kernel.S8x224x224 EltTy.i32)
local notation "oW" => (Memref.whole Cert.Kernel.main_v0_scv : Memref Cert.Kernel.sig Kind.scVector Space.hbm Cert.Kernel.S32x16 EltTy.f32)
local notation "sY" => (Memref.whole Cert.Kernel.cc0_scratch0 : Memref Cert.Kernel.sig Kind.scVector Space.vmem Cert.Kernel.S56x128 EltTy.i32)
local notation "sX" => (Memref.whole Cert.Kernel.cc0_scratch1 : Memref Cert.Kernel.sig Kind.scVector Space.vmem Cert.Kernel.S96x8x128 EltTy.f32)
local notation "sA" => (Memref.whole Cert.Kernel.cc0_scratch2 : Memref Cert.Kernel.sig Kind.scVector Space.vmem Cert.Kernel.S16 EltTy.f32)

/-- The three semaphores of the task's own copies. -/
abbrev cell0 (d : Dev nD) (L : grid0.Coords) : GSem nD τ sig := (thrV d L, .dma cc0_scoped0.sem)
abbrev cell1 (d : Dev nD) (L : grid0.Coords) : GSem nD τ sig := (thrV d L, .dma cc0_scoped1.sem)
abbrev cell2 (d : Dev nD) (L : grid0.Coords) : GSem nD τ sig := (thrV d L, .dma cc0_scoped2.sem)

theorem ownSems0_V :
    (ownSems0 (thrV d L) : sProp 𝕄)
      = iprop(semVal (cell0 d L) 0 ∗ semVal (cell1 d L) 0 ∗ semVal (cell2 d L) 0
          ∗ bigSep ((((ownCells (thrV d L)).erase (cell0 d L)).erase (cell1 d L)).erase (cell2 d L)) fun g => semVal g 0) := by
  unfold SparseCore.Cfg.ownSems0
  rw [SparseCore.bigSep_erase' ((mem_ownCells (g := cell0 d L)).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d L)).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d L)).mpr ⟨rfl, by show (SemLoc.dma cc0_scoped2.sem : SemLoc sig).isScoped .scVector = true; decide⟩⟩⟩)]

/-- The three scratch buffers are among the subcore's own: they are them, at some contents, and the rest. -/
theorem ownBufs_V :
    (ownBufs (thrV d L) : sProp 𝕄)
      = iprop((∃ f, (thrV d L).loc cc0_scratch0 ↦{fullShare} f) ∗ (∃ f, (thrV d L).loc cc0_scratch1 ↦{fullShare} f)
          ∗ (∃ f, (thrV d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

variable [FloatOps F]

omit [FloatOps F] in
theorem pts_x (q : PosShare TreeShare) (f : Buf (Elt F) (xLoc d)) :
    ((xW).view.loc (thrV d L) ↦{q} f : sProp 𝕄) = xLoc d ↦{q} f := by
  simp only [Memref.view_whole, View.set_whole]
omit [FloatOps F] in
theorem pts_y (q : PosShare TreeShare) (f : Buf (Elt F) (yLoc d)) :
    ((yW).view.loc (thrV d L) ↦{q} f : sProp 𝕄) = yLoc d ↦{q} f := by
  simp only [Memref.view_whole, View.set_whole]
omit [FloatOps F] in
theorem pts_s0 (f : Buf (Elt F) ((thrV d L).loc cc0_scratch0)) :
    ((sY).view.loc (thrV d L) ↦{fullShare} f : sProp 𝕄) = (thrV d L).loc cc0_scratch0 ↦{fullShare} f := rfl
omit [FloatOps F] in
theorem pts_s1 (f : Buf (Elt F) ((thrV d L).loc cc0_scratch1)) :
    ((sX).view.loc (thrV d L) ↦{fullShare} f : sProp 𝕄) = (thrV d L).loc cc0_scratch1 ↦{fullShare} f := rfl
omit [FloatOps F] in
theorem pts_s2 (f : Buf (Elt F) ((thrV d L).loc cc0_scratch2)) :
    ((sA).view.loc (thrV d L) ↦{fullShare} f : sProp 𝕄) = (thrV d L).loc cc0_scratch2 ↦{fullShare} f := rfl

/-! ## The slices the task copies, and what its scratches hold after the copies -/

/-- The task's subcore number. -/
abbrev widL (L : grid0.Coords) : ℕ := 2 * (L 1).val + (L 0).val

/-- The 56 x 128 block of labels the task fetches, as the program slices it. -/
abbrev yRowM (L : grid0.Coords) : Memref sig .scVector .hbm S56x128 .i32 :=
  ((yW).slice (Rect.unit (s := S8x224x224) (k0_off1 L) S1x56x128.size (k0_off1_inb L)) (fun _ => rfl)).squeeze S56x128 squeezes_S1x56x128_S56x128
/-- The 96 x 8 x 128 band of scores trip k1 of the outer loop fetches. -/
abbrev xBandM (L : grid0.Coords) (k1 : Fin k0_t1_loop.trips) : Memref sig .scVector .hbm S96x8x128 .f32 :=
  ((xW).slice (Rect.unit (s := S8x96x224x224) (k0_off2 L k1) S1x96x8x128.size (k0_off2_inb L k1)) (fun _ => rfl)).squeeze S96x8x128 squeezes_S1x96x8x128_S96x8x128
/-- The task's row of the lane totals. -/
abbrev oRowM (L : grid0.Coords) : Memref sig .scVector .hbm S16 .f32 :=
  ((oW).slice (Rect.unit (s := S32x16) (k0_off4 L) S1x16.size (k0_off4_inb L)) (fun _ => rfl)).squeeze S16 squeezes_S1x16_S16

/-- What the label scratch holds after its fetch: the block of labels read through its slice. -/
def labS : Buf (Elt F) ((thrV d L).loc cc0_scratch0) := (yRowM L).view.read (Elt F) (m (yLoc d))
/-- What the band scratch holds after trip k1's fetch. -/
def bandS (k1 : Fin k0_t1_loop.trips) : Buf (Elt F) ((thrV d L).loc cc0_scratch1) := (xBandM L k1).view.read (Elt F) (m (xLoc d))

omit [FloatOps F] in
theorem s0_lands (f0 : Buf (Elt F) ((thrV d L).loc cc0_scratch0)) :
    (sY).view.write (Elt F) f0 (labS m d L) Finset.univ = labS m d L := View.write_whole_univ _ _ _
omit [FloatOps F] in
theorem s1_lands (k1 : Fin k0_t1_loop.trips) (f1 : Buf (Elt F) ((thrV d L).loc cc0_scratch1)) :
    (sX).view.write (Elt F) f1 (bandS m d L k1) Finset.univ = bandS m d L k1 := View.write_whole_univ _ _ _

theorem k0_t1_trips : k0_t1_loop.trips = 7 := by decide
theorem k0_t2_trips : k0_t2_loop.trips = 64 := by decide

omit [FloatOps F] in
theorem set_oRowM : (oRowM L).view.set = oRow d (widL L) := by
  show (((oW).view.slice (Rect.unit (s := S32x16) (k0_off4 L) S1x16.size (k0_off4_inb L))).reshape S16 squeezes_S1x16_S16.numel_eq).set = _
  rw [View.set_reshape]
  show ((View.whole main_v0_scv).slice _).set = _
  rw [View.set_slice_whole]
  ext j
  rw [Rect.mem_set_unit, oRow, Finset.mem_filter]
  simp only [Finset.mem_univ, true_and]
  rw [k0_off4_eq]
  unfold widL
  constructor
  · intro h
    have h0 := h 0
    simp at h0
    omega
  · intro h a
    have h1 : (j 1).val < 16 := (j 1).isLt
    fin_cases a
    · simp; omega
    · simp; omega

omit [FloatOps F] in
theorem pts_oRow (f : Buf (Elt F) (oLoc d)) :
    ((oRowM L).view.loc (thrV d L) ↦[(oRowM L).view.set]{fullShare} f : sProp 𝕄) = oLoc d ↦[oRow d (widL L)]{fullShare} f := by
  rw [set_oRowM d L]

end Tile

end Cert.Kernel.Hand

end
-- ==== Proof.K.SCTrip.lean ====
/-
  One trip of the inner loop: the three index vectors the gather is made at, as the body computes them — the 16 labels loaded
  from the label scratch, the band's row in every lane, the 16 columns one per lane — over the words the body's integer
  chains give for the trip.
-/
import proofs.«209113_g38259568672962_cont_8to1_b_1629_19_alg».proof.Proof.K.SCViews

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)
section Tile
variable (d : Dev nD) (L : grid0.Coords)

-- the kernel's memrefs, spelt as the body table passes them
local notation "xW" => (Memref.whole Cert.Kernel.main_arg0_scv : Memref Cert.Kernel.sig Kind.scVector Space.hbm Cert.Kernel.S8x96x224x224 EltTy.f32)
local notation "yW" => (Memref.whole Cert.Kernel.main_arg1_scv : Memref Cert.Kernel.sig Kind.scVector Space.hbm Cert.Kernel.S8x224x224 EltTy.i32)
local notation "oW" => (Memref.whole Cert.Kernel.main_v0_scv : Memref Cert.Kernel.sig Kind.scVector Space.hbm Cert.Kernel.S32x16 EltTy.f32)
local notation "sY" => (Memref.whole Cert.Kernel.cc0_scratch0 : Memref Cert.Kernel.sig Kind.scVector Space.vmem Cert.Kernel.S56x128 EltTy.i32)
local notation "sX" => (Memref.whole Cert.Kernel.cc0_scratch1 : Memref Cert.Kernel.sig Kind.scVector Space.vmem Cert.Kernel.S96x8x128 EltTy.f32)
local notation "sA" => (Memref.whole Cert.Kernel.cc0_scratch2 : Memref Cert.Kernel.sig Kind.scVector Space.vmem Cert.Kernel.S16 EltTy.f32)

variable [FloatOps F]

/-! ## One trip's index vectors, as the body computes them -/

/-- The row of the band trip k2 reads, as a word: k2 / 8 by the body's floor division. -/
def trip2Row (k2 : Fin k0_t2_loop.trips) : BitVec 32 :=
  let arg10 : BitVec 32 := Scf.iv 0#32 1#32 k2
  let c8_i32_16 : BitVec 32 := 8#32
  let v39 : BitVec 32 := Scalar.divsi arg10 c8_i32_16
  let c0_i32_17 : BitVec 32 := 0#32
  let v40 : BitVec 1 := Scalar.cmpi .sgt arg10 c0_i32_17
  let v41 : BitVec 32 := Scalar.extui v40
  let c0_i32_18 : BitVec 32 := 0#32
  let v42 : BitVec 1 := Scalar.cmpi .slt arg10 c0_i32_18
  let v43 : BitVec 32 := Scalar.extui v42
  let v44 : BitVec 32 := Scalar.subi v41 v43
  let c0_i32_19 : BitVec 32 := 0#32
  let v45 : BitVec 1 := Scalar.cmpi .sgt c8_i32_16 c0_i32_19
  let v46 : BitVec 32 := Scalar.extui v45
  let c0_i32_20 : BitVec 32 := 0#32
  let v47 : BitVec 1 := Scalar.cmpi .slt c8_i32_16 c0_i32_20
  let v48 : BitVec 32 := Scalar.extui v47
  let v49 : BitVec 32 := Scalar.subi v46 v48
  let v50 : BitVec 1 := Scalar.cmpi .ne v44 v49
  let v51 : BitVec 32 := Scalar.remsi arg10 c8_i32_16
  let c0_i32_21 : BitVec 32 := 0#32
  let v52 : BitVec 1 := Scalar.cmpi .ne v51 c0_i32_21
  let v53 : BitVec 1 := Scalar.andi v50 v52
  let c1_i32_22 : BitVec 32 := 1#32
  let v54 : BitVec 32 := Scalar.subi v39 c1_i32_22
  Scalar.select v53 v54 v39

/-- The first column trip k2 reads, as a word: (k2 mod 8) * 16 by the body's floor remainder. -/
def trip2Col (k2 : Fin k0_t2_loop.trips) : BitVec 32 :=
  let arg10 : BitVec 32 := Scf.iv 0#32 1#32 k2
  let c8_i32_23 : BitVec 32 := 8#32
  let c0_i32_24 : BitVec 32 := 0#32
  let v56 : BitVec 1 := Scalar.cmpi .eq c8_i32_23 c0_i32_24
  let c1_i32_25 : BitVec 32 := 1#32
  let v57 : BitVec 32 := Scalar.select v56 c1_i32_25 c8_i32_23
  let v58 : BitVec 32 := Scalar.remsi arg10 v57
  let c0_i32_26 : BitVec 32 := 0#32
  let v59 : BitVec 1 := Scalar.cmpi .ne v58 c0_i32_26
  let c0_i32_27 : BitVec 32 := 0#32
  let v60 : BitVec 1 := Scalar.cmpi .slt v58 c0_i32_27
  let c0_i32_28 : BitVec 32 := 0#32
  let v61 : BitVec 1 := Scalar.cmpi .slt v57 c0_i32_28
  let v62 : BitVec 1 := Scalar.xori v60 v61
  let v63 : BitVec 1 := Scalar.andi v62 v59
  let v64 : BitVec 32 := Scalar.addi v58 v57
  let v65 : BitVec 32 := Scalar.select v63 v64 v58
  let c16_i32_30 : BitVec 32 := 16#32
  Scalar.muli v65 c16_i32_30

/-- The 16 labels trip k2 of band k1 loads from the label scratch. -/
def lblVec (k1 : Fin k0_t1_loop.trips) (k2 : Fin k0_t2_loop.trips) : Vec F S16 .i32 :=
  shapeCast S16 ((sY).view.readAt (Elt F) (Rect.unit (s := S56x128) (k0_off3 k1 k2) S1x16.size (k0_off3_inb k1 k2)).toLoadRect (labS m d L)) shapeCasts_S1x16_S16
/-- The band row, in every lane. -/
def rowVec (k2 : Fin k0_t2_loop.trips) : IVec S16 32 := broadcast S16 (trip2Row k2)
/-- The columns, one per lane. -/
def colVec (k2 : Fin k0_t2_loop.trips) : IVec S16 32 := addi (broadcast S16 (trip2Col k2)) (iota .scVector S16 32 [0] iota_S16_d0_w32_scVector)

end Tile

end Cert.Kernel.Hand

end
-- ==== Proof.K.SCAux.lean ====
/-
  The offsets the vector subcores' program computes, in closed form.

  The program computes the batch wid / 4 and the first row (wid % 4) * 56 of a subcore's block from its number
  wid = 2 * (subcore) + (core) by floor division and remainder spelt over signed 32-bit words, the first row of band k1 by
  adding k1 * 8, and a trip's row k2 / 8 within the band and first column (k2 % 8) * 16 the same way.  The domains are
  finite (2 x 16 subcores, 7 bands, 64 trips): each closed form is checked by evaluation at every point.

  With them, the slices the copies read are read at an index: a slice at unit strides places its index (a, b) at
  offset + (a, b) behind the squeezed unit axis, so the label scratch holds y[wid / 4, (wid % 4) * 56 + a, b] at (a, b) and
  the band scratch of band k1 holds x[wid / 4, c, (wid % 4) * 56 + k1 * 8 + r, w] at (c, r, w).
-/
import proofs.«209113_g38259568672962_cont_8to1_b_1629_19_alg».proof.Proof.K.SCViews
import proofs.«209113_g38259568672962_cont_8to1_b_1629_19_alg».proof.Proof.Spec
import Idealize.ShloMosaic.Lib.ValueIdx
import Idealize.ShloMosaic.Lib.ValueLayout

noncomputable section

namespace Cert.Kernel.Hand

open Cert.Kernel Cert.Kernel.Gen

open Idealize.ShloMosaic Idealize.ShloMosaic.ValueIdx
open Idealize.ShloMosaic.SparseCore (S V T)
open Idealize.SL.Sem

/-- The label block's offsets: batch wid / 4, first row (wid % 4) * 56, first column 0. -/
theorem k0_off1_eq : ∀ i : grid0.Coords,
    k0_off1 i = ![(2 * (i 1).val + (i 0).val) / 4, ((2 * (i 1).val + (i 0).val) % 4) * 56, 0] := by decide +kernel

/-- A band's offsets: batch wid / 4, all classes, first row (wid % 4) * 56 + k1 * 8, first column 0. -/
theorem k0_off2_eq : ∀ (i : grid0.Coords) (k1 : Fin k0_t1_loop.trips),
    k0_off2 i k1 = ![(2 * (i 1).val + (i 0).val) / 4, 0, ((2 * (i 1).val + (i 0).val) % 4) * 56 + k1.val * 8, 0] := by
  decide +kernel

/-- A trip's offsets in the label block: row k1 * 8 + k2 / 8, first column (k2 % 8) * 16. -/
theorem k0_off3_eq : ∀ (k1 : Fin k0_t1_loop.trips) (k2 : Fin k0_t2_loop.trips),
    k0_off3 k1 k2 = ![k1.val * 8 + k2.val / 8, (k2.val % 8) * 16] := by decide +kernel

/-! ## The two slices read at an index -/

variable {F : FTy → Type}
variable (m : (ℓ : Loc nD τ sig) → Buf (Elt F) ℓ)

section Tile
variable (d : Dev nD) (L : grid0.Coords)

/-- A subcore's number is below 32. -/
theorem widL_lt : widL L < 32 := by
  have h0 : (L 0).val < 2 := (L 0).isLt
  have h1 : (L 1).val < 16 := (L 1).isLt
  unfold widL; omega

/-- Entry (a, b) of a subcore's block of labels is y[wid / 4, (wid % 4) * 56 + a, b]. -/
theorem yRow_emb (a : Fin 56) (b : Fin 128) :
    (yRowM L).view.emb (ix2 a b) = Cert.Spec.ixY (widL L / 4) ((widL L % 4) * 56 + a.val) b.val := by
  have hw := widL_lt L
  show (Rect.unit (s := S8x224x224) (k0_off1 L) S1x56x128.size (k0_off1_inb L)).emb
      (Shape.reshapeEquiv squeezes_S1x56x128_S56x128.numel_eq (ix2 a b)) = _
  rw [reshapeEquiv_ix2_1ab]
  funext c
  refine Fin.ext ?_
  rw [Rect.emb_apply]
  show k0_off1 L c + 1 * (ix3 (⟨0, Nat.one_pos⟩ : Fin 1) a b c).val = _
  rw [k0_off1_eq]
  have ha := a.isLt
  have hb := b.isLt
  match c with
  | ⟨0, _⟩ =>
    show widL L / 4 + 1 * 0 = widL L / 4 % 8
    omega
  | ⟨1, _⟩ =>
    show (widL L % 4) * 56 + 1 * a.val = ((widL L % 4) * 56 + a.val) % 224
    omega
  | ⟨2, _⟩ =>
    show 0 + 1 * b.val = b.val % 224
    omega

/-- What the label scratch holds at (a, b) once the block has landed. -/
theorem labS_apply (j : S56x128.Idx) :
    labS m d L j = m (yLoc d) (Cert.Spec.ixY (widL L / 4) ((widL L % 4) * 56 + (j 0).val) (j 1).val) := by
  obtain ⟨a, b, rfl⟩ : ∃ (a : Fin 56) (b : Fin 128), j = ix2 a b := ⟨j 0, j 1, eq_ix2 j⟩
  unfold labS
  rw [View.read_apply, yRow_emb L a b]
  exact cast_eq _ _

/-- Entry (c, r, w) of band k1 of a subcore's scores is x[wid / 4, c, (wid % 4) * 56 + k1 * 8 + r, w]. -/
theorem xBand_emb (k1 : Fin k0_t1_loop.trips) (c : Fin 96) (r : Fin 8) (w : Fin 128) :
    (xBandM L k1).view.emb (ix3 c r w)
      = Cert.Spec.ixX (widL L / 4) c.val ((widL L % 4) * 56 + k1.val * 8 + r.val) w.val := by
  have hw := widL_lt L
  have hk : k1.val < 7 := Nat.lt_of_lt_of_le k1.isLt (Nat.le_of_eq k0_t1_trips)
  show (Rect.unit (s := S8x96x224x224) (k0_off2 L k1) S1x96x8x128.size (k0_off2_inb L k1)).emb
      (Shape.reshapeEquiv squeezes_S1x96x8x128_S96x8x128.numel_eq (ix3 c r w)) = _
  rw [reshapeEquiv_ix3_1abc]
  funext e
  refine Fin.ext ?_
  rw [Rect.emb_apply]
  show k0_off2 L k1 e + 1 * (ix4 (⟨0, Nat.one_pos⟩ : Fin 1) c r w e).val = _
  rw [k0_off2_eq]
  have hc := c.isLt
  have hr := r.isLt
  have hw' := w.isLt
  match e with
  | ⟨0, _⟩ =>
    show widL L / 4 + 1 * 0 = widL L / 4 % 8
    omega
  | ⟨1, _⟩ =>
    show 0 + 1 * c.val = c.val % 96
    omega
  | ⟨2, _⟩ =>
    show (widL L % 4) * 56 + k1.val * 8 + 1 * r.val = ((widL L % 4) * 56 + k1.val * 8 + r.val) % 224
    omega
  | ⟨3, _⟩ =>
    show 0 + 1 * w.val = w.val % 224
    omega

/-- What the band scratch holds at (c, r, w) once band k1 has landed. -/
theorem bandS_apply (k1 : Fin k0_t1_loop.trips) (j : S96x8x128.Idx) :
    bandS m d L k1 j
      = m (xLoc d) (Cert.Spec.ixX (widL L / 4) (j 0).val ((widL L % 4) * 56 + k1.val * 8 + (j 1).val) (j 2).val) := by
  obtain ⟨c, r, w, rfl⟩ : ∃ (c : Fin 96) (r : Fin 8) (w : Fin 128), j = ix3 c r w := ⟨j 0, j 1, j 2, eq_ix3 j⟩
  unfold bandS
  rw [View.read_apply, xBand_emb L k1 c r w]
  exact cast_eq _ _

end Tile

end Cert.Kernel.Hand

end
-- ==== Proof.K.SCGather.lean ====
/-
  One trip's gather, read: the check the body assumes holds, and what the gather loads is what the value names.

  For trip k2 of band k1 the band's row is k2 / 8 in every lane and lane l's column is (k2 % 8) * 16 + l (hypotheses on the
  two index vectors the body computes).  The 16 labels loaded from the label scratch are
  y[wid / 4, (wid % 4) * 56 + k1 * 8 + k2 / 8, (k2 % 8) * 16 + l]: below 96 by the precondition.  So the three index vectors
  lie inside the 96 x 8 x 128 band scratch, and the gathered element of lane l is
  x[wid / 4, label, (wid % 4) * 56 + k1 * 8 + k2 / 8, (k2 % 8) * 16 + l]: the score the label selects.
-/
import proofs.«209113_g38259568672962_cont_8to1_b_1629_19_alg».proof.Proof.K.SCTrip
import proofs.«209113_g38259568672962_cont_8to1_b_1629_19_alg».proof.Proof.K.SCAux

noncomputable section

namespace Cert.Kernel.Hand

open Cert.Kernel Cert.Kernel.Gen
open Idealize.ShloMosaic Idealize.ShloMosaic.ValueIdx
open Idealize.ShloMosaic.SparseCore (S V T)
open Idealize.SL.Sem

variable {F : FTy → Type}
variable (m : (ℓ : Loc nD τ sig) → Buf (Elt F) ℓ)

section Tile
variable (d : Dev nD) (L : grid0.Coords)

variable [FloatOps F]

/-- Lane i of the loaded labels is the label of row (wid % 4) * 56 + k1 * 8 + k2 / 8, column (k2 % 8) * 16 + i. -/
theorem lblVec_apply (k1 : Fin k0_t1_loop.trips) (k2 : Fin k0_t2_loop.trips) (i : Fin 16) :
    lblVec m d L k1 k2 (ix1 i)
      = m (yLoc d) (Cert.Spec.ixY (widL L / 4) ((widL L % 4) * 56 + k1.val * 8 + k2.val / 8) ((k2.val % 8) * 16 + i.val)) := by
  unfold lblVec
  refine (shapeCast_1a_a_apply (a := 16) _ _ i).trans ?_
  rw [View.readAt_apply]
  show labS m d L ((Rect.unit (s := S56x128) (k0_off3 k1 k2) S1x16.size (k0_off3_inb k1 k2)).toLoadRect.idx (ix2 (0 : Fin 1) i)) = _
  rw [labS_apply]
  have e0 : (((Rect.unit (s := S56x128) (k0_off3 k1 k2) S1x16.size (k0_off3_inb k1 k2)).toLoadRect.idx (ix2 (0 : Fin 1) i)) 0).val
      = k1.val * 8 + k2.val / 8 := by
    rw [LoadRect.idx_apply]
    show k0_off3 k1 k2 0 + 1 * 0 = _
    rw [k0_off3_eq]
    show k1.val * 8 + k2.val / 8 + 1 * 0 = _
    omega
  have e1 : (((Rect.unit (s := S56x128) (k0_off3 k1 k2) S1x16.size (k0_off3_inb k1 k2)).toLoadRect.idx (ix2 (0 : Fin 1) i)) 1).val
      = (k2.val % 8) * 16 + i.val := by
    rw [LoadRect.idx_apply]
    show k0_off3 k1 k2 1 + 1 * i.val = _
    rw [k0_off3_eq]
    show (k2.val % 8) * 16 + 1 * i.val = _
    omega
  rw [e0, e1, Nat.add_assoc]

/-- THE CHECK: with the band's row k2 / 8 in every lane and lane l's column (k2 % 8) * 16 + l, the three index vectors lie
    inside the band scratch. -/
theorem chk_of (hy : YOK m) (k1 : Fin k0_t1_loop.trips) (k2 : Fin k0_t2_loop.trips) (v72 v75 : IVec S16 32)
    (h72 : ∀ l, (v72 l).toNat = k2.val / 8) (h75 : ∀ l, (v75 l).toNat = (k2.val % 8) * 16 + (l 0).val) :
    k0_chk1 (lblVec m d L k1 k2) v72 v75 := by
  intro a x
  obtain ⟨i, rfl⟩ : ∃ i : Fin 16, x = ix1 i := ⟨x 0, eq_ix1 x⟩
  have hk2 : k2.val < 64 := Nat.lt_of_lt_of_le k2.isLt (Nat.le_of_eq k0_t2_trips)
  have hi := i.isLt
  match a with
  | ⟨0, _⟩ =>
    show (lblVec m d L k1 k2 (ix1 i)).toNat < 96
    rw [lblVec_apply]
    exact hy d _
  | ⟨1, _⟩ =>
    show (v72 (ix1 i)).toNat < 8
    rw [h72]
    omega
  | ⟨2, _⟩ =>
    show (v75 (ix1 i)).toNat < 128
    rw [h75]
    show (k2.val % 8) * 16 + i.val < 128
    omega

/-- THE GATHER: lane by lane, the score the lane's label selects. -/
theorem gather_of (k1 : Fin k0_t1_loop.trips) (k2 : Fin k0_t2_loop.trips) (v72 v75 : IVec S16 32)
    (h72 : ∀ l, (v72 l).toNat = k2.val / 8) (h75 : ∀ l, (v75 l).toNat = (k2.val % 8) * 16 + (l 0).val)
    (h : ∀ a x, ((![lblVec m d L k1 k2, v72, v75] : Fin 3 → IVec S16 32) a x).toNat < S96x8x128.size a) :
    loadIdx (((Memref.whole cc0_scratch1 : Memref sig .scVector .vmem S96x8x128 .f32).access (.whole S96x8x128)).read (Elt F) (bandS m d L k1))
        ![lblVec m d L k1 k2, v72, v75] h
      = Cert.Spec.scG (m (xLoc d)) (m (yLoc d)) (widL L) k1.val k2.val := by
  funext x
  obtain ⟨i, rfl⟩ : ∃ i : Fin 16, x = ix1 i := ⟨x 0, eq_ix1 x⟩
  show (View.read (Elt F) ((Memref.whole cc0_scratch1 : Memref sig .scVector .vmem S96x8x128 .f32).access (Rect.whole S96x8x128)) (bandS m d L k1))
      (idxAt (s := S96x8x128) ![lblVec m d L k1 k2, v72, v75] h (ix1 i)) = _
  rw [View.read_apply]
  have hemb : ∀ j : S96x8x128.Idx,
      ((Memref.whole cc0_scratch1 : Memref sig .scVector .vmem S96x8x128 .f32).access (Rect.whole S96x8x128)).emb j = j :=
    fun j => Rect.emb_whole_apply S96x8x128 j
  rw [hemb]
  refine (cast_eq _ _).trans ?_
  rw [bandS_apply]
  show m (xLoc d) (Cert.Spec.ixX (widL L / 4) (lblVec m d L k1 k2 (ix1 i)).toNat
      ((widL L % 4) * 56 + k1.val * 8 + (v72 (ix1 i)).toNat) (v75 (ix1 i)).toNat) = _
  rw [h72, h75, lblVec_apply]
  rfl

end Tile

end Cert.Kernel.Hand

end
-- ==== Proof.K.SCOut.lean ====
/-
  The write-out of a subcore's lane totals, read at an index.

  A subcore's row of the 32 x 16 array of lane totals is the slice at row wid, squeezed to 16 lanes: lane c of it is entry
  (wid, c).  Writing a vector of 16 lanes through it, unmasked, leaves lane (j 1) of the vector at each entry j of that row.
-/
import proofs.«209113_g38259568672962_cont_8to1_b_1629_19_alg».proof.Proof.K.SCAux
import Idealize.ShloMosaic.Lib.Writes

noncomputable section

namespace Cert.Kernel.Hand

open Cert.Kernel Cert.Kernel.Gen
open Idealize.ShloMosaic Idealize.ShloMosaic.ValueIdx
open Idealize.ShloMosaic.SparseCore (S V T)
open Idealize.SL.Sem

variable {F : FTy → Type}
variable (m : (ℓ : Loc nD τ sig) → Buf (Elt F) ℓ)

section Tile
variable (d : Dev nD) (L : grid0.Coords)

/-- Lane c of a subcore's row of the lane totals is entry (wid, c) of the 32 x 16 array. -/
theorem oRow_emb (c : Fin 16) : (oRowM L).view.emb (ix1 c) = (ix2 ⟨widL L, widL_lt L⟩ c : S32x16.Idx) := by
  show (Rect.unit (s := S32x16) (k0_off4 L) S1x16.size (k0_off4_inb L)).emb
      (Shape.reshapeEquiv squeezes_S1x16_S16.numel_eq (ix1 c)) = _
  have hr : Shape.reshapeEquiv squeezes_S1x16_S16.numel_eq (ix1 c) = (ix2 (0 : Fin 1) c : S1x16.Idx) :=
    Shape.reshapeEquiv_eq_of_rowMajor _ (by
      rw [Shape.rowMajor_val_two, Shape.rowMajor_val_one]
      show 0 * 16 + c.val = c.val
      omega)
  rw [hr]
  funext e
  refine Fin.ext ?_
  rw [Rect.emb_apply]
  show k0_off4 L e + 1 * (ix2 (0 : Fin 1) c e).val = _
  rw [k0_off4_eq]
  match e with
  | ⟨0, _⟩ =>
    show 2 * (L 1).val + (L 0).val + 1 * 0 = widL L
    unfold widL; omega
  | ⟨1, _⟩ =>
    show 0 + 1 * c.val = c.val
    omega

/-- Writing a vector of 16 lanes through a subcore's row leaves lane (j 1) of it at entry j of that row. -/
theorem oRow_write (w : S16.Idx → F .f32) (j : Idx (oLoc d)) (hj : j ∈ oRow d (widL L)) :
    (oRowM L).view.write (Elt F) (m (oLoc d)) w Finset.univ j = w (ix1 (⟨(j 1).val, (j 1).isLt⟩ : Fin 16)) := by
  have hj0 : (j 0).val = widL L := by
    rw [oRow, Finset.mem_filter] at hj
    exact hj.2
  have he : (oRowM L).view.emb (ix1 (⟨(j 1).val, (j 1).isLt⟩ : Fin 16)) = j := by
    rw [oRow_emb]
    funext e
    refine Fin.ext ?_
    match e with
    | ⟨0, _⟩ => exact hj0.symm
    | ⟨1, _⟩ => rfl
  have key : (oRowM L).view.write (Elt F) (m (oLoc d)) w Finset.univ ((oRowM L).view.emb (ix1 (⟨(j 1).val, (j 1).isLt⟩ : Fin 16)))
      = w (ix1 (⟨(j 1).val, (j 1).isLt⟩ : Fin 16)) := by
    rw [View.write_emb_of_mem _ _ (Finset.mem_univ _)]
    exact cast_eq _ _
  rw [he] at key
  exact key

variable [FloatOps F]

/-- THE WRITE-OUT: once the running vector after the 7 bands has been written through the subcore's row, each entry of that
    row holds the lane total the value names. -/
theorem oRow_final (acc : S16.Idx → F .f32) (hacc : acc = Cert.Spec.scOuter (m (xLoc d)) (m (yLoc d)) (widL L) 7)
    (j : Idx (oLoc d)) (hj : j ∈ oRow d (widL L)) :
    (oRowM L).view.writes (Elt F) (m (oLoc d)) [⟨Rect.whole S16, acc⟩] j = oSpec m d j := by
  have hj0 : (j 0).val = widL L := by
    rw [oRow, Finset.mem_filter] at hj
    exact hj.2
  have he : ((oRowM L).view.slice (Rect.whole S16)).emb (ix1 (⟨(j 1).val, (j 1).isLt⟩ : Fin 16)) = j := by
    show (oRowM L).view.emb ((Rect.whole S16).emb (ix1 (⟨(j 1).val, (j 1).isLt⟩ : Fin 16))) = j
    rw [Rect.emb_whole_apply, oRow_emb]
    funext e
    refine Fin.ext ?_
    match e with
    | ⟨0, _⟩ => exact hj0.symm
    | ⟨1, _⟩ => rfl
  have key : ((oRowM L).view.slice (Rect.whole S16)).write (Elt F) (m (oLoc d)) acc Finset.univ
        (((oRowM L).view.slice (Rect.whole S16)).emb (ix1 (⟨(j 1).val, (j 1).isLt⟩ : Fin 16)))
      = acc (ix1 (⟨(j 1).val, (j 1).isLt⟩ : Fin 16)) := by
    rw [View.write_emb_of_mem _ _ (Finset.mem_univ _)]
    exact cast_eq _ _
  rw [he] at key
  rw [View.writes_singleton]
  refine key.trans ?_
  rw [hacc]
  show _ = Cert.Spec.scOuter (m (xLoc d)) (m (yLoc d)) (j 0).val 7 _
  rw [hj0]
  rfl

end Tile

end Cert.Kernel.Hand

end
-- ==== Proof.K.SCBody.lean ====
/-
  One vector subcore's task, run once at a symbolic place: the block of labels fetched into the label scratch, then seven
  bands — each a band of scores fetched into the band scratch and 64 trips, each trip loading 16 labels, gathering the 16
  scores they select out of the band scratch and subtracting them from the running vector —, then the running vector
  stored and copied out to the task's row of the lane totals.  The value is carried in the loops' invariants: after k1
  bands the running vector is the specification's after k1 bands, within band k1 after k2 trips it is the specification's
  after k2 trips; one trip subtracts what the specification says it gathers.  The task reads the scores and the labels
  under its read token and gives them back; its row comes back at the lane totals the specification names.
-/
import proofs.«209113_g38259568672962_cont_8to1_b_1629_19_alg».proof.Proof.K.SCGather
import proofs.«209113_g38259568672962_cont_8to1_b_1629_19_alg».proof.Proof.K.SCOut

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)
section Tile
variable (d : Dev nD) (L : grid0.Coords)

-- the kernel's memrefs, spelt as the body table passes them
local notation "xW" => (Memref.whole Cert.Kernel.main_arg0_scv : Memref Cert.Kernel.sig Kind.scVector Space.hbm Cert.Kernel.S8x96x224x224 EltTy.f32)
local notation "yW" => (Memref.whole Cert.Kernel.main_arg1_scv : Memref Cert.Kernel.sig Kind.scVector Space.hbm Cert.Kernel.S8x224x224 EltTy.i32)
local notation "oW" => (Memref.whole Cert.Kernel.main_v0_scv : Memref Cert.Kernel.sig Kind.scVector Space.hbm Cert.Kernel.S32x16 EltTy.f32)
local notation "sY" => (Memref.whole Cert.Kernel.cc0_scratch0 : Memref Cert.Kernel.sig Kind.scVector Space.vmem Cert.Kernel.S56x128 EltTy.i32)
local notation "sX" => (Memref.whole Cert.Kernel.cc0_scratch1 : Memref Cert.Kernel.sig Kind.scVector Space.vmem Cert.Kernel.S96x8x128 EltTy.f32)
local notation "sA" => (Memref.whole Cert.Kernel.cc0_scratch2 : Memref Cert.Kernel.sig Kind.scVector Space.vmem Cert.Kernel.S16 EltTy.f32)

variable [FloatOps F]

/-- The running vector stored over the whole 16-lane scratch reads back as itself. -/
theorem sA_roundtrip (f2 : Buf (Elt F) ((thrV d L).loc cc0_scratch2)) (acc : S16.Idx → F .f32) :
    ReadAs.same.apply ((sA).view.read (Elt F) ((sA).view.writes (Elt F) f2 [⟨Rect.unit (s := S16) ![0] S16.size inb_S16_S16_0, acc⟩])) = acc := by
  funext l
  have hl : (Rect.unit (s := S16) ![0] S16.size inb_S16_S16_0).emb l = l := by
    funext a; apply Fin.ext
    obtain rfl : a = 0 := Subsingleton.elim _ _
    rw [Rect.emb_apply]
    show 0 + 1 * (l 0).val = (l 0).val
    simp
  show (sA).view.read (Elt F) ((sA).view.writes (Elt F) f2 [⟨Rect.unit (s := S16) ![0] S16.size inb_S16_S16_0, acc⟩]) l = acc l
  conv_lhs => rw [← hl]
  exact View.read_writes_cons_emb (sA).view f2 (Rect.unit (s := S16) ![0] S16.size inb_S16_S16_0) acc [] l

omit [FloatOps F] in
theorem pts_s1_access (f : Buf (Elt F) ((thrV d L).loc cc0_scratch1)) :
    ((sX).view.loc (thrV d L) ↦{fullShare} f : sProp 𝕄) = (((sX).access (.whole S96x8x128)).loc (thrV d L) ↦{fullShare} f : sProp 𝕄) := rfl

/-- The outer loop's invariant: after k1 bands the running vector is the specification's; the scores under the task's read
    token, the label scratch at the fetched block, the band scratch at whatever the last band left, the band copies'
    semaphore at zero, and what the thread owes with its recorded waits. -/
def inv1 (O : CellTallies nD τ sig (HIx 1)) (W : Waits sig (HIx 1)) (k1 : Nat) (acc : FVec F S16 .f32) : sProp 𝕄 :=
  iprop(⌜acc = Cert.Spec.scOuter (m (xLoc d)) (m (yLoc d)) (widL L) k1⌝
    ∗ Transfers.MayWaits (thrV d L) (none : HIx 1) O
    ∗ ((xW).view.loc (thrV d L) ↦{tileShare (L 0).val (L 1).val} m (xLoc d))
    ∗ ((sY).view.loc (thrV d L) ↦{fullShare} labS m d L)
    ∗ (∃ f1, (sX).view.loc (thrV d L) ↦{fullShare} f1)
    ∗ semVal (cell1 d L) 0
    ∗ ∃ W', ⌜∀ p ∈ W', p ∈ W ∨ p.2 = none⌝ ∗ owes (thrV d L) O W')

/-- The inner loop's invariant in band k1, from the running vector acc0: after k2 trips the running vector is the
    specification's; the label scratch at the fetched block and the band scratch at the fetched band. -/
def inv2 (k1 : Fin k0_t1_loop.trips) (acc0 : FVec F S16 .f32) (k2 : Nat) (acc : FVec F S16 .f32) : sProp 𝕄 :=
  iprop(⌜acc = Cert.Spec.scInner (m (xLoc d)) (m (yLoc d)) (widL L) k1.val acc0 k2⌝
    ∗ ((sY).view.loc (thrV d L) ↦{fullShare} labS m d L)
    ∗ ((sX).view.loc (thrV d L) ↦{fullShare} bandS m d L k1))

set_option maxHeartbeats 4000000 in
theorem tile_body (hy : YOK m) (O : CellTallies nD τ sig (HIx 1)) (W : Waits sig (HIx 1)) (hO : ∀ g, O g none = 0) :
    iprop(levAts (K (F := F)).L (K (F := F)).lev ∗ emp
        ∗ (xyPts m d (tileShare (L 0).val (L 1).val) ∗ oRowPts d (widL L) (m (oLoc d)))
        ∗ scopedBufs (thrV d L) ∗ scopedSems0 (thrV d L) ∗ owes (thrV d L) O W)
      ⊢ wp frame (wpE (defs₀ (F := F)) 𝒱₀ (thrV d L) none) Set.univ
          (cc0__sc_gather_sum L xW (Memref.isWhole_whole _) yW (Memref.isWhole_whole _) oW (Memref.isWhole_whole _)
            sY (Memref.isWhole_whole _) sX (Memref.isWhole_whole _) sA (Memref.isWhole_whole _) cc0_scoped0 cc0_scoped1 cc0_scoped2)
          fun _ => iprop((xyPts m d (tileShare (L 0).val (L 1).val) ∗ oRowPts d (widL L) (oSpec m d))
            ∗ scopedBufs (thrV d L) ∗ scopedSems0 (thrV d L)
            ∗ ∃ W', ⌜∀ p ∈ W', p ∈ W ∨ p.2 = none⌝ ∗ owes (thrV d L) O W') := by
  unfold cc0__sc_gather_sum k0_part1
  rw [(K (F := F)).scopedBufs_V facts d (cV L) (jV L), SparseCore.Cfg.scopedSems0_V (Val := Elt F) d (cV L) (jV L), ownSems0_V, ownBufs_V, xyPts_eq]
  iintro ⟨#Hlv, -, ⟨⟨Hx, Hy⟩, Ho⟩, ⟨⟨%f0, Hs0⟩, ⟨%f1, Hs1⟩, ⟨%f2, Hs2⟩, Hbufs⟩, ⟨Hsem0, Hsem1, Hsem2, Hsems⟩, HO⟩
  ihave Hmw := ((K (F := F)).mayWaits_none (thr := thrV d L) hO) $$ Hlv
  ihave Hx' := (Entails.of_eq (pts_x (F := F) d L _ _).symm) $$ Hx
  ihave Hy' := (Entails.of_eq (pts_y (F := F) d L _ _).symm) $$ Hy
  ihave Ho' := (Entails.of_eq (pts_oRow (F := F) d L _).symm) $$ Ho
  ihave Hs0' := (Entails.of_eq (pts_s0 (F := F) d L _).symm) $$ Hs0
  ihave Hs1' := (Entails.of_eq (pts_s1 (F := F) d L _).symm) $$ Hs1
  ihave Hs2' := (Entails.of_eq (pts_s2 (F := F) d L _).symm) $$ Hs2
  -- the labels' fetch and its wait
  sl_exec
  ihave Hs0 := (Entails.of_eq (congrArg (fun f => ((sY).view.loc (thrV d L) ↦{fullShare} f : sProp 𝕄))
    (show (sY).view.write (Elt F) f0 (tile_body.sl.dma0 m d L) Finset.univ = labS m d L from s0_lands m d L f0))) $$ Hs0'
  -- the seven bands
  sl_for (inv1 m d L O W) $$ [Hmw Hx' Hs0 Hs1' Hsem1 HO]
  case region =>
    intro k1 acc
    unfold inv1
    iintro ⟨%hacc, #Hmw, Hx, Hs0, ⟨%f1', Hs1⟩, Hsem1, %W', %hW', HO⟩
    -- the band's fetch and its wait
    sl_exec
    ihave Hs1' := (Entails.of_eq (congrArg (fun f => ((sX).view.loc (thrV d L) ↦{fullShare} f : sProp 𝕄))
      (show (sX).view.write (Elt F) f1' (tile_body.sl.dma0_1 m d L k1) Finset.univ = bandS m d L k1 from s1_lands m d L k1 f1'))) $$ Hs1
    -- the band's 64 trips
    sl_for (inv2 m d L k1 acc) $$ [Hs0 Hs1']
    case region =>
      intro k2 acc2
      unfold inv2
      iintro ⟨%hacc2, Hs0, Hs1⟩
      sl_exec
      -- the row and column vectors the trip's chains give, lane by lane, by evaluation over the 64 trips
      have h72 : ∀ (k2 : Fin k0_t2_loop.trips) (l : S16.Idx), (tile_body.sl.v72 k2 l).toNat = k2.val / 8 := by decide +kernel
      have h75 : ∀ (k2 : Fin k0_t2_loop.trips) (l : S16.Idx), (tile_body.sl.v75 k2 l).toNat = (k2.val % 8) * 16 + (l 0).val := by decide +kernel
      have hchk : k0_chk1 (tile_body.sl.v71 m d L k1 k2) (tile_body.sl.v72 k2) (tile_body.sl.v75 k2) :=
        chk_of m d L hy k1 k2 _ _ (h72 k2) (h75 k2)
      rw [wp_assume_of _ _ _ _ hchk]
      ihave Hs1a := (Entails.of_eq (pts_s1_access (F := F) d L _)) $$ Hs1
      iapply (SparseCore.wp_vectorLoadIdx 𝒱₀ (thrV d L) none Set.univ (base := sX) (S := Finset.univ) (q := fullShare) (Finset.subset_univ _)) $$ Hs1a
      iintro Hs1a
      sl_exec
      sl_step
      isplitr
      · ipureintro
        rw [hacc2]
        exact congrArg (subf _) (gather_of m d L k1 k2 _ _ (h72 k2) (h75 k2) _)
      isplitl [Hs0]; · iexact Hs0
      iexact Hs1a
    · unfold inv2
      isplitr; · ipureintro; rfl
      isplitl [Hs0]; · iexact Hs0
      iexact Hs1'
    iintro %acc' HI
    unfold inv2
    icases HI with ⟨%hacc', Hs0, Hs1⟩
    sl_exec
    sl_step
    isplitr
    · ipureintro
      rw [hacc', hacc]
      exact congrArg (Cert.Spec.scInner (m (xLoc d)) (m (yLoc d)) (widL L) k1.val (Cert.Spec.scOuter (m (xLoc d)) (m (yLoc d)) (widL L) k1.val)) k0_t2_trips
    isplitr; · iexact Hmw
    isplitl [Hx]; · iexact Hx
    isplitl [Hs0]; · iexact Hs0
    isplitl [Hs1]; · iexists _; iexact Hs1
    isplitl [Hsem1]; · iexact Hsem1
    iexists (insert (SemLoc.dma cc0_scoped1.sem, (default : HIx 1)) W'); isplitr
    · ipureintro; intro p hp
      rcases Finset.mem_insert.mp hp with hp | hp
      · exact .inr (hp ▸ rfl)
      · exact hW' p hp
    · iexact HO
  · unfold inv1
    isplitr; · ipureintro; rfl
    isplitl [Hmw]; · iexact Hmw
    isplitl [Hx']; · iexact Hx'
    isplitl [Hs0]; · iexact Hs0
    isplitl [Hs1']; · iexists _; iexact Hs1'
    isplitl [Hsem1]; · iexact Hsem1
    iexists (insert (SemLoc.dma cc0_scoped0.sem, (default : HIx 1)) W); isplitr
    · ipureintro; intro p hp
      rcases Finset.mem_insert.mp hp with hp | hp
      · exact .inr (hp ▸ rfl)
      · exact .inl hp
    · iexact HO
  iintro %accF HI
  unfold inv1
  icases HI with ⟨%haccF, -, Hx, Hs0, ⟨%f1F, Hs1⟩, Hsem1, %WF, %hWF, HO⟩
  -- the running vector stored and written out to the task's row
  sl_exec
  sl_step
  have haccF' : tile_body.sl.dma2 d L f2 accF = Cert.Spec.scOuter (m (xLoc d)) (m (yLoc d)) (widL L) 7 :=
    (sA_roundtrip d L f2 accF).trans (haccF.trans (congrArg (Cert.Spec.scOuter (m (xLoc d)) (m (yLoc d)) (widL L)) k0_t1_trips))
  isplitl [Hx Hy' Ho']
  · isplitl [Hx Hy']
    · isplitl [Hx]
      · iapply (Entails.of_eq (pts_x (F := F) d L _ _)); iexact Hx
      · iapply (Entails.of_eq (pts_y (F := F) d L _ _)); iexact Hy'
    · iapply (Entails.of_eq ((pts_oRow (F := F) d L _).trans (pointsTo_congr fun j hj => oRow_final m d L _ haccF' j hj)))
      iexact Ho'
  isplitl [Hs0 Hs1 Hs2' Hbufs]
  · isplitl [Hs0]; · iexists _; iapply (Entails.of_eq (pts_s0 (F := F) d L _)); iexact Hs0
    isplitl [Hs1]; · iexists _; iapply (Entails.of_eq (pts_s1 (F := F) d L _)); iexact Hs1
    isplitl [Hs2']; · iexists _; iapply (Entails.of_eq (pts_s2 (F := F) d L _)); iexact Hs2'
    iexact Hbufs
  isplitl [Hsem0 Hsem1 Hsem2 Hsems]
  · isplitl [Hsem0]; · iexact Hsem0
    isplitl [Hsem1]; · iexact Hsem1
    isplitl [Hsem2]; · iexact Hsem2
    iexact Hsems
  iexists (insert (SemLoc.dma cc0_scoped2.sem, (default : HIx 1)) WF); isplitr
  · ipureintro; intro p hp
    rcases Finset.mem_insert.mp hp with hp | hp
    · exact .inr (hp ▸ rfl)
    · exact hWF p hp
  · iexact HO

end Tile

end Cert.Kernel.Hand

end
-- ==== Proof.K.SC.lean ====
/-
  The vector subcores' call as the launch theorem wants it: what the handshakes carry and how the operands split among the
  2 x 16 tasks (imported), and the obligation for one task — the printed body at the task's grid coordinates, from the
  task's operands and the subcore's own storage to the task's results and the storage back.
-/
import proofs.«209113_g38259568672962_cont_8to1_b_1629_19_alg».proof.Proof.K.SCBody

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

-- the kernel's memrefs, spelt as the body table passes them
local notation "xW" => (Memref.whole Cert.Kernel.main_arg0_scv : Memref Cert.Kernel.sig Kind.scVector Space.hbm Cert.Kernel.S8x96x224x224 EltTy.f32)
local notation "yW" => (Memref.whole Cert.Kernel.main_arg1_scv : Memref Cert.Kernel.sig Kind.scVector Space.hbm Cert.Kernel.S8x224x224 EltTy.i32)
local notation "oW" => (Memref.whole Cert.Kernel.main_v0_scv : Memref Cert.Kernel.sig Kind.scVector Space.hbm Cert.Kernel.S32x16 EltTy.f32)
local notation "sY" => (Memref.whole Cert.Kernel.cc0_scratch0 : Memref Cert.Kernel.sig Kind.scVector Space.vmem Cert.Kernel.S56x128 EltTy.i32)
local notation "sX" => (Memref.whole Cert.Kernel.cc0_scratch1 : Memref Cert.Kernel.sig Kind.scVector Space.vmem Cert.Kernel.S96x8x128 EltTy.f32)
local notation "sA" => (Memref.whole Cert.Kernel.cc0_scratch2 : Memref Cert.Kernel.sig Kind.scVector Space.vmem Cert.Kernel.S16 EltTy.f32)

variable [FloatOps F]

/-! ## The launch theorem's obligation for the call -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather_sum (coordsV c s)
          xW (Memref.isWhole_whole _) yW (Memref.isWhole_whole _) oW (Memref.isWhole_whole _)
          sY (Memref.isWhole_whole _) sX (Memref.isWhole_whole _) sA (Memref.isWhole_whole _) cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hy : YOK m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hy O W hO).trans (wp_mono frame _ _ fun _ => obl_post)

end Cert.Kernel.Hand

end
-- ==== Proof.K.Run.lean ====
/-
  The program's run: every weakly fair execution of all the threads — @main on the TensorCore, the two sequencers, the
  thirty-two vector subcores — terminates, nothing faulting, with the result array at the specification's value of the
  kernel and the two arguments unchanged, whenever every label names a class.
-/
import proofs.«209113_g38259568672962_cont_8to1_b_1629_19_alg».proof.Proof.K.Launch
import proofs.«209113_g38259568672962_cont_8to1_b_1629_19_alg».proof.Proof.K.SC

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The program's run -/

/-- Every final memory: the result at the specification's value, the arguments unchanged. -/
def QC : PUnit × MemSt nD τ sig (Elt F) → Prop := fun r => ∀ c : Dev nD,
  r.2.mem ((SparseCore.T c).loc main_v4) = (Cert.Spec.kernelVal (m (xLoc c)) (m (yLoc c)) : Buf (Elt F) ((SparseCore.T c).loc main_v4))
    ∧ r.2.mem (xLoc c) = m (xLoc c) ∧ r.2.mem (yLoc c) = m (yLoc c)

theorem run_main [∀ e, Nonempty (Elt F e)] (hy : YOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hy)
    (fun q _ => match q with | 0 => vecSplit m)
    m ρ main (fun d => GT (F := F) d) (FIN m) (u₀ (F := F)) (sep_elim_left.trans (hu₀ m)) (hmain m ρ hy) (fq m) (hfin m) (QC m)
    (fun _ h c => ⟨(h c).2.2, (h c).1, (h c).2.1⟩)

end Cert.Kernel.Hand

end
-- ==== Proof.PreFacts.lean ====
/-
  What the precondition says of the two arguments: every label lies in 0 .. 95, read unsigned, and every score is a
  real number (neither infinity nor the junk value).

  The precondition is a conjunction of two "all entries" tests.  The first says |x| < +inf at every entry of the scores;
  the second says 0 <= y and y <= 95, both comparisons signed, at every entry of the labels.  A conjunction word is 1
  exactly when both its operands are; an and-reduction over all axes that comes out 1 met only 1s; a signed word between
  0 and 95 is, read unsigned, below 96; and an extended real whose absolute value max(x, -x) lies strictly below +inf is
  neither +inf nor -inf.
-/
import proofs.«209113_g38259568672962_cont_8to1_b_1629_19_alg».proof.Proof.Gen.Pre_input_domain
import Idealize.ShloMosaic.Lib.ReduceAll
import Idealize.ShloMosaic.Lib.ValueIdx
import Idealize.ShloMosaic.PureOps.Ideal

noncomputable section

namespace Cert.Hand.PreFacts

open Idealize.ShloMosaic Idealize.ShloMosaic.ValueIdx

/-- The rank-0 shape has one index. -/
instance : Subsingleton Cert.Pre_input_domain.S_.Idx := ⟨fun a b => funext fun d => d.elim0⟩

/-- A word between 0 and 95 signed is below 96 unsigned. -/
theorem toNat_lt_96 (w : BitVec 32) (h0 : IntOp.cmpi .sge w (0#32) = 1#1) (h1 : IntOp.cmpi .sle w (95#32) = 1#1) :
    w.toNat < 96 := by
  rw [IntOp.cmpi_sge] at h0
  rw [IntOp.cmpi_sle] at h1
  have e0 : (0#32 : BitVec 32).toInt = 0 := by decide
  have e1 : (95#32 : BitVec 32).toInt = 95 := by decide
  rw [e0] at h0
  rw [e1] at h1
  have h32 := w.isLt
  have := BitVec.toInt_eq_toNat_cond w
  split at this <;> omega

/-- The two conjuncts of the precondition, each at every entry. -/
theorem split_pre {F : FTy → Type} [FloatOps F] (x : FVec F Cert.Pre_input_domain.S8x96x224x224 .f32)
    (y : IVec Cert.Pre_input_domain.S8x224x224 32)
    (h : Cert.Pre_input_domain.fn (F := F) x y = fun _ => 1#1) :
    (∀ i, FloatOps.cmpf .olt (FloatOps.hostAbsf (x i)) (FloatOps.ofBits (F := F) .f32 0x7F800000#32) = 1#1)
    ∧ (∀ j, IntOp.cmpi .sge (y j) (0#32) = 1#1 ∧ IntOp.cmpi .sle (y j) (95#32) = 1#1) := by
  have e := congrFun h ix0
  dsimp only [Cert.Pre_input_domain.fn] at e
  obtain ⟨e1, e2⟩ := IntOp.andi_eq_one.1 e
  refine ⟨fun i => ?_, fun j => ?_⟩
  · exact Host.reduce_andi_all _ _ _ _ _ e1 i
  · have := Host.reduce_andi_all _ _ _ _ _ e2 j
    exact IntOp.andi_eq_one.1 this

/-- Every label, read unsigned, is below 96. -/
theorem range_of_pre {F : FTy → Type} [FloatOps F] (x : FVec F Cert.Pre_input_domain.S8x96x224x224 .f32)
    (y : IVec Cert.Pre_input_domain.S8x224x224 32)
    (h : Cert.Pre_input_domain.fn (F := F) x y = fun _ => 1#1) : ∀ j, (y j).toNat < 96 := fun j =>
  toNat_lt_96 (y j) ((split_pre x y h).2 j).1 ((split_pre x y h).2 j).2

/-- Every score is a real number. -/
theorem finite_of_pre (x : FVec Ideal Cert.Pre_input_domain.S8x96x224x224 .f32)
    (y : IVec Cert.Pre_input_domain.S8x224x224 32)
    (h : Cert.Pre_input_domain.fn (F := Ideal) x y = fun _ => 1#1) : ∀ i, ∃ r : ℝ, x i = (r : EReal) := by
  intro i
  have e := (split_pre x y h).1 i
  have hinf : Ideal.ofBits .f32 0x7F800000#32 = (⊤ : EReal) := by simp [Ideal.ofBits, Ideal.ieee]
  have e' : x i < (⊤ : EReal) ∧ -(x i) < (⊤ : EReal) := by
    have h1 : Ideal.cmp .olt (max (x i) (-(x i))) (Ideal.ofBits .f32 0x7F800000#32) = 1#1 := e
    rw [hinf] at h1
    unfold Ideal.cmp at h1
    have hb : ∀ b : Bool, BitVec.ofBool b = 1#1 → b = true := by decide
    have h2 := hb _ h1
    simpa using h2
  generalize x i = v at e'
  induction v using EReal.rec with
  | bot => simp at e'
  | coe r => exact ⟨r, rfl⟩
  | top => simp at e'

end Cert.Hand.PreFacts

end
-- ==== Proof.RefBridge.Sums.lean ====
/-
  Finite sums of real numbers over ranges of natural numbers, regrouped.

  A sum over a range of a * b numbers is a sum of a blocks of b (`sum_range_mul`).  Read through it, a flat position
  n = (b * 224 + h) * 224 + w below 8 * 224 * 224 runs over all triples (b, h, w) (`sum_flat`); the trips of the 32 vector
  subcores — subcore wid = 4 b + q, band k1, trip k2 = 8 r + c, lane l, standing for row h = 56 q + 8 k1 + r and column
  w = 16 c + l — run over all triples (b, h, w) with w < 128 (`sum_sc`); and the 224 columns are the first 128 and the
  other 96 (`sum_split`).
-/
import Idealize.ShloMosaic.PureOps.Ideal.Laws
import Mathlib.Algebra.BigOperators.Intervals

open Finset

namespace Cert.Hand.RefBridge

/-- A sum over a range of a * b numbers, cut into a blocks of b. -/
theorem sum_range_mul (f : ℕ → ℝ) (a b : ℕ) :
    ∑ n ∈ range (a * b), f n = ∑ i ∈ range a, ∑ j ∈ range b, f (i * b + j) := by
  induction a with
  | zero => simp
  | succ a ih =>
    rw [Nat.add_mul, Nat.one_mul, Finset.sum_range_add, ih, Finset.sum_range_succ]

/-- Moving the outermost of four sums innermost. -/
theorem sum_comm4 (f : ℕ → ℕ → ℕ → ℕ → ℝ) (A B C D : Finset ℕ) :
    ∑ l ∈ A, ∑ k ∈ B, ∑ r ∈ C, ∑ c ∈ D, f l k r c = ∑ k ∈ B, ∑ r ∈ C, ∑ c ∈ D, ∑ l ∈ A, f l k r c := by
  rw [Finset.sum_comm]
  refine Finset.sum_congr rfl fun k _ => ?_
  rw [Finset.sum_comm]
  refine Finset.sum_congr rfl fun r _ => ?_
  rw [Finset.sum_comm]

/-- The flat position n = (b * 224 + h) * 224 + w runs over all triples (b, h, w). -/
theorem sum_flat (g : ℕ → ℕ → ℕ → ℝ) :
    ∑ n ∈ range 401408, g (n / 50176) (n / 224 % 224) (n % 224)
      = ∑ b ∈ range 8, ∑ h ∈ range 224, ∑ w ∈ range 224, g b h w := by
  rw [show (401408 : ℕ) = 8 * 50176 from rfl, sum_range_mul]
  refine Finset.sum_congr rfl fun b hb => ?_
  rw [show (50176 : ℕ) = 224 * 224 from rfl, sum_range_mul]
  refine Finset.sum_congr rfl fun h hh => ?_
  refine Finset.sum_congr rfl fun w hw => ?_
  have hb' := Finset.mem_range.1 hb
  have hh' := Finset.mem_range.1 hh
  have hw' := Finset.mem_range.1 hw
  have e1 : (b * (224 * 224) + (h * 224 + w)) / (224 * 224) = b := by omega
  have e2 : (b * (224 * 224) + (h * 224 + w)) / 224 % 224 = h := by omega
  have e3 : (b * (224 * 224) + (h * 224 + w)) % 224 = w := by omega
  rw [e1, e2, e3]

/-- The 32 x 16 x 7 x 64 trips of the vector subcores run over all triples (b, h, w) with w < 128. -/
theorem sum_sc (P : ℕ → ℕ → ℕ → ℝ) :
    ∑ wid ∈ range 32, ∑ l ∈ range 16, ∑ k1 ∈ range 7, ∑ k2 ∈ range 64,
        P (wid / 4) ((wid % 4) * 56 + k1 * 8 + k2 / 8) ((k2 % 8) * 16 + l)
      = ∑ b ∈ range 8, ∑ h ∈ range 224, ∑ w ∈ range 128, P b h w := by
  rw [show (32 : ℕ) = 8 * 4 from rfl, sum_range_mul]
  refine Finset.sum_congr rfl fun b hb => ?_
  rw [show (224 : ℕ) = 4 * 56 from rfl, sum_range_mul]
  refine Finset.sum_congr rfl fun q hq => ?_
  have hq' := Finset.mem_range.1 hq
  have e1 : (b * 4 + q) / 4 = b := by omega
  have e2 : (b * 4 + q) % 4 = q := by omega
  rw [e1, e2]
  -- right side: rows of the quarter as 7 bands of 8, columns as 8 groups of 16
  rw [show (56 : ℕ) = 7 * 8 from rfl, sum_range_mul]
  have hR : ∀ k1 ∈ range 7, ∀ r ∈ range 8,
      ∑ w ∈ range 128, P b (q * (7 * 8) + (k1 * 8 + r)) w
        = ∑ c ∈ range 8, ∑ l ∈ range 16, P b (q * (7 * 8) + (k1 * 8 + r)) (c * 16 + l) := by
    intro k1 _ r _
    rw [show (128 : ℕ) = 8 * 16 from rfl, sum_range_mul]
  rw [Finset.sum_congr rfl fun k1 hk1 => Finset.sum_congr rfl fun r hr => hR k1 hk1 r hr]
  -- left side: a trip number as 8 rows of 8 column groups
  have hL : ∀ l ∈ range 16, ∀ k1 ∈ range 7,
      ∑ k2 ∈ range 64, P b (q * (7 * 8) + k1 * 8 + k2 / 8) ((k2 % 8) * 16 + l)
        = ∑ r ∈ range 8, ∑ c ∈ range 8, P b (q * (7 * 8) + (k1 * 8 + r)) (c * 16 + l) := by
    intro l _ k1 _
    rw [show (64 : ℕ) = 8 * 8 from rfl, sum_range_mul]
    refine Finset.sum_congr rfl fun r _ => ?_
    refine Finset.sum_congr rfl fun c hc => ?_
    have hc' := Finset.mem_range.1 hc
    have e3 : (r * 8 + c) / 8 = r := by omega
    have e4 : (r * 8 + c) % 8 = c := by omega
    rw [e3, e4, Nat.add_assoc]
  rw [Finset.sum_congr rfl fun l hl => Finset.sum_congr rfl fun k1 hk1 => hL l hl k1 hk1]
  exact sum_comm4 (fun l k1 r c => P b (q * (7 * 8) + (k1 * 8 + r)) (c * 16 + l)) _ _ _ _

/-- All columns are the first 128 and the other 96. -/
theorem sum_split (P : ℕ → ℕ → ℕ → ℝ) :
    ∑ b ∈ range 8, ∑ h ∈ range 224, ∑ w ∈ range 224, P b h w
      = (∑ b ∈ range 8, ∑ h ∈ range 224, ∑ w ∈ range 128, P b h w)
        + ∑ b ∈ range 8, ∑ h ∈ range 224, ∑ j ∈ range 96, P b h (128 + j) := by
  rw [← Finset.sum_add_distrib]
  refine Finset.sum_congr rfl fun b _ => ?_
  rw [← Finset.sum_add_distrib]
  refine Finset.sum_congr rfl fun h _ => ?_
  rw [show (224 : ℕ) = 128 + 96 from rfl, Finset.sum_range_add]

end Cert.Hand.RefBridge
-- ==== Proof.RefBridge.Kernel.lean ====
/-
  The kernel's value in closed form over the real numbers.

  Where every selected score pick x y b h w is a real number P b h w, each stage of the kernel's value is a real number
  too, and a running difference from zero is minus the sum of what was subtracted: a vector subcore's lane total is minus
  the sum of its 7 x 64 gathered scores; a batch's term on the other processor is the sum over its 224 rows and its 96
  live lanes (the masked lanes hold zero; a lane sum at the ideal values is the plain sum); the running scalar after the 8
  batches is minus the sum of the terms; and the host's sum of the 32 x 16 lane totals from zero is their plain sum.
-/
import proofs.«209113_g38259568672962_cont_8to1_b_1629_19_alg».proof.Proof.Spec
import proofs.«209113_g38259568672962_cont_8to1_b_1629_19_alg».proof.Proof.RefBridge.Sums
import Idealize.ShloMosaic.Lib.ValueIdx
import Idealize.ShloMosaic.PureOps.Ideal.Laws

noncomputable section

namespace Cert.Hand.RefBridge

open Cert.Spec Idealize.ShloMosaic Idealize.ShloMosaic.ValueIdx Finset

/-- The coercion of the reals into the extended reals commutes with finite sums. -/
theorem coe_sum {ι : Type} (s : Finset ι) (f : ι → ℝ) : ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- A sum of real numbers over Fin n, coerced term by term, is the coerced sum over the range. -/
theorem sum_fin_coe (n : ℕ) (f : ℕ → ℝ) : ∑ h : Fin n, ((f h.val : ℝ) : EReal) = ((∑ h ∈ range n, f h : ℝ) : EReal) := by
  rw [Fin.sum_univ_eq_sum_range (fun h => ((f h : ℝ) : EReal)) n, coe_sum]

/-- A row of 128 lanes of which the first 96 hold real numbers and the others zero sums to the sum of the 96. -/
theorem sum_mask (f : ℕ → ℝ) :
    ∑ j : Fin 128, (if j.val < 96 then ((f j.val : ℝ) : EReal) else 0) = ((∑ j ∈ range 96, f j : ℝ) : EReal) := by
  rw [Fin.sum_univ_eq_sum_range (fun j => if j < 96 then ((f j : ℝ) : EReal) else 0) 128,
    show (128 : ℕ) = 96 + 32 from rfl, Finset.sum_range_add, coe_sum]
  have h1 : ∑ j ∈ range 96, (if j < 96 then ((f j : ℝ) : EReal) else 0) = ∑ j ∈ range 96, ((f j : ℝ) : EReal) :=
    Finset.sum_congr rfl fun j hj => if_pos (Finset.mem_range.1 hj)
  have h2 : ∑ j ∈ range 32, (if 96 + j < 96 then ((f (96 + j) : ℝ) : EReal) else 0) = 0 :=
    Finset.sum_eq_zero fun j _ => if_neg (by omega)
  rw [h1, h2, add_zero]

/-- A rank-3 index set is the product of its three coordinate ranges … -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : ℕ} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The real number subcore wid gathers on lane l at trip k2 of band k1. -/
def scR (P : ℕ → ℕ → ℕ → ℝ) (wid k1 k2 l : ℕ) : ℝ := P (wid / 4) ((wid % 4) * 56 + k1 * 8 + k2 / 8) ((k2 % 8) * 16 + l)

/-- After n trips of a band the running vector is what it started from minus the sum of what the trips gathered. -/
theorem scInner_closed (x : FVec Ideal SX .f32) (y : IVec SY 32) (P : ℕ → ℕ → ℕ → ℝ)
    (hP : ∀ b h w, pick x y b h w = (P b h w : EReal)) (wid k1 : ℕ) (A : S16.Idx → ℝ) (acc : FVec Ideal S16 .f32)
    (hacc : ∀ l, acc l = (A l : EReal)) (n : ℕ) (l : S16.Idx) :
    scInner x y wid k1 acc n l = ((A l - ∑ k2 ∈ range n, scR P wid k1 k2 (l 0).val : ℝ) : EReal) := by
  induction n with
  | zero => simp [scInner, hacc]
  | succ n ih =>
    show scInner x y wid k1 acc n l - scG x y wid k1 n l = _
    rw [ih]
    show _ - pick x y (wid / 4) ((wid % 4) * 56 + k1 * 8 + n / 8) ((n % 8) * 16 + (l 0).val) = _
    rw [hP, ← EReal.coe_sub, Finset.sum_range_succ]
    congr 1
    unfold scR; ring

/-- After n whole bands the running vector is minus the sum of everything gathered so far. -/
theorem scOuter_closed (x : FVec Ideal SX .f32) (y : IVec SY 32) (P : ℕ → ℕ → ℕ → ℝ)
    (hP : ∀ b h w, pick x y b h w = (P b h w : EReal)) (wid n : ℕ) (l : S16.Idx) :
    scOuter x y wid n l = ((-(∑ k1 ∈ range n, ∑ k2 ∈ range 64, scR P wid k1 k2 (l 0).val) : ℝ) : EReal) := by
  induction n generalizing l with
  | zero =>
    show Ideal.ofBits .f32 0x00000000#32 = _
    rw [Ideal.ofBits_zero_f32]; simp
  | succ n ih =>
    show scInner x y wid n (scOuter x y wid n) 64 l = _
    rw [scInner_closed x y P hP wid n (fun l => -(∑ k1 ∈ range n, ∑ k2 ∈ range 64, scR P wid k1 k2 (l 0).val)) _
      (fun l => ih l) 64 l, Finset.sum_range_succ (fun k1 => ∑ k2 ∈ range 64, scR P wid k1 k2 (l 0).val) n]
    congr 1; ring

/-- A lane total: minus the sum of the subcore's 7 x 64 gathered scores on that lane. -/
theorem scOut_closed (x : FVec Ideal SX .f32) (y : IVec SY 32) (P : ℕ → ℕ → ℕ → ℝ)
    (hP : ∀ b h w, pick x y b h w = (P b h w : EReal)) (a : Fin 32) (l : Fin 16) :
    scOut x y (ix2 a l) = ((-(∑ k1 ∈ range 7, ∑ k2 ∈ range 64, scR P a.val k1 k2 l.val) : ℝ) : EReal) :=
  scOuter_closed x y P hP a.val 7 _

/-- The block of selected scores at row h, lane j: the score of column 128 + j on a live lane, zero on a masked one. -/
theorem tcW_ix3 (x : FVec Ideal SX .f32) (y : IVec SY 32) (P : ℕ → ℕ → ℕ → ℝ)
    (hP : ∀ b h w, pick x y b h w = (P b h w : EReal)) (b : ℕ) (a : Fin 1) (h : Fin 224) (j : Fin 128) :
    tcW x y b (ix3 a h j) = if j.val < 96 then ((P b h.val (128 + j.val) : ℝ) : EReal) else 0 := by
  show (if j.val < 96 then pick x y b h.val (128 + j.val) else Ideal.ofBits .f32 0x00000000#32) = _
  rw [hP, Ideal.ofBits_zero_f32]

/-- A batch's term: the sum of its selected scores over the 224 rows and the 96 live lanes. -/
theorem tcTerm_closed (x : FVec Ideal SX .f32) (y : IVec SY 32) (P : ℕ → ℕ → ℕ → ℝ)
    (hP : ∀ b h w, pick x y b h w = (P b h w : EReal)) (b : ℕ) :
    tcTerm x y b = ((∑ h ∈ range 224, ∑ j ∈ range 96, P b h (128 + j) : ℝ) : EReal) := by
  refine (Ideal.multiReduction_add_total (shapeCast S1x1x224x128 (tcW x y b) shapeCasts_W) 0x00000000#32 reduces_W (by decide) (.inl rfl) rfl _).trans ?_
  refine (Equiv.sum_comp (Shape.reshapeEquiv shapeCasts_W) (tcW x y b)).trans ?_
  rw [sum_idx3]
  simp only [Finset.univ_unique, Finset.sum_singleton, tcW_ix3 x y P hP]
  rw [Finset.sum_congr rfl fun (h : Fin 224) _ => sum_mask (fun j => P b h.val (128 + j))]
  exact sum_fin_coe 224 (fun h => ∑ j ∈ range 96, P b h (128 + j))

/-- The running scalar after n batches is minus the sum of their terms. -/
theorem tcAcc_closed (x : FVec Ideal SX .f32) (y : IVec SY 32) (T : ℕ → ℝ) (hT : ∀ b, tcTerm x y b = (T b : EReal)) (n : ℕ) :
    tcAcc x y n = ((-(∑ b ∈ range n, T b) : ℝ) : EReal) := by
  induction n with
  | zero =>
    show Ideal.ofBits .f32 0x00000000#32 = _
    rw [Ideal.ofBits_zero_f32]; simp
  | succ n ih =>
    show tcAcc x y n - tcTerm x y n = _
    rw [ih, hT, ← EReal.coe_sub, Finset.sum_range_succ]
    congr 1; ring

/-- THE KERNEL'S VALUE: minus the sum of everything the subcores gathered, plus minus the sum of the batches' terms. -/
theorem kernelVal_closed (x : FVec Ideal SX .f32) (y : IVec SY 32) (P : ℕ → ℕ → ℕ → ℝ)
    (hP : ∀ b h w, pick x y b h w = (P b h w : EReal)) (i : S_.Idx) :
    kernelVal x y i
      = ((-(∑ wid ∈ range 32, ∑ l ∈ range 16, ∑ k1 ∈ range 7, ∑ k2 ∈ range 64, scR P wid k1 k2 l)
          + -(∑ b ∈ range 8, ∑ h ∈ range 224, ∑ j ∈ range 96, P b h (128 + j)) : ℝ) : EReal) := by
  have h1 : Host.reduceAdd (scOut x y) (constant (F := Ideal) S_ .f32 0x00000000#32) reducesTo_sc h_S_ i
      = ((-(∑ wid ∈ range 32, ∑ l ∈ range 16, ∑ k1 ∈ range 7, ∑ k2 ∈ range 64, scR P wid k1 k2 l) : ℝ) : EReal) := by
    simp only [Host.reduceAdd, Ideal.hostReduceAdd_def]
    rw [Ideal.hostReduceAdd_total reducesTo_sc (fun b => b.elim0) (scOut x y) _ i, constant_apply, Ideal.ofBits_zero_f32,
      zero_add, sum_idx2]
    simp only [scOut_closed x y P hP]
    rw [Finset.sum_congr rfl fun (a : Fin 32) _ =>
      sum_fin_coe 16 (fun l => -(∑ k1 ∈ range 7, ∑ k2 ∈ range 64, scR P a.val k1 k2 l))]
    rw [sum_fin_coe 32 (fun a => ∑ l ∈ range 16, -(∑ k1 ∈ range 7, ∑ k2 ∈ range 64, scR P a k1 k2 l))]
    congr 1
    simp only [Finset.sum_neg_distrib]
  have h2 : shapeCast S_ (tcOut x y) shapeCasts_tc i
      = ((-(∑ b ∈ range 8, ∑ h ∈ range 224, ∑ j ∈ range 96, P b h (128 + j)) : ℝ) : EReal) :=
    tcAcc_closed x y (fun b => ∑ h ∈ range 224, ∑ j ∈ range 96, P b h (128 + j)) (fun b => tcTerm_closed x y P hP b) 8
  show Host.reduceAdd (scOut x y) (constant (F := Ideal) S_ .f32 0x00000000#32) reducesTo_sc h_S_ i
    + shapeCast S_ (tcOut x y) shapeCasts_tc i = _
  rw [h1, h2, ← EReal.coe_add]

end Cert.Hand.RefBridge

end
-- ==== Proof.RefBridge.Ref.lean ====
/-
  The reference's value read down to the scores it selects.

  The reference lays the scores out as s[n, c] with n = (b * 224 + h) * 224 + w, and the labels as a column idx[n].  With
  every label in 0 .. 95: the normalisation (add 96 to a negative index) leaves the label unchanged; the bounds test
  0 <= idx <= 95, and-reduced over an axis of extent one, is true; the gather reads s[n, idx[n]], the clamp of a start
  index to [0, 95] changing nothing; the select takes the gathered score, not the junk constant.  So the negated entry
  n is minus x[b, y[b, h, w], h, w], and the result is zero plus the sum of these over the 401408 positions.
-/
import proofs.«209113_g38259568672962_cont_8to1_b_1629_19_alg».proof.Proof.ReadP
import proofs.«209113_g38259568672962_cont_8to1_b_1629_19_alg».proof.Proof.Spec
import proofs.«209113_g38259568672962_cont_8to1_b_1629_19_alg».proof.Proof.RefBridge.Kernel
import Idealize.ShloMosaic.Lib.ValueIdx
import Idealize.ShloMosaic.Lib.Affine

noncomputable section

namespace Cert.Hand.RefBridge

open Cert.ReferenceIdeal Cert.ReferenceIdeal.Gen Cert.ReferenceIdeal.ReadP Idealize.ShloMosaic Idealize.ShloMosaic.ValueIdx Finset

/-! ## A label word in range -/

section Word
variable {w : BitVec 32}

theorem toInt_of_lt (hw : w.toNat < 96) : w.toInt = (w.toNat : Int) := BitVec.toInt_eq_toNat_of_lt (by omega)

/-- A label in range is not negative … -/
theorem slt_zero (hw : w.toNat < 96) : IntOp.cmpi .slt w 0#32 = 0#1 := by
  refine eq_zero_of_ne_one fun h => ?_
  rw [IntOp.cmpi_slt, toInt_of_lt hw, show (0#32 : BitVec 32).toInt = 0 from by decide] at h
  omega

/-- … it passes the lower bounds test … -/
theorem sge_zero (hw : w.toNat < 96) : IntOp.cmpi .sge w 0#32 = 1#1 := by
  rw [IntOp.cmpi_sge, toInt_of_lt hw, show (0#32 : BitVec 32).toInt = 0 from by decide]
  omega

/-- … and the upper one … -/
theorem sle_95 (hw : w.toNat < 96) : IntOp.cmpi .sle w 95#32 = 1#1 := by
  rw [IntOp.cmpi_sle, toInt_of_lt hw, show (95#32 : BitVec 32).toInt = 95 from by decide]
  omega

/-- … and clamping it into [0, 95] changes nothing. -/
theorem clamp_eq (hw : w.toNat < 96) : min w.toInt.toNat 95 = w.toNat := by
  rw [toInt_of_lt hw, Int.toNat_natCast]
  omega

end Word

/-- An and-fold of ones from one is one. -/
theorem foldl_andi_ones {ι : Type} (l : List ι) : l.foldl (fun r _ => IntOp.andi r (1#1 : BitVec 1)) (1#1) = 1#1 := by
  induction l with
  | nil => rfl
  | cons a l ih =>
    rw [List.foldl_cons, show IntOp.andi (1#1 : BitVec 1) 1#1 = 1#1 from by decide]
    exact ih

/-! ## The index column -/

/-- The label the index column holds at position k, under the range hypothesis: the normalisation is the identity. -/
theorem idx_read (y : (⟨S8x224x224, .i32⟩ : BufTy).Contents (Elt Ideal)) (hy : ∀ j, (y j).toNat < 96) (k : S401408x1x1.Idx) :
    val_main_call0_v5 (F := Ideal) y k = y (idx_main_v3 (idx_main_v4 (idx_main_call0_v5 k))) := by
  rw [val_main_call0_v5_apply, val_main_call0_v4_apply, val_main_call0_v1_apply, val_main_call0_v0_apply,
    val_main_call0_c_apply, val_main_v4_apply, val_main_v3_apply, slt_zero (hy _), select_zero]

/-- The bounds test is true everywhere. -/
theorem inb_read (y : (⟨S8x224x224, .i32⟩ : BufTy).Contents (Elt Ideal)) (hy : ∀ j, (y j).toNat < 96) (i : S401408x1.Idx) :
    val_main_call0_v12 (F := Ideal) y i = 1#1 := by
  have hv : val_main_call0_v11 (F := Ideal) y = fun _ => 1#1 := by
    funext k
    rw [val_main_call0_v11_apply, val_main_call0_v7_apply, val_main_call0_v10_apply, val_main_call0_v6_apply,
      val_main_call0_c_2_apply, val_main_call0_v9_apply, val_main_call0_v8_apply, val_main_call0_c_1_apply,
      idx_read y hy k, sge_zero (hy _), sle_95 (hy _)]
    decide
  unfold val_main_call0_v12
  rw [hv, Host.reduce_eq_foldl]
  exact foldl_andi_ones _

/-! ## The gather -/

abbrev gd := gather_S401408x96_S401408x1x1_S401408x1_n_1_0_0_1_2_11

/-- THE GATHER READ AT (n, 0): the operand's row n at the start index idx[n, 0, 0], read signed and clamped into [0, 95]. -/
theorem gather_apply {α : Type} (v : S401408x96.Idx → α) (idx : IVec S401408x1x1 32) (i : S401408x1.Idx) :
    Host.gather gd v idx i
      = v (ix2 ⟨(i 0).val, idx2_lt0 i⟩ ⟨min (idx (takeIdx i)).toInt.toNat 95, by omega⟩) := by
  unfold Host.gather
  congr 1
  funext a
  refine Fin.ext ?_
  match a with
  | ⟨0, _⟩ =>
    show gd.start i idx 0 + gd.batchCoord i 0 + gd.offCoord i 0 = (i 0).val
    rw [GatherDims.start_batching _ _ _ _ (show (0 : Fin 2) ∈ [(0 : Fin 2)] from List.mem_singleton.mpr rfl),
      GatherDims.offCoord_eq_zero _ _ _ (fun h => ((GatherDims.mem_sKept _ _).mp h).2 (List.mem_singleton.mpr rfl))]
    unfold GatherDims.batchCoord
    have hm0 : (0 : Fin S401408x96.rank) ∈ gd.operandBatchingDims := List.mem_singleton.mpr rfl
    rw [dif_pos hm0]
    simp only [Nat.zero_add, Nat.add_zero]
    rfl
  | ⟨1, _⟩ =>
    show gd.start i idx 1 + gd.batchCoord i 1 + gd.offCoord i 1 = min (idx (takeIdx i)).toInt.toNat 95
    rw [GatherDims.batchCoord_eq_zero _ _ _ (show (1 : Fin 2) ∉ [(0 : Fin 2)] from by decide),
      GatherDims.offCoord_eq_zero _ _ _ (fun h => ((GatherDims.mem_sKept _ _).mp h).1 (List.mem_singleton.mpr rfl))]
    simp only [Nat.add_zero]
    unfold GatherDims.start
    have hm1 : (1 : Fin S401408x96.rank) ∈ gd.startIndexMap := List.mem_singleton.mpr rfl
    rw [dif_pos hm1]
    have hsi : gd.siIdx i ⟨List.idxOf (1 : Fin 2) gd.startIndexMap,
        List.idxOf_lt_length_iff.2 (show (1 : Fin 2) ∈ [(1 : Fin 2)] from List.mem_singleton.mpr rfl)⟩ = takeIdx i := by
      funext b; refine Fin.ext ?_
      match b with
      | ⟨0, _⟩ => rfl
      | ⟨1, _⟩ => rfl
      | ⟨2, _⟩ => rfl
    rw [hsi]
    rfl

/-! ## The two layouts -/

/-- Row n, column c of the [401408, 96] layout is entry (n / 50176, c, n % 50176) of the [8, 96, 50176] one. -/
theorem scores_idx_a (n : Fin 401408) (c : Fin 96) :
    idx_main_v1 (idx_main_v2 (ix2 n c))
      = ix3 ⟨n.val / 50176, by have := n.isLt; omega⟩ c ⟨n.val % 50176, Nat.mod_lt _ (by decide)⟩ := by
  have hn := n.isLt
  have hc := c.isLt
  have h1 : (n.val * 96 + c.val) / 96 = n.val := by omega
  have h2 : (n.val * 96 + c.val) / 4816896 = n.val / 50176 := by
    rw [show (4816896 : ℕ) = 96 * 50176 from rfl, ← Nat.div_div_eq_div_mul, h1]
  funext a
  refine Fin.ext ?_
  match a with
  | ⟨0, _⟩ =>
    show (n.val * 96 + c.val) / 4816896 = n.val / 50176
    exact h2
  | ⟨1, _⟩ =>
    show (n.val * 96 + c.val) % 96 = c.val
    omega
  | ⟨2, _⟩ =>
    show (n.val * 96 + c.val) / 96 % 50176 = n.val % 50176
    rw [h1]

/-- Entry (b, c, s) of the [8, 96, 50176] layout is x[b, c, s / 224, s % 224]. -/
theorem scores_idx_b (b : Fin 8) (c : Fin 96) (s : Fin 50176) :
    idx_main_v0 (ix3 b c s) = Cert.Spec.ixX b.val c.val (s.val / 224) (s.val % 224) := by
  have hb := b.isLt
  have hc := c.isLt
  have hs := s.isLt
  funext a
  refine Fin.ext ?_
  match a with
  | ⟨0, _⟩ =>
    show ((b.val * 96 + c.val) * 50176 + s.val) / 4816896 = b.val % 8
    omega
  | ⟨1, _⟩ =>
    show ((b.val * 96 + c.val) * 50176 + s.val) / 50176 % 96 = c.val % 96
    omega
  | ⟨2, _⟩ =>
    show ((b.val * 96 + c.val) * 50176 + s.val) / 224 % 224 = s.val / 224 % 224
    omega
  | ⟨3, _⟩ =>
    show ((b.val * 96 + c.val) * 50176 + s.val) % 224 = s.val % 224 % 224
    omega

/-- Row n, column c of the laid-out scores is x[b, c, h, w] with n = (b * 224 + h) * 224 + w. -/
theorem scores_idx (n : Fin 401408) (c : Fin 96) :
    idx_main_v0 (idx_main_v1 (idx_main_v2 (ix2 n c))) = Cert.Spec.ixX (n.val / 50176) c.val (n.val / 224 % 224) (n.val % 224) := by
  rw [scores_idx_a, scores_idx_b]
  have hn := n.isLt
  have e1 : n.val % 50176 / 224 = n.val / 224 % 224 := by omega
  have e2 : n.val % 50176 % 224 = n.val % 224 := by omega
  show Cert.Spec.ixX (n.val / 50176) c.val (n.val % 50176 / 224) (n.val % 50176 % 224) = _
  rw [e1, e2]

/-- Position n of the index column is y[b, h, w] with n = (b * 224 + h) * 224 + w. -/
theorem labels_idx (j : S401408.Idx) :
    idx_main_v3 (idx_main_v4 (idx_main_call0_v5 (takeIdx (idx_main_v6 j))))
      = Cert.Spec.ixY ((j 0).val / 50176) ((j 0).val / 224 % 224) ((j 0).val % 224) := by
  have hn : (j 0).val < 401408 := (j 0).isLt
  funext a
  refine Fin.ext ?_
  match a with
  | ⟨0, _⟩ =>
    show ((((j 0).val / 1 * 1 + 0) * 1 + 0) / 1) / 50176 = (j 0).val / 50176 % 8
    omega
  | ⟨1, _⟩ =>
    show ((((j 0).val / 1 * 1 + 0) * 1 + 0) / 1) / 224 % 224 = (j 0).val / 224 % 224 % 224
    omega
  | ⟨2, _⟩ =>
    show ((((j 0).val / 1 * 1 + 0) * 1 + 0) / 1) % 224 = (j 0).val % 224 % 224
    omega

/-! ## The negated column and its sum -/

/-- A rank-1 index set is its coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) :=
  (Equiv.sum_comp (idxEquiv1 (n := n)).symm f).symm

/-- Row n of the laid-out scores at the column the label of position n names is the score that label selects. -/
theorem read_sel (x : (⟨S8x96x224x224, .f32⟩ : BufTy).Contents (Elt Ideal)) (y : (⟨S8x224x224, .i32⟩ : BufTy).Contents (Elt Ideal))
    (n : Fin 401408) (c : Fin 96) (m : ℕ) (hm : n.val = m)
    (hc : c.val = (y (Cert.Spec.ixY (m / 50176) (m / 224 % 224) (m % 224))).toNat) :
    val_main_v2 (F := Ideal) x (ix2 n c) = Cert.Spec.pick (F := Ideal) x y (m / 50176) (m / 224 % 224) (m % 224) := by
  subst hm
  rw [val_main_v2_apply, val_main_v1_apply, val_main_v0_apply, scores_idx, hc]
  rfl

/-- Entry n of the negated column is minus the score the label of position n selects. -/
theorem neg_read (x : (⟨S8x96x224x224, .f32⟩ : BufTy).Contents (Elt Ideal)) (y : (⟨S8x224x224, .i32⟩ : BufTy).Contents (Elt Ideal))
    (hy : ∀ j, (y j).toNat < 96) (j : S401408.Idx) :
    val_main_v7 (F := Ideal) x y j
      = -(Cert.Spec.pick (F := Ideal) x y ((j 0).val / 50176) ((j 0).val / 224 % 224) ((j 0).val % 224)) := by
  rw [val_main_v7_apply, val_main_v6_apply, val_main_v5_apply, inb_read y hy, select_one]
  show -(val_main_call0_v13 (F := Ideal) x y (idx_main_v6 j)) = _
  congr 1
  unfold val_main_call0_v13
  rw [gather_apply]
  refine read_sel x y _ _ (j 0).val ?_ ?_
  · show (j 0).val / 1 = (j 0).val
    exact Nat.div_one _
  · show min (val_main_call0_v5 (F := Ideal) y (takeIdx (idx_main_v6 j))).toInt.toNat 95 = _
    rw [idx_read y hy, labels_idx j]
    exact clamp_eq (hy _)

/-- THE REFERENCE'S VALUE: the sum over the 401408 positions of minus the selected score (from zero). -/
theorem ref_closed (x : (⟨S8x96x224x224, .f32⟩ : BufTy).Contents (Elt Ideal)) (y : (⟨S8x224x224, .i32⟩ : BufTy).Contents (Elt Ideal))
    (hy : ∀ j, (y j).toNat < 96) (P : ℕ → ℕ → ℕ → ℝ)
    (hP : ∀ b h w, Cert.Spec.pick (F := Ideal) x y b h w = (P b h w : EReal)) (i : S_.Idx) :
    val_main_v8 (F := Ideal) x y i = ((∑ n ∈ range 401408, -(P (n / 50176) (n / 224 % 224) (n % 224)) : ℝ) : EReal) := by
  rw [val_main_v8_apply]
  show (Ideal.ofBits .f32 0x00000000#32 : EReal) + _ = _
  rw [Ideal.ofBits_zero_f32, zero_add, sum_idx1]
  have hterm : ∀ a : Fin 401408, val_main_v7 (F := Ideal) x y (ix1 a)
      = ((-(P (a.val / 50176) (a.val / 224 % 224) (a.val % 224)) : ℝ) : EReal) := by
    intro a
    rw [neg_read x y hy]
    show -(Cert.Spec.pick (F := Ideal) x y (a.val / 50176) (a.val / 224 % 224) (a.val % 224)) = _
    rw [hP, EReal.coe_neg]
  rw [Finset.sum_congr rfl fun a _ => hterm a]
  exact sum_fin_coe 401408 (fun n => -(P (n / 50176) (n / 224 % 224) (n % 224)))

end Cert.Hand.RefBridge

end
-- ==== Proof.RefBridge.lean ====
/-
  The reference's value is the kernel's value.

  With every score a real number and every label in 0 .. 95, both values are sums of the same real numbers
  -x[b, y[b, h, w], h, w], one for each of the 8 x 224 x 224 positions (b, h, w): the reference adds them in the order of the
  flat position n = (b * 224 + h) * 224 + w; the kernel adds those of columns w < 128 grouped by vector subcore, band, trip
  and lane, and those of columns 128 <= w < 224 grouped by batch, row and lane.  Over the real numbers a finite sum does not
  depend on the grouping.
-/
import proofs.«209113_g38259568672962_cont_8to1_b_1629_19_alg».proof.Proof.ReadP
import proofs.«209113_g38259568672962_cont_8to1_b_1629_19_alg».proof.Proof.Spec
import proofs.«209113_g38259568672962_cont_8to1_b_1629_19_alg».proof.Proof.RefBridge.Sums
import proofs.«209113_g38259568672962_cont_8to1_b_1629_19_alg».proof.Proof.RefBridge.Kernel
import proofs.«209113_g38259568672962_cont_8to1_b_1629_19_alg».proof.Proof.RefBridge.Ref

noncomputable section

namespace Cert.Hand.RefBridge

open Idealize.ShloMosaic Finset

/-- THE BRIDGE: under the precondition's two facts the reference's result is the kernel's value. -/
theorem ref_eq_kernelVal (x : FVec Ideal Cert.Spec.SX .f32) (y : IVec Cert.Spec.SY 32)
    (hx : ∀ i, ∃ r : ℝ, x i = (r : EReal)) (hy : ∀ j, (y j).toNat < 96) :
    Cert.ReferenceIdeal.ReadP.val_main_v8 (F := Ideal) x y = Cert.Spec.kernelVal (F := Ideal) x y := by
  choose X hX using hx
  obtain ⟨P, hP⟩ : ∃ P : ℕ → ℕ → ℕ → ℝ, ∀ b h w, Cert.Spec.pick (F := Ideal) x y b h w = ((P b h w : ℝ) : EReal) :=
    ⟨fun b h w => X (Cert.Spec.ixX b (y (Cert.Spec.ixY b h w)).toNat h w), fun b h w => hX _⟩
  funext i
  rw [ref_closed x y hy P hP i, kernelVal_closed x y P hP i]
  rw [EReal.coe_eq_coe_iff, Finset.sum_neg_distrib, sum_flat P, sum_split P, neg_add, ← sum_sc P]
  rfl

end Cert.Hand.RefBridge

end
-- ==== Proof.Claims.lean ====
/-
  The five claims. Both printed kernels run to the end with the arguments unchanged (the run of the whole program, at the
  word-level instance and at the ideal one, its value dropped); the reference runs likewise (its run read back, the value
  dropped); the idealized kernel is the printed kernel's own text, no rewrite applied; and at the ideal instance the kernel's
  result, the specification's value of the two arguments, is the reference's: minus the sum over all (b, h, w) of the score
  the label selects. The precondition gives what the runs need: every label names a class (the subcores' gathers stay inside
  their scratch, and the select tree picks the labelled channel), and at the ideal instance every score is a real number
  (a running difference is minus a sum only of real numbers).
-/
import proofs.«209113_g38259568672962_cont_8to1_b_1629_19_alg».proof.Defs
import proofs.«209113_g38259568672962_cont_8to1_b_1629_19_alg».proof.Proof.KI.Run
import proofs.«209113_g38259568672962_cont_8to1_b_1629_19_alg».proof.Proof.K.Run
import proofs.«209113_g38259568672962_cont_8to1_b_1629_19_alg».proof.Proof.RunP
import proofs.«209113_g38259568672962_cont_8to1_b_1629_19_alg».proof.Proof.ReadP
import proofs.«209113_g38259568672962_cont_8to1_b_1629_19_alg».proof.Proof.PreFacts
import proofs.«209113_g38259568672962_cont_8to1_b_1629_19_alg».proof.Proof.RefBridge
import proofs.«209113_g38259568672962_cont_8to1_b_1629_19_alg».proof.Proof.Gen.ReferenceIdeal
import proofs.«209113_g38259568672962_cont_8to1_b_1629_19_alg».proof.Proof.Gen.Pre_input_domain

noncomputable section

namespace Cert.Proof.Claims

open Idealize.ShloMosaic Idealize.SL.Sem

/-- Under the precondition every label is below 96, at either instance. -/
theorem yok_K (m : (ℓ : Loc Cert.Kernel.nD Cert.Kernel.τ Cert.Kernel.sig) → Buf (Elt Bits) ℓ) (h : Cert.Pre_Kernel m) :
    Cert.Kernel.Hand.YOK m := fun d j => Cert.Hand.PreFacts.range_of_pre _ _ (h d) j
theorem yok_KI (m : (ℓ : Loc Cert.KernelIdeal.nD Cert.KernelIdeal.τ Cert.KernelIdeal.sig) → Buf (Elt Ideal) ℓ) (h : Cert.Pre_KernelIdeal m) :
    Cert.KernelIdeal.Hand.YOK m := fun d j => Cert.Hand.PreFacts.range_of_pre _ _ (h d) j

theorem frame_k : Cert.frame_Kernel := fun m g h =>
  (θ_run Cert.Kernel.defs _ _).mono (fun _ hq c => ⟨(hq c).2.1, (hq c).2.2⟩) (Cert.Kernel.Hand.run_main (F := Bits) m g (yok_K m h))

theorem frame_ki : Cert.frame_KernelIdeal := fun m g h =>
  (θ_run Cert.KernelIdeal.defs _ _).mono (fun _ hq c => ⟨(hq c).2.1, (hq c).2.2⟩) (Cert.KernelIdeal.Hand.run_main (F := Ideal) m g (yok_KI m h))

theorem frame_ri : Cert.frame_ReferenceIdeal := fun m ρ _ =>
  (θ_run Cert.ReferenceIdeal.defs _ _).mono (fun _ h c => (h c).2) (Cert.ReferenceIdeal.ValueP.run (F := Ideal) m ρ)

theorem algebraic : Cert.algebraic_KernelIdeal_ReferenceIdeal := by
  intro m g m' g' hpre hagree
  refine ⟨fun c => (Cert.Spec.kernelVal (F := Ideal) (m (Cert.KernelIdeal.Hand.xLoc c)) (m (Cert.KernelIdeal.Hand.yLoc c)) :
    Buf (Elt Ideal) ((c.tc : Thread Cert.KernelIdeal.nD Cert.KernelIdeal.τ).loc Cert.KernelIdeal.main_v4)),
    (θ_run Cert.KernelIdeal.defs _ _).mono (fun _ hq c => hq c) (Cert.KernelIdeal.Hand.run_main (F := Ideal) m g (yok_KI m hpre)), ?_⟩
  refine (θ_run Cert.ReferenceIdeal.defs _ _).mono (fun _ h c => ⟨(h c).1.trans ?_, (h c).2⟩)
    (Cert.ReferenceIdeal.ValueP.run (F := Ideal) m' g')
  rw [(hagree c).1, (hagree c).2, Cert.ReferenceIdeal.ReadP.val_main_v8_eq]
  exact Cert.Hand.RefBridge.ref_eq_kernelVal _ _ (Cert.Hand.PreFacts.finite_of_pre _ _ (hpre c)) (Cert.Hand.PreFacts.range_of_pre _ _ (hpre c))

end Cert.Proof.Claims

end
-- ==== Proof.lean ====
/-
  The certificate's claim: the kernel — a gather-and-sum of the labelled scores split between the vector subcores
  (columns below 128) and a pipelined call on the other processor (the remaining 96 columns), joined by the host — equals
  its reference at the ideal instance, and all three programs run to the end leaving their arguments as they were. The
  parts are in the modules under Proof/: the specification of the kernel's value (Spec), the precondition's content
  (PreFacts), the reference's value (RefBridge), each kernel's run (KI/ and K/), and the five claims (Claims).
-/
import proofs.«209113_g38259568672962_cont_8to1_b_1629_19_alg».proof.Defs
import proofs.«209113_g38259568672962_cont_8to1_b_1629_19_alg».proof.Proof.Claims
import proofs.«209113_g38259568672962_cont_8to1_b_1629_19_alg».proof.Proof.Gen.Kernel
import proofs.«209113_g38259568672962_cont_8to1_b_1629_19_alg».proof.Proof.Gen.KernelIdeal
import proofs.«209113_g38259568672962_cont_8to1_b_1629_19_alg».proof.Proof.Gen.ReferenceIdeal
import proofs.«209113_g38259568672962_cont_8to1_b_1629_19_alg».proof.Proof.Gen.Pre_input_domain
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_input_domain.Gen.facts,
    Claims.frame_k, Claims.frame_ki, Claims.frame_ri, trivial, Claims.algebraic⟩

end Cert.Proof

end
